-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v145)) (v1 : (c : Dev Cert.KernelIdeal.nD) → Buf (Elt Ideal) ((c.tc : Thread Cert.KernelIdeal.nD Cert.KernelIdeal.τ).loc Cert.KernelIdeal.main_v147)) (v2 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_v147) = v1 c
          ∧ r.2.mem ((c.tc : Thread Cert.KernelIdeal.nD Cert.KernelIdeal.τ).loc Cert.KernelIdeal.main_v149) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S100000x770 : Shape := ⟨2, ![100000, 770]⟩
abbrev S500x9 : Shape := ⟨2, ![500, 9]⟩
abbrev S500000 : Shape := ⟨1, ![500000]⟩
abbrev S100000 : Shape := ⟨1, ![100000]⟩
abbrev S3x128 : Shape := ⟨2, ![3, 128]⟩
abbrev S128 : Shape := ⟨1, ![128]⟩
abbrev S770x128 : Shape := ⟨2, ![770, 128]⟩
abbrev S9x128 : Shape := ⟨2, ![9, 128]⟩
abbrev S128x128 : Shape := ⟨2, ![128, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S100000x770 : S_.BroadcastsInDim S100000x770 (![] : Fin 0 → Fin S100000x770.rank)
  reducesTo_S100000x770_S_d0_1 : S100000x770.ReducesTo [0, 1] S_
  bcast_S_S500x9 : S_.BroadcastsInDim S500x9 (![] : Fin 0 → Fin S500x9.rank)
  reducesTo_S500x9_S_d0_1 : S500x9.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S770x128 : S_.BroadcastsInDim S770x128 (![] : Fin 0 → Fin S770x128.rank)
  reducesTo_S770x128_S_d0_1 : S770x128.ReducesTo [0, 1] S_
  bcast_S_S9x128 : S_.BroadcastsInDim S9x128 (![] : Fin 0 → Fin S9x128.rank)
  reducesTo_S9x128_S_d0_1 : S9x128.ReducesTo [0, 1] S_
  bcast_S_S128x128 : S_.BroadcastsInDim S128x128 (![] : Fin 0 → Fin S128x128.rank)
  reducesTo_S128x128_S_d0_1 : S128x128.ReducesTo [0, 1] S_

variable [Facts]

def fn_part8 {F : FTy → Type} [FloatOps F] (main_arg36 : FVec F S128 .f32) (main_arg37 : FVec F S128x128 .f32) (main_arg38 : FVec F S128 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg36
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x128 .f32 := Host.absf main_arg37
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg38
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  main_v153

def fn_part7 {F : FTy → Type} [FloatOps F] (main_arg33 : FVec F S128x128 .f32) (main_arg34 : FVec F S128 .f32) (main_arg35 : FVec F S128x128 .f32) (main_arg36 : FVec F S128 .f32) (main_arg37 : FVec F S128x128 .f32) (main_arg38 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg33
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg34
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg35
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg36 main_arg37 main_arg38 main_v133 main_v136

def fn_part6 {F : FTy → Type} [FloatOps F] (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg29
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg30
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg31
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg32
  fn_part7 (F := F) main_arg33 main_arg34 main_arg35 main_arg36 main_arg37 main_arg38 main_v118 main_v119

def fn_part5 {F : FTy → Type} [FloatOps F] (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg26
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg27
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg28
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg29 main_arg30 main_arg31 main_arg32 main_arg33 main_arg34 main_arg35 main_arg36 main_arg37 main_arg38 main_v98 main_v101 main_c_39

def fn_part4 {F : FTy → Type} [FloatOps F] (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v63 : IVec S_ 1) (main_v67 : IVec S_ 1) : IVec S_ 1 :=
  let main_v68 : IVec S_ 1 := andi main_v63 main_v67
  let main_v69 : FVec F S128 .f32 := Host.absf main_arg22
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg23
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg24
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg25
  let main_cst_32 : FVec F S_ .f32 := constant S_ .f32 0x7F800000#32
  fn_part5 (F := F) main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg19
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg20
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg21
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg15 : FVec F S9x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v33 : IVec S_ 1) : IVec S_ 1 :=
  let main_v34 : FVec F S9x128 .f32 := Host.absf main_arg15
  let main_cst_12 : FVec F S_ .f32 := constant S_ .f32 0x7F800000#32
  let main_v35 : FVec F S9x128 .f32 := broadcastInDim S9x128 ![] bcast_S_S9x128 main_cst_12
  let main_v36 : IVec S9x128 1 := cmpf .olt main_v34 main_v35
  let main_c_13 : IVec S_ 1 := constantI S_ 1 1#1
  let main_v37 : IVec S_ 1 := (fun x v => Host.reduce IntOp.andi x v reducesTo_S9x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg17
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg18
  let main_cst_18 : FVec F S_ .f32 := constant S_ .f32 0x7F800000#32
  let main_v50 : FVec F S128 .f32 := broadcastInDim S128 ![] bcast_S_S128 main_cst_18
  fn_part3 (F := F) main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg12 : FVec F S128 .f32) (main_arg13 : FVec F S770x128 .f32) (main_arg14 : FVec F S128 .f32) (main_arg15 : FVec F S9x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg12
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S770x128 .f32 := Host.absf main_arg13
  let main_cst_8 : FVec F S_ .f32 := constant S_ .f32 0x7F800000#32
  let main_v25 : FVec F S770x128 .f32 := broadcastInDim S770x128 ![] bcast_S_S770x128 main_cst_8
  let main_v26 : IVec S770x128 1 := cmpf .olt main_v24 main_v25
  let main_c_9 : IVec S_ 1 := constantI S_ 1 1#1
  let main_v27 : IVec S_ 1 := (fun x v => Host.reduce IntOp.andi x v reducesTo_S770x128_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : FVec F S50000x3 .f32) (main_arg1 : FVec F S100000x770 .f32) (main_arg2 : FVec F S500x9 .f32) (main_arg3 : IVec S500000 32) (main_arg4 : IVec S500000 32) (main_arg5 : IVec S500000 32) (main_arg6 : IVec S500000 32) (main_arg7 : IVec S100000 32) (main_arg8 : IVec S100000 32) (main_arg9 : IVec S100000 32) (main_arg10 : IVec S100000 32) (main_arg11 : FVec F S3x128 .f32) (main_arg12 : FVec F S128 .f32) (main_arg13 : FVec F S770x128 .f32) (main_arg14 : FVec F S128 .f32) (main_arg15 : FVec F S9x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S128x128 .f32) (main_arg32 : FVec F S128 .f32) (main_arg33 : FVec F S128x128 .f32) (main_arg34 : FVec F S128 .f32) (main_arg35 : FVec F S128x128 .f32) (main_arg36 : FVec F S128 .f32) (main_arg37 : FVec F S128x128 .f32) (main_arg38 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S100000x770 .f32 := Host.absf main_arg1
  let main_cst_0 : FVec F S_ .f32 := constant S_ .f32 0x7F800000#32
  let main_v5 : FVec F S100000x770 .f32 := broadcastInDim S100000x770 ![] bcast_S_S100000x770 main_cst_0
  let main_v6 : IVec S100000x770 1 := cmpf .olt main_v4 main_v5
  let main_c_1 : IVec S_ 1 := constantI S_ 1 1#1
  let main_v7 : IVec S_ 1 := (fun x v => Host.reduce IntOp.andi x v reducesTo_S100000x770_S_d0_1 h_S_) main_v6 main_c_1
  let main_v8 : IVec S_ 1 := andi main_v3 main_v7
  let main_v9 : FVec F S500x9 .f32 := Host.absf main_arg2
  let main_cst_2 : FVec F S_ .f32 := constant S_ .f32 0x7F800000#32
  let main_v10 : FVec F S500x9 .f32 := broadcastInDim S500x9 ![] bcast_S_S500x9 main_cst_2
  let main_v11 : IVec S500x9 1 := cmpf .olt main_v9 main_v10
  let main_c_3 : IVec S_ 1 := constantI S_ 1 1#1
  let main_v12 : IVec S_ 1 := (fun x v => Host.reduce IntOp.andi x v reducesTo_S500x9_S_d0_1 h_S_) main_v11 main_c_3
  let main_v13 : IVec S_ 1 := andi main_v8 main_v12
  let main_v14 : FVec F S3x128 .f32 := Host.absf main_arg11
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S50000x3 : Shape := ⟨2, ![50000, 3]⟩
abbrev S100000x770 : Shape := ⟨2, ![100000, 770]⟩
abbrev S500x9 : Shape := ⟨2, ![500, 9]⟩
abbrev S500000 : Shape := ⟨1, ![500000]⟩
abbrev S100000 : Shape := ⟨1, ![100000]⟩
abbrev S3x128 : Shape := ⟨2, ![3, 128]⟩
abbrev S128 : Shape := ⟨1, ![128]⟩
abbrev S770x128 : Shape := ⟨2, ![770, 128]⟩
abbrev S9x128 : Shape := ⟨2, ![9, 128]⟩
abbrev S128x128 : Shape := ⟨2, ![128, 128]⟩
abbrev S1x128 : Shape := ⟨2, ![1, 128]⟩
abbrev S50000x128 : Shape := ⟨2, ![50000, 128]⟩
abbrev S5000x3 : Shape := ⟨2, ![5000, 3]⟩
abbrev S5000x128 : Shape := ⟨2, ![5000, 128]⟩
abbrev S100000x128 : Shape := ⟨2, ![100000, 128]⟩
abbrev S2000x770 : Shape := ⟨2, ![2000, 770]⟩
abbrev S2000x128 : Shape := ⟨2, ![2000, 128]⟩
abbrev S500x128 : Shape := ⟨2, ![500, 128]⟩
abbrev S_ : Shape := ⟨0, ![]⟩
abbrev S500000x1 : Shape := ⟨2, ![500000, 1]⟩
abbrev S100000x1 : Shape := ⟨2, ![100000, 1]⟩
abbrev S50000 : Shape := ⟨1, ![50000]⟩
abbrev S50000x1 : Shape := ⟨2, ![50000, 1]⟩
abbrev S500 : Shape := ⟨1, ![500]⟩
abbrev S500x1 : Shape := ⟨2, ![500, 1]⟩
abbrev S500000x128 : Shape := ⟨2, ![500000, 128]⟩
abbrev S2000x1 : Shape := ⟨2, ![2000, 1]⟩
abbrev S5000x1 : Shape := ⟨2, ![5000, 1]⟩

abbrev nBuf : Space → Nat
  | .hbm => 229
  | .vmem => 86
  | .smem => 0
  | _ => 0

abbrev hbmTy0_0 (i : Nat) : BufTy := match i % 128 with
  | 0 => ⟨S50000x3, .f32⟩
  | 1 => ⟨S100000x770, .f32⟩
  | 2 => ⟨S500x9, .f32⟩
  | 3 => ⟨S500000, .i32⟩
  | 4 => ⟨S500000, .i32⟩
  | 5 => ⟨S500000, .i32⟩
  | 6 => ⟨S500000, .i32⟩
  | 7 => ⟨S100000, .i32⟩
  | 8 => ⟨S100000, .i32⟩
  | 9 => ⟨S100000, .i32⟩
  | 10 => ⟨S100000, .i32⟩
  | 11 => ⟨S3x128, .f32⟩
  | 12 => ⟨S128, .f32⟩
  | 13 => ⟨S770x128, .f32⟩
  | 14 => ⟨S128, .f32⟩
  | 15 => ⟨S9x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S128x128, .f32⟩
  | 32 => ⟨S128, .f32⟩
  | 33 => ⟨S128x128, .f32⟩
  | 34 => ⟨S128, .f32⟩
  | 35 => ⟨S128x128, .f32⟩
  | 36 => ⟨S128, .f32⟩
  | 37 => ⟨S128x128, .f32⟩
  | 38 => ⟨S128, .f32⟩
  | 39 => ⟨S1x128, .f32⟩
  | 40 => ⟨S50000x128, .bf16⟩
  | 41 => ⟨S1x128, .f32⟩
  | 42 => ⟨S100000x128, .bf16⟩
  | 43 => ⟨S1x128, .f32⟩
  | 44 => ⟨S500x128, .bf16⟩
  | 45 => ⟨S_, .f32⟩
  | 46 => ⟨S500000, .f32⟩
  | 47 => ⟨S_, .f32⟩
  | 48 => ⟨S100000, .f32⟩
  | 49 => ⟨S500000x1, .i32⟩
  | 50 => ⟨S100000, .f32⟩
  | 51 => ⟨S_, .f32⟩
  | 52 => ⟨S100000, .f32⟩
  | 53 => ⟨S100000, .f32⟩
  | 54 => ⟨S_, .f32⟩
  | 55 => ⟨S100000, .f32⟩
  | 56 => ⟨S100000, .f32⟩
  | 57 => ⟨S100000x1, .f32⟩
  | 58 => ⟨S_, .f32⟩
  | 59 => ⟨S100000, .f32⟩
  | 60 => ⟨S_, .f32⟩
  | 61 => ⟨S100000, .f32⟩
  | 62 => ⟨S100000x1, .i32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S100000x1, .f32⟩
  | 71 => ⟨S_, .f32⟩
  | 72 => ⟨S500000, .f32⟩
  | 73 => ⟨S_, .f32⟩
  | 74 => ⟨S50000, .f32⟩
  | 75 => ⟨S500000x1, .i32⟩
  | 76 => ⟨S50000, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S50000x1, .f32⟩
  | 84 => ⟨S_, .f32⟩
  | 85 => ⟨S100000, .f32⟩
  | 86 => ⟨S_, .f32⟩
  | 87 => ⟨S500, .f32⟩
  | 88 => ⟨S100000x1, .i32⟩
  | 89 => ⟨S500, .f32⟩
  | 90 => ⟨S_, .f32⟩
  | 91 => ⟨S500, .f32⟩
  | 92 => ⟨S500, .f32⟩
  | 93 => ⟨S_, .f32⟩
  | 94 => ⟨S500, .f32⟩
  | 95 => ⟨S500, .f32⟩
  | 96 => ⟨S500x1, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x128, .bf16⟩
  | 106 => ⟨S500000x128, .f32⟩
  | 107 => ⟨S_, .f32⟩
  | 108 => ⟨S100000x128, .f32⟩
  | 109 => ⟨S500000x1, .i32⟩
  | 110 => ⟨S100000x128, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x128, .bf16⟩
  | 120 => ⟨S100000x128, .f32⟩
  | 121 => ⟨S_, .f32⟩
  | 122 => ⟨S100000x128, .f32⟩
  | 123 => ⟨S100000x1, .i32⟩
  | 124 => ⟨S100000x128, .f32⟩
  | 125 => ⟨S_, .i32⟩
  | 126 => ⟨S500000, .i32⟩
  | 127 => ⟨S500000, .i1⟩
  | _ => ⟨S50000x3, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .bf16⟩
  | 6 => ⟨S500000x128, .f32⟩
  | 7 => ⟨S_, .f32⟩
  | 8 => ⟨S50000x128, .f32⟩
  | 9 => ⟨S500000x1, .i32⟩
  | 10 => ⟨S50000x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .bf16⟩
  | 20 => ⟨S100000x128, .f32⟩
  | 21 => ⟨S_, .f32⟩
  | 22 => ⟨S500x128, .f32⟩
  | 23 => ⟨S100000x1, .i32⟩
  | 24 => ⟨S500x128, .f32⟩
  | 25 => ⟨S1x128, .f32⟩
  | 26 => ⟨S1x128, .f32⟩
  | 27 => ⟨S100000x128, .bf16⟩
  | 28 => ⟨S1x128, .f32⟩
  | 29 => ⟨S50000x128, .bf16⟩
  | 30 => ⟨S1x128, .f32⟩
  | 31 => ⟨S500x128, .bf16⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .bf16⟩
  | 41 => ⟨S500000x128, .f32⟩
  | 42 => ⟨S_, .f32⟩
  | 43 => ⟨S100000x128, .f32⟩
  | 44 => ⟨S500000x1, .i32⟩
  | 45 => ⟨S100000x128, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x128, .bf16⟩
  | 55 => ⟨S100000x128, .f32⟩
  | 56 => ⟨S_, .f32⟩
  | 57 => ⟨S100000x128, .f32⟩
  | 58 => ⟨S100000x1, .i32⟩
  | 59 => ⟨S100000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .bf16⟩
  | 69 => ⟨S500000x128, .f32⟩
  | 70 => ⟨S_, .f32⟩
  | 71 => ⟨S50000x128, .f32⟩
  | 72 => ⟨S500000x1, .i32⟩
  | 73 => ⟨S50000x128, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x128, .bf16⟩
  | 83 => ⟨S100000x128, .f32⟩
  | 84 => ⟨S_, .f32⟩
  | 85 => ⟨S500x128, .f32⟩
  | 86 => ⟨S100000x1, .i32⟩
  | 87 => ⟨S500x128, .f32⟩
  | 88 => ⟨S1x128, .f32⟩
  | 89 => ⟨S1x128, .f32⟩
  | 90 => ⟨S100000x128, .bf16⟩
  | 91 => ⟨S1x128, .f32⟩
  | 92 => ⟨S50000x128, .bf16⟩
  | 93 => ⟨S1x128, .f32⟩
  | 94 => ⟨S500x128, .bf16⟩
  | 95 => ⟨S1x128, .f32⟩
  | 96 => ⟨S50000x128, .f32⟩
  | 97 => ⟨S1x128, .f32⟩
  | 98 => ⟨S100000x128, .f32⟩
  | 99 => ⟨S1x128, .f32⟩
  | 100 => ⟨S500x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S2000x770, .f32⟩
  | .local _ .vmem, ⟨7, _⟩ => ⟨S2000x770, .f32⟩
  | .local _ .vmem, ⟨8, _⟩ => ⟨S770x128, .f32⟩
  | .local _ .vmem, ⟨9, _⟩ => ⟨S1x128, .f32⟩
  | .local _ .vmem, ⟨10, _⟩ => ⟨S2000x128, .bf16⟩
  | .local _ .vmem, ⟨11, _⟩ => ⟨S2000x128, .bf16⟩
  | .local _ .vmem, ⟨12, _⟩ => ⟨S500x9, .f32⟩
  | .local _ .vmem, ⟨13, _⟩ => ⟨S9x128, .f32⟩
  | .local _ .vmem, ⟨14, _⟩ => ⟨S1x128, .f32⟩
  | .local _ .vmem, ⟨15, _⟩ => ⟨S500x128, .bf16⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S128x128, .f32⟩
  | .local _ .vmem, ⟨27, _⟩ => ⟨S1x128, .f32⟩
  | .local _ .vmem, ⟨28, _⟩ => ⟨S2000x128, .bf16⟩
  | .local _ .vmem, ⟨29, _⟩ => ⟨S2000x128, .bf16⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S1x128, .f32⟩
  | .local _ .vmem, ⟨36, _⟩ => ⟨S5000x128, .bf16⟩
  | .local _ .vmem, ⟨37, _⟩ => ⟨S5000x128, .bf16⟩
  | .local _ .vmem, ⟨38, _⟩ => ⟨S500x128, .f32⟩
  | .local _ .vmem, ⟨39, _⟩ => ⟨S500x1, .f32⟩
  | .local _ .vmem, ⟨40, _⟩ => ⟨S128x128, .f32⟩
  | .local _ .vmem, ⟨41, _⟩ => ⟨S1x128, .f32⟩
  | .local _ .vmem, ⟨42, _⟩ => ⟨S500x128, .bf16⟩
  | .local _ .vmem, ⟨43, _⟩ => ⟨S2000x128, .f32⟩
  | .local _ .vmem, ⟨44, _⟩ => ⟨S2000x128, .f32⟩
  | .local _ .vmem, ⟨45, _⟩ => ⟨S2000x1, .f32⟩
  | .local _ .vmem, ⟨46, _⟩ => ⟨S2000x1, .f32⟩
  | .local _ .vmem, ⟨47, _⟩ => ⟨S128x128, .f32⟩
  | .local _ .vmem, ⟨48, _⟩ => ⟨S1x128, .f32⟩
  | .local _ .vmem, ⟨49, _⟩ => ⟨S2000x128, .f32⟩
  | .local _ .vmem, ⟨50, _⟩ => ⟨S2000x128, .f32⟩
  | .local _ .vmem, ⟨51, _⟩ => ⟨S2000x1, .f32⟩
  | .local _ .vmem, ⟨52, _⟩ => ⟨S2000x1, .f32⟩
  | .local _ .vmem, ⟨53, _⟩ => ⟨S128x128, .f32⟩
  | .local _ .vmem, ⟨54, _⟩ => ⟨S1x128, .f32⟩
  | .local _ .vmem, ⟨55, _⟩ => ⟨S2000x128, .bf16⟩
  | .local _ .vmem, ⟨56, _⟩ => ⟨S2000x128, .bf16⟩
  | .local _ .vmem, ⟨57, _⟩ => ⟨S5000x128, .f32⟩
  | .local _ .vmem, ⟨58, _⟩ => ⟨S5000x128, .f32⟩
  | .local _ .vmem, ⟨59, _⟩ => ⟨S5000x1, .f32⟩
  | .local _ .vmem, ⟨60, _⟩ => ⟨S5000x1, .f32⟩
  | .local _ .vmem, ⟨61, _⟩ => ⟨S128x128, .f32⟩
  | .local _ .vmem, ⟨62, _⟩ => ⟨S1x128, .f32⟩
  | .local _ .vmem, ⟨63, _⟩ => ⟨S5000x128, .bf16⟩
  | .local _ .vmem, ⟨64, _⟩ => ⟨S5000x128, .bf16⟩
  | .local _ .vmem, ⟨65, _⟩ => ⟨S500x128, .f32⟩
  | .local _ .vmem, ⟨66, _⟩ => ⟨S500x1, .f32⟩
  | .local _ .vmem, ⟨67, _⟩ => ⟨S128x128, .f32⟩
  | .local _ .vmem, ⟨68, _⟩ => ⟨S1x128, .f32⟩
  | .local _ .vmem, ⟨69, _⟩ => ⟨S500x128, .bf16⟩
  | .local _ .vmem, ⟨70, _⟩ => ⟨S5000x128, .bf16⟩
  | .local _ .vmem, ⟨71, _⟩ => ⟨S5000x128, .bf16⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .bf16⟩
  | .local _ .vmem, ⟨77, _⟩ => ⟨S5000x128, .bf16⟩
  | .local _ .vmem, ⟨78, _⟩ => ⟨S128x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S500x128, .bf16⟩
  | .local _ .vmem, ⟨83, _⟩ => ⟨S128x128, .f32⟩
  | .local _ .vmem, ⟨84, _⟩ => ⟨S1x128, .f32⟩
  | .local _ .vmem, ⟨85, _⟩ => ⟨S500x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_cst_0 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_v11 : Ref sig .tc := ⟨.hbm, 53, rfl⟩
abbrev main_cst_2 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_cst_4 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_5 : Ref sig .tc := ⟨.hbm, 64, rfl⟩
abbrev main_v19 : Ref sig .tc := ⟨.hbm, 65, rfl⟩
abbrev main_v20 : Ref sig .tc := ⟨.hbm, 66, rfl⟩
abbrev main_cst_6 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_7 : Ref sig .tc := ⟨.hbm, 71, rfl⟩
abbrev main_v24 : Ref sig .tc := ⟨.hbm, 72, rfl⟩
abbrev main_cst_8 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_9 : Ref sig .tc := ⟨.hbm, 77, rfl⟩
abbrev main_v28 : Ref sig .tc := ⟨.hbm, 78, rfl⟩
abbrev main_v29 : Ref sig .tc := ⟨.hbm, 79, rfl⟩
abbrev main_cst_10 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_11 : Ref sig .tc := ⟨.hbm, 84, rfl⟩
abbrev main_v33 : Ref sig .tc := ⟨.hbm, 85, rfl⟩
abbrev main_cst_12 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_13 : Ref sig .tc := ⟨.hbm, 90, rfl⟩
abbrev main_v37 : Ref sig .tc := ⟨.hbm, 91, rfl⟩
abbrev main_v38 : Ref sig .tc := ⟨.hbm, 92, rfl⟩
abbrev main_cst_14 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c : Ref sig .tc := ⟨.hbm, 97, rfl⟩
abbrev main_v42 : Ref sig .tc := ⟨.hbm, 98, rfl⟩
abbrev main_v43 : Ref sig .tc := ⟨.hbm, 99, rfl⟩
abbrev main_c_15 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_16 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_c_17 : Ref sig .tc := ⟨.hbm, 111, rfl⟩
abbrev main_v53 : Ref sig .tc := ⟨.hbm, 112, rfl⟩
abbrev main_v54 : Ref sig .tc := ⟨.hbm, 113, rfl⟩
abbrev main_c_18 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_19 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_20 : Ref sig .tc := ⟨.hbm, 125, rfl⟩
abbrev main_v64 : Ref sig .tc := ⟨.hbm, 126, rfl⟩
abbrev main_v65 : Ref sig .tc := ⟨.hbm, 127, rfl⟩
abbrev main_c_21 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_22 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c_23 : Ref sig .tc := ⟨.hbm, 139, rfl⟩
abbrev main_v75 : Ref sig .tc := ⟨.hbm, 140, rfl⟩
abbrev main_v76 : Ref sig .tc := ⟨.hbm, 141, rfl⟩
abbrev main_c_24 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_25 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_c_26 : Ref sig .tc := ⟨.hbm, 160, rfl⟩
abbrev main_v93 : Ref sig .tc := ⟨.hbm, 161, rfl⟩
abbrev main_v94 : Ref sig .tc := ⟨.hbm, 162, rfl⟩
abbrev main_c_27 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_cst_28 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_c_29 : Ref sig .tc := ⟨.hbm, 174, rfl⟩
abbrev main_v104 : Ref sig .tc := ⟨.hbm, 175, rfl⟩
abbrev main_v105 : Ref sig .tc := ⟨.hbm, 176, rfl⟩
abbrev main_c_30 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_31 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_c_32 : Ref sig .tc := ⟨.hbm, 188, rfl⟩
abbrev main_v115 : Ref sig .tc := ⟨.hbm, 189, rfl⟩
abbrev main_v116 : Ref sig .tc := ⟨.hbm, 190, rfl⟩
abbrev main_c_33 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_34 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_c_35 : Ref sig .tc := ⟨.hbm, 202, rfl⟩
abbrev main_v126 : Ref sig .tc := ⟨.hbm, 203, rfl⟩
abbrev main_v127 : Ref sig .tc := ⟨.hbm, 204, rfl⟩
abbrev main_c_36 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_37 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg8_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc6_stg5_0 : Ref sig .tc := ⟨.vmem, 51, rfl⟩
abbrev cc6_stg5_1 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg8_0 : Ref sig .tc := ⟨.vmem, 55, rfl⟩
abbrev cc6_stg8_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg4_1 : Ref sig .tc := ⟨.vmem, 64, rfl⟩
abbrev cc8_stg0_0 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg3_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg3_1 : Ref sig .tc := ⟨.vmem, 81, rfl⟩
abbrev cc11_stg0_0 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg3_0 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem7_0 : DmaSem sig := 27
abbrev cc3_sem8_0 : DmaSem sig := 28
abbrev cc3_sem8_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem1_0 : DmaSem sig := 39
abbrev cc5_sem2_0 : DmaSem sig := 40
abbrev cc5_sem3_0 : DmaSem sig := 41
abbrev cc5_sem4_0 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem4_0 : DmaSem sig := 49
abbrev cc6_sem4_1 : DmaSem sig := 50
abbrev cc6_sem5_0 : DmaSem sig := 51
abbrev cc6_sem5_1 : DmaSem sig := 52
abbrev cc6_sem6_0 : DmaSem sig := 53
abbrev cc6_sem7_0 : DmaSem sig := 54
abbrev cc6_sem8_0 : DmaSem sig := 55
abbrev cc6_sem8_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem4_1 : DmaSem sig := 64
abbrev cc8_sem0_0 : DmaSem sig := 65
abbrev cc8_sem1_0 : DmaSem sig := 66
abbrev cc8_sem2_0 : DmaSem sig := 67
abbrev cc8_sem3_0 : DmaSem sig := 68
abbrev cc8_sem4_0 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem3_1 : DmaSem sig := 75
abbrev cc10_sem0_0 : DmaSem sig := 76
abbrev cc10_sem0_1 : DmaSem sig := 77
abbrev cc10_sem1_0 : DmaSem sig := 78
abbrev cc10_sem2_0 : DmaSem sig := 79
abbrev cc10_sem3_0 : DmaSem sig := 80
abbrev cc10_sem3_1 : DmaSem sig := 81
abbrev cc11_sem0_0 : DmaSem sig := 82
abbrev cc11_sem1_0 : DmaSem sig := 83
abbrev cc11_sem2_0 : DmaSem sig := 84
abbrev cc11_sem3_0 : DmaSem sig := 85

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x770 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S770x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S500x9 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S9x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S500x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S500x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S500x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S500x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x128 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S500x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S500x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S500x128 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S500x128 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S500x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

class Facts₀ : Prop where
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S2000x770_S2000x770_0_0 : ∀ a, (![0, 0] : Fin 2 → Nat) a + S2000x770.size a ≤ S2000x770.size a
  h_S2000x770 : 0 < S2000x770.numel
  inb_S770x128_S770x128_0_0 : ∀ a, (![0, 0] : Fin 2 → Nat) a + S770x128.size a ≤ S770x128.size a
  h_S770x128 : 0 < S770x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S500x9_S500x9_0_0 : ∀ a, (![0, 0] : Fin 2 → Nat) a + S500x9.size a ≤ S500x9.size a
  h_S500x9 : 0 < S500x9.numel
  inb_S9x128_S9x128_0_0 : ∀ a, (![0, 0] : Fin 2 → Nat) a + S9x128.size a ≤ S9x128.size a
  h_S9x128 : 0 < S9x128.numel
  broadcasts_S1x128_S500x128 : S1x128.Broadcasts S500x128
  inb_S500x128_S500x128_0_0 : ∀ a, (![0, 0] : Fin 2 → Nat) a + S500x128.size a ≤ S500x128.size a
  h_S500x128 : 0 < S500x128.numel
  packedbf16_S500x128_S500x128_0_0 : (Rect.unit (s := S500x128) ![0, 0] S500x128.size inb_S500x128_S500x128_0_0).PackedRows (EltTy.packing .bf16)
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S_S100000x128 : S_.BroadcastsInDim S100000x128 (![] : Fin 0 → Fin S100000x128.rank)
  bcast_S_S50000x128 : S_.BroadcastsInDim S50000x128 (![] : Fin 0 → Fin S50000x128.rank)
  bcast_S_S500x128 : S_.BroadcastsInDim S500x128 (![] : Fin 0 → Fin S500x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S500x128_S500x128 : S500x128.ShapeCasts S500x128
  inb_S500x1_S500x1_0_0 : ∀ a, (![0, 0] : Fin 2 → Nat) a + S500x1.size a ≤ S500x1.size a
  h_S500x1 : 0 < S500x1.numel
  shapeCasts_S500x1_S500x1 : S500x1.ShapeCasts S500x1
  broadcasts_S500x1_S500x128 : S500x1.Broadcasts S500x128
  dot_S5000x3_S3x128_S5000x128_1_0_0_1_n_n_wf : DotDims.WF S5000x3 S3x128 S5000x128 [1] [0] [0] [1] [] []
  dot_S2000x770_S770x128_S2000x128_1_0_0_1_n_n_wf : DotDims.WF S2000x770 S770x128 S2000x128 [1] [0] [0] [1] [] []
  dot_S500x9_S9x128_S500x128_1_0_0_1_n_n_wf : DotDims.WF S500x9 S9x128 S500x128 [1] [0] [0] [1] [] []
  scatter_S100000_S500000x1_S500000_n_0_0_1_wf : ScatterDims.WF S100000 S500000x1 S500000 [] [0] [0] 1
  scatter_S100000_S100000x1_S100000_n_0_0_1_wf : ScatterDims.WF S100000 S100000x1 S100000 [] [0] [0] 1
  scatter_S50000_S500000x1_S500000_n_0_0_1_wf : ScatterDims.WF S50000 S500000x1 S500000 [] [0] [0] 1
  scatter_S500_S100000x1_S100000_n_0_0_1_wf : ScatterDims.WF S500 S100000x1 S100000 [] [0] [0] 1
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  gather_S500x128_S100000x1_S100000x128_1_0_n_n_0_1_1128_wf : GatherDims.WF S500x128 S100000x1 S100000x128 [1] [0] [] [0] [] 1 ![1, 128]
  scatter_S100000x128_S100000x1_S100000x128_1_0_0_1_wf : ScatterDims.WF S100000x128 S100000x1 S100000x128 [1] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  gather_S100000x128_S100000x1_S100000x128_1_0_n_n_0_1_1128_wf : GatherDims.WF S100000x128 S100000x1 S100000x128 [1] [0] [] [0] [] 1 ![1, 128]
  scatter_S500x128_S100000x1_S100000x128_1_0_0_1_wf : ScatterDims.WF S500x128 S100000x1 S100000x128 [1] [0] [0] 1
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  dot_S500x128_S128x128_S500x128_1_0_0_1_n_n_wf : DotDims.WF S500x128 S128x128 S500x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x770.size a ≤ S100000x770.size a
  hwx1_0 : ∀ i : grid1.Coords, EltTy.bits .f32 = 32 ∨ (Rect.block (s := S100000x770) S2000x770.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S770x128.size a ≤ S770x128.size a
  hwx1_1 : ∀ i : grid1.Coords, EltTy.bits .f32 = 32 ∨ (Rect.block (s := S770x128) S770x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .bf16 = 32 ∨ (Rect.block (s := S100000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S500x9.size a ≤ S500x9.size a
  hwx2_0 : ∀ i : grid2.Coords, EltTy.bits .f32 = 32 ∨ (Rect.block (s := S500x9) S500x9.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S9x128.size a ≤ S9x128.size a
  hwx2_1 : ∀ i : grid2.Coords, EltTy.bits .f32 = 32 ∨ (Rect.block (s := S9x128) S9x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S500x128.size a ≤ S500x128.size a
  hwx2_3 : ∀ i : grid2.Coords, EltTy.bits .bf16 = 32 ∨ (Rect.block (s := S500x128) S500x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .bf16 = 32 ∨ (Rect.block (s := S100000x128) S2000x128.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .bf16 = 32 ∨ (Rect.block (s := S50000x128) S5000x128.size (cc4_transform_4 i) (hinb4_4 i)).WholeWords (EltTy.packing .bf16)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S500x128.size a ≤ S500x128.size a
  hwx5_0 : ∀ i : grid5.Coords, EltTy.bits .f32 = 32 ∨ (Rect.block (s := S500x128) S500x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S500x1.size a ≤ S500x1.size a
  hwx5_1 : ∀ i : grid5.Coords, EltTy.bits .f32 = 32 ∨ (Rect.block (s := S500x1) S500x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S500x128.size a ≤ S500x128.size a
  hwx5_4 : ∀ i : grid5.Coords, EltTy.bits .bf16 = 32 ∨ (Rect.block (s := S500x128) S500x128.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .f32 = 32 ∨ (Rect.block (s := S100000x128) S2000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S100000x1.size a
  hwx6_5 : ∀ i : grid6.Coords, EltTy.bits .f32 = 32 ∨ (Rect.block (s := S100000x1) S2000x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x128.size a ≤ S100000x128.size a
  hwx6_8 : ∀ i : grid6.Coords, EltTy.bits .bf16 = 32 ∨ (Rect.block (s := S100000x128) S2000x128.size (cc6_transform_8 i) (hinb6_8 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .bf16 = 32 ∨ (Rect.block (s := S50000x128) S5000x128.size (cc7_transform_4 i) (hinb7_4 i)).WholeWords (EltTy.packing .bf16)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S500x128.size a ≤ S500x128.size a
  hwx8_0 : ∀ i : grid8.Coords, EltTy.bits .f32 = 32 ∨ (Rect.block (s := S500x128) S500x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S500x1.size a ≤ S500x1.size a
  hwx8_1 : ∀ i : grid8.Coords, EltTy.bits .f32 = 32 ∨ (Rect.block (s := S500x1) S500x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S500x128.size a ≤ S500x128.size a
  hwx8_4 : ∀ i : grid8.Coords, EltTy.bits .bf16 = 32 ∨ (Rect.block (s := S500x128) S500x128.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .bf16 = 32 ∨ (Rect.block (s := S50000x128) S5000x128.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .bf16 = 32 ∨ (Rect.block (s := S100000x128) S5000x128.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S500x128.size a ≤ S500x128.size a
  hwx11_0 : ∀ i : grid11.Coords, EltTy.bits .bf16 = 32 ∨ (Rect.block (s := S500x128) S500x128.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S500x128.size a ≤ S500x128.size a
  hwx11_3 : ∀ i : grid11.Coords, EltTy.bits .f32 = 32 ∨ (Rect.block (s := S500x128) S500x128.size (cc11_transform_3 i) (hinb11_3 i)).WholeWords (EltTy.packing .f32)

variable [Facts₀]

def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S2000x770_S770x128_S2000x128_1_0_0_1_n_n : DotDims S2000x770 S770x128 S2000x128 where
  lhsContracting := [1]
  rhsContracting := [0]
  lhsNonContracting := [0]
  rhsNonContracting := [1]
  lhsBatch := []
  rhsBatch := []
  wf := dot_S2000x770_S770x128_S2000x128_1_0_0_1_n_n_wf
def dot_S500x9_S9x128_S500x128_1_0_0_1_n_n : DotDims S500x9 S9x128 S500x128 where
  lhsContracting := [1]
  rhsContracting := [0]
  lhsNonContracting := [0]
  rhsNonContracting := [1]
  lhsBatch := []
  rhsBatch := []
  wf := dot_S500x9_S9x128_S500x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S500x128_S100000x1_S100000x128_1_0_n_n_0_1_1128 : GatherDims S500x128 S100000x1 S100000x128 where
  offsetDims := [1]
  collapsedSliceDims := [0]
  operandBatchingDims := []
  startIndicesBatchingDims := []
  startIndexMap := [0]
  indexVectorDim := 1
  sliceSizes := ![1, 128]
  wf := gather_S500x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S500x128_S100000x1_S100000x128_1_0_0_1 : ScatterDims S500x128 S100000x1 S100000x128 where
  updateWindowDims := [1]
  insertedWindowDims := [0]
  scatterDimsToOperandDims := [0]
  indexVectorDim := 1
  wf := scatter_S500x128_S100000x1_S100000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x770.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S770x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S500x9.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S9x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S500x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v23) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg23) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v87) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v88) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg19) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v85) S500x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v41) S500x1.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S500x128.size cc5_transform_4 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v103) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg25) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v137) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v114) S2000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v23) S2000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg31) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v138) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v139) S2000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v125) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg27) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v140) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v141) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v136) S500x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v41) S500x1.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_arg29) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v142) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v143) S500x128.size cc8_transform_4 reads8_4 true false 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v141) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg33) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v144) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v145) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v139) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg35) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v146) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v147) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v143) S500x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_arg37) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v148) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v149) S500x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x3 : Shape := ⟨2, ![50000, 3]⟩
abbrev S100000x770 : Shape := ⟨2, ![100000, 770]⟩
abbrev S500x9 : Shape := ⟨2, ![500, 9]⟩
abbrev S500000 : Shape := ⟨1, ![500000]⟩
abbrev S100000 : Shape := ⟨1, ![100000]⟩
abbrev S3x128 : Shape := ⟨2, ![3, 128]⟩
abbrev S128 : Shape := ⟨1, ![128]⟩
abbrev S770x128 : Shape := ⟨2, ![770, 128]⟩
abbrev S9x128 : Shape := ⟨2, ![9, 128]⟩
abbrev S128x128 : Shape := ⟨2, ![128, 128]⟩
abbrev S50000x128 : Shape := ⟨2, ![50000, 128]⟩
abbrev S1x128 : Shape := ⟨2, ![1, 128]⟩
abbrev S100000x128 : Shape := ⟨2, ![100000, 128]⟩
abbrev S500x128 : Shape := ⟨2, ![500, 128]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S50000 : Shape := ⟨1, ![50000]⟩
abbrev S50000x1 : Shape := ⟨2, ![50000, 1]⟩
abbrev S500 : Shape := ⟨1, ![500]⟩
abbrev S500x1 : Shape := ⟨2, ![500, 1]⟩

abbrev nBuf : Space → Nat
  | .hbm => 315
  | .vmem => 0
  | .smem => 0
  | _ => 0

abbrev hbmTy0_0 (i : Nat) : BufTy := match i % 128 with
  | 0 => ⟨S50000x3, .f32⟩
  | 1 => ⟨S100000x770, .f32⟩
  | 2 => ⟨S500x9, .f32⟩
  | 3 => ⟨S500000, .i32⟩
  | 4 => ⟨S500000, .i32⟩
  | 5 => ⟨S500000, .i32⟩
  | 6 => ⟨S500000, .i32⟩
  | 7 => ⟨S100000, .i32⟩
  | 8 => ⟨S100000, .i32⟩
  | 9 => ⟨S100000, .i32⟩
  | 10 => ⟨S100000, .i32⟩
  | 11 => ⟨S3x128, .f32⟩
  | 12 => ⟨S128, .f32⟩
  | 13 => ⟨S770x128, .f32⟩
  | 14 => ⟨S128, .f32⟩
  | 15 => ⟨S9x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S128x128, .f32⟩
  | 32 => ⟨S128, .f32⟩
  | 33 => ⟨S128x128, .f32⟩
  | 34 => ⟨S128, .f32⟩
  | 35 => ⟨S128x128, .f32⟩
  | 36 => ⟨S128, .f32⟩
  | 37 => ⟨S128x128, .f32⟩
  | 38 => ⟨S128, .f32⟩
  | 39 => ⟨S50000x128, .f32⟩
  | 40 => ⟨S1x128, .f32⟩
  | 41 => ⟨S50000x128, .f32⟩
  | 42 => ⟨S50000x128, .f32⟩
  | 43 => ⟨S100000x128, .f32⟩
  | 44 => ⟨S1x128, .f32⟩
  | 45 => ⟨S100000x128, .f32⟩
  | 46 => ⟨S100000x128, .f32⟩
  | 47 => ⟨S500x128, .f32⟩
  | 48 => ⟨S1x128, .f32⟩
  | 49 => ⟨S500x128, .f32⟩
  | 50 => ⟨S500x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S100000x128, .f32⟩
  | 62 => ⟨S500000x1, .i32⟩
  | 63 => ⟨S100000x128, .f32⟩
  | 64 => ⟨S_, .f32⟩
  | 65 => ⟨S500000, .f32⟩
  | 66 => ⟨S_, .f32⟩
  | 67 => ⟨S100000, .f32⟩
  | 68 => ⟨S500000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S_, .f32⟩
  | 90 => ⟨S100000x128, .f32⟩
  | 91 => ⟨S100000x1, .i32⟩
  | 92 => ⟨S100000x128, .f32⟩
  | 93 => ⟨S_, .f32⟩
  | 94 => ⟨S100000, .f32⟩
  | 95 => ⟨S_, .f32⟩
  | 96 => ⟨S100000, .f32⟩
  | 97 => ⟨S100000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .f32⟩
  | 120 => ⟨S50000x128, .f32⟩
  | 121 => ⟨S500000x1, .i32⟩
  | 122 => ⟨S50000x128, .f32⟩
  | 123 => ⟨S_, .f32⟩
  | 124 => ⟨S500000, .f32⟩
  | 125 => ⟨S_, .f32⟩
  | 126 => ⟨S50000, .f32⟩
  | 127 => ⟨S500000x1, .i32⟩
  | _ => ⟨S50000x3, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S_, .f32⟩
  | 21 => ⟨S500x128, .f32⟩
  | 22 => ⟨S100000x1, .i32⟩
  | 23 => ⟨S500x128, .f32⟩
  | 24 => ⟨S_, .f32⟩
  | 25 => ⟨S100000, .f32⟩
  | 26 => ⟨S_, .f32⟩
  | 27 => ⟨S500, .f32⟩
  | 28 => ⟨S100000x1, .i32⟩
  | 29 => ⟨S500, .f32⟩
  | 30 => ⟨S_, .f32⟩
  | 31 => ⟨S500, .f32⟩
  | 32 => ⟨S500, .f32⟩
  | 33 => ⟨S500x1, .f32⟩
  | 34 => ⟨S500x128, .f32⟩
  | 35 => ⟨S500x128, .f32⟩
  | 36 => ⟨S500x128, .f32⟩
  | 37 => ⟨S1x128, .f32⟩
  | 38 => ⟨S500x128, .f32⟩
  | 39 => ⟨S500x128, .f32⟩
  | 40 => ⟨S_, .f32⟩
  | 41 => ⟨S50000x128, .f32⟩
  | 42 => ⟨S50000x128, .f32⟩
  | 43 => ⟨S_, .f32⟩
  | 44 => ⟨S100000x128, .f32⟩
  | 45 => ⟨S100000x128, .f32⟩
  | 46 => ⟨S_, .f32⟩
  | 47 => ⟨S500x128, .f32⟩
  | 48 => ⟨S500x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000, .f32⟩
  | 64 => ⟨S_, .f32⟩
  | 65 => ⟨S100000, .f32⟩
  | 66 => ⟨S500000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x128, .f32⟩
  | 87 => ⟨S_, .f32⟩
  | 88 => ⟨S100000x128, .f32⟩
  | 89 => ⟨S100000x1, .i32⟩
  | 90 => ⟨S100000x128, .f32⟩
  | 91 => ⟨S_, .f32⟩
  | 92 => ⟨S100000, .f32⟩
  | 93 => ⟨S_, .f32⟩
  | 94 => ⟨S100000, .f32⟩
  | 95 => ⟨S100000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .f32⟩
  | 118 => ⟨S50000x128, .f32⟩
  | 119 => ⟨S500000x1, .i32⟩
  | 120 => ⟨S50000x128, .f32⟩
  | 121 => ⟨S_, .f32⟩
  | 122 => ⟨S500000, .f32⟩
  | 123 => ⟨S_, .f32⟩
  | 124 => ⟨S50000, .f32⟩
  | 125 => ⟨S500000x1, .i32⟩
  | 126 => ⟨S50000, .f32⟩
  | 127 => ⟨S_, .f32⟩
  | _ => ⟨S50000x3, .f32⟩

abbrev hbmTy0_2 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x128, .f32⟩
  | 18 => ⟨S_, .f32⟩
  | 19 => ⟨S500x128, .f32⟩
  | 20 => ⟨S100000x1, .i32⟩
  | 21 => ⟨S500x128, .f32⟩
  | 22 => ⟨S_, .f32⟩
  | 23 => ⟨S100000, .f32⟩
  | 24 => ⟨S_, .f32⟩
  | 25 => ⟨S500, .f32⟩
  | 26 => ⟨S100000x1, .i32⟩
  | 27 => ⟨S500, .f32⟩
  | 28 => ⟨S_, .f32⟩
  | 29 => ⟨S500, .f32⟩
  | 30 => ⟨S500, .f32⟩
  | 31 => ⟨S500x1, .f32⟩
  | 32 => ⟨S500x128, .f32⟩
  | 33 => ⟨S500x128, .f32⟩
  | 34 => ⟨S500x128, .f32⟩
  | 35 => ⟨S1x128, .f32⟩
  | 36 => ⟨S500x128, .f32⟩
  | 37 => ⟨S500x128, .f32⟩
  | 38 => ⟨S_, .f32⟩
  | 39 => ⟨S50000x128, .f32⟩
  | 40 => ⟨S50000x128, .f32⟩
  | 41 => ⟨S_, .f32⟩
  | 42 => ⟨S100000x128, .f32⟩
  | 43 => ⟨S100000x128, .f32⟩
  | 44 => ⟨S_, .f32⟩
  | 45 => ⟨S500x128, .f32⟩
  | 46 => ⟨S500x128, .f32⟩
  | 47 => ⟨S50000x128, .f32⟩
  | 48 => ⟨S1x128, .f32⟩
  | 49 => ⟨S50000x128, .f32⟩
  | 50 => ⟨S50000x128, .f32⟩
  | 51 => ⟨S100000x128, .f32⟩
  | 52 => ⟨S1x128, .f32⟩
  | 53 => ⟨S100000x128, .f32⟩
  | 54 => ⟨S100000x128, .f32⟩
  | 55 => ⟨S500x128, .f32⟩
  | 56 => ⟨S1x128, .f32⟩
  | 57 => ⟨S500x128, .f32⟩
  | 58 => ⟨S500x128, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c : Ref sig .tc := ⟨.hbm, 51, rfl⟩
abbrev main_v12 : Ref sig .tc := ⟨.hbm, 52, rfl⟩
abbrev main_v13 : Ref sig .tc := ⟨.hbm, 53, rfl⟩
abbrev main_c_0 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_c_4 : Ref sig .tc := ⟨.hbm, 80, rfl⟩
abbrev main_v35 : Ref sig .tc := ⟨.hbm, 81, rfl⟩
abbrev main_v36 : Ref sig .tc := ⟨.hbm, 82, rfl⟩
abbrev main_c_5 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_6 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_7 : Ref sig .tc := ⟨.hbm, 93, rfl⟩
abbrev main_v45 : Ref sig .tc := ⟨.hbm, 94, rfl⟩
abbrev main_cst_8 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_9 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_10 : Ref sig .tc := ⟨.hbm, 110, rfl⟩
abbrev main_v59 : Ref sig .tc := ⟨.hbm, 111, rfl⟩
abbrev main_v60 : Ref sig .tc := ⟨.hbm, 112, rfl⟩
abbrev main_c_11 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_12 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_13 : Ref sig .tc := ⟨.hbm, 123, rfl⟩
abbrev main_v69 : Ref sig .tc := ⟨.hbm, 124, rfl⟩
abbrev main_cst_14 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_15 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_16 : Ref sig .tc := ⟨.hbm, 139, rfl⟩
abbrev main_v82 : Ref sig .tc := ⟨.hbm, 140, rfl⟩
abbrev main_v83 : Ref sig .tc := ⟨.hbm, 141, rfl⟩
abbrev main_c_17 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_18 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_19 : Ref sig .tc := ⟨.hbm, 152, rfl⟩
abbrev main_v92 : Ref sig .tc := ⟨.hbm, 153, rfl⟩
abbrev main_cst_20 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_21 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_call0_cst : Ref sig .tc := ⟨.hbm, 168, rfl⟩
abbrev main_call0_v0 : Ref sig .tc := ⟨.hbm, 169, rfl⟩
abbrev main_v105 : Ref sig .tc := ⟨.hbm, 170, rfl⟩
abbrev main_call1_cst : Ref sig .tc := ⟨.hbm, 171, rfl⟩
abbrev main_call1_v0 : Ref sig .tc := ⟨.hbm, 172, rfl⟩
abbrev main_v106 : Ref sig .tc := ⟨.hbm, 173, rfl⟩
abbrev main_call2_cst : Ref sig .tc := ⟨.hbm, 174, rfl⟩
abbrev main_call2_v0 : Ref sig .tc := ⟨.hbm, 175, rfl⟩
abbrev main_v107 : Ref sig .tc := ⟨.hbm, 176, rfl⟩
abbrev main_c_22 : Ref sig .tc := ⟨.hbm, 177, rfl⟩
abbrev main_v108 : Ref sig .tc := ⟨.hbm, 178, rfl⟩
abbrev main_v109 : Ref sig .tc := ⟨.hbm, 179, rfl⟩
abbrev main_c_23 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_24 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_25 : Ref sig .tc := ⟨.hbm, 190, rfl⟩
abbrev main_v118 : Ref sig .tc := ⟨.hbm, 191, rfl⟩
abbrev main_cst_26 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_27 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_c_28 : Ref sig .tc := ⟨.hbm, 206, rfl⟩
abbrev main_v131 : Ref sig .tc := ⟨.hbm, 207, rfl⟩
abbrev main_v132 : Ref sig .tc := ⟨.hbm, 208, rfl⟩
abbrev main_c_29 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_30 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_31 : Ref sig .tc := ⟨.hbm, 219, rfl⟩
abbrev main_v141 : Ref sig .tc := ⟨.hbm, 220, rfl⟩
abbrev main_cst_32 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_cst_33 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_c_34 : Ref sig .tc := ⟨.hbm, 236, rfl⟩
abbrev main_v155 : Ref sig .tc := ⟨.hbm, 237, rfl⟩
abbrev main_v156 : Ref sig .tc := ⟨.hbm, 238, rfl⟩
abbrev main_c_35 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_cst_36 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_cst_37 : Ref sig .tc := ⟨.hbm, 249, rfl⟩
abbrev main_v165 : Ref sig .tc := ⟨.hbm, 250, rfl⟩
abbrev main_cst_38 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_cst_39 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_c_40 : Ref sig .tc := ⟨.hbm, 265, rfl⟩
abbrev main_v178 : Ref sig .tc := ⟨.hbm, 266, rfl⟩
abbrev main_v179 : Ref sig .tc := ⟨.hbm, 267, rfl⟩
abbrev main_c_41 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_cst_42 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_cst_43 : Ref sig .tc := ⟨.hbm, 278, rfl⟩
abbrev main_v188 : Ref sig .tc := ⟨.hbm, 279, rfl⟩
abbrev main_cst_44 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_cst_45 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_call3_cst : Ref sig .tc := ⟨.hbm, 294, rfl⟩
abbrev main_call3_v0 : Ref sig .tc := ⟨.hbm, 295, rfl⟩
abbrev main_v201 : Ref sig .tc := ⟨.hbm, 296, rfl⟩
abbrev main_call4_cst : Ref sig .tc := ⟨.hbm, 297, rfl⟩
abbrev main_call4_v0 : Ref sig .tc := ⟨.hbm, 298, rfl⟩
abbrev main_v202 : Ref sig .tc := ⟨.hbm, 299, rfl⟩
abbrev main_call5_cst : Ref sig .tc := ⟨.hbm, 300, rfl⟩
abbrev main_call5_v0 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S100000x128_0_1 : S1x128.BroadcastsInDim S100000x128 (![0, 1] : Fin 2 → Fin S100000x128.rank)
  bcast_S1x128_S500x128_0_1 : S1x128.BroadcastsInDim S500x128 (![0, 1] : Fin 2 → Fin S500x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S500x128 : S_.BroadcastsInDim S500x128 (![] : Fin 0 → Fin S500x128.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  dot_S50000x3_S3x128_S50000x128_1_0_0_1_n_n_wf : DotDims.WF S50000x3 S3x128 S50000x128 [1] [0] [0] [1] [] []
  dot_S100000x770_S770x128_S100000x128_1_0_0_1_n_n_wf : DotDims.WF S100000x770 S770x128 S100000x128 [1] [0] [0] [1] [] []
  dot_S500x9_S9x128_S500x128_1_0_0_1_n_n_wf : DotDims.WF S500x9 S9x128 S500x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S500x128_S100000x1_S100000x128_1_0_n_n_0_1_1128_wf : GatherDims.WF S500x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S100000x128_S100000x1_S100000x128_1_0_n_n_0_1_1128_wf : GatherDims.WF S100000x128 S100000x1 S100000x128 [1] [0] [] [0] [] 1 ![1, 128]
  scatter_S500x128_S100000x1_S100000x128_1_0_0_1_wf : ScatterDims.WF S500x128 S100000x1 S100000x128 [1] [0] [0] 1
  scatter_S500_S100000x1_S100000_n_0_0_1_wf : ScatterDims.WF S500 S100000x1 S100000 [] [0] [0] 1
  dot_S500x128_S128x128_S500x128_1_0_0_1_n_n_wf : DotDims.WF S500x128 S128x128 S500x128 [1] [0] [0] [1] [] []

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def dot_S100000x770_S770x128_S100000x128_1_0_0_1_n_n : DotDims S100000x770 S770x128 S100000x128 where
  lhsContracting := [1]
  rhsContracting := [0]
  lhsNonContracting := [0]
  rhsNonContracting := [1]
  lhsBatch := []
  rhsBatch := []
  wf := dot_S100000x770_S770x128_S100000x128_1_0_0_1_n_n_wf
def dot_S500x9_S9x128_S500x128_1_0_0_1_n_n : DotDims S500x9 S9x128 S500x128 where
  lhsContracting := [1]
  rhsContracting := [0]
  lhsNonContracting := [0]
  rhsNonContracting := [1]
  lhsBatch := []
  rhsBatch := []
  wf := dot_S500x9_S9x128_S500x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S500x128_S100000x1_S100000x128_1_0_n_n_0_1_1128 : GatherDims S500x128 S100000x1 S100000x128 where
  offsetDims := [1]
  collapsedSliceDims := [0]
  operandBatchingDims := []
  startIndicesBatchingDims := []
  startIndexMap := [0]
  indexVectorDim := 1
  sliceSizes := ![1, 128]
  wf := gather_S500x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S500x128_S100000x1_S100000x128_1_0_0_1 : ScatterDims S500x128 S100000x1 S100000x128 where
  updateWindowDims := [1]
  insertedWindowDims := [0]
  scatterDimsToOperandDims := [0]
  indexVectorDim := 1
  wf := scatter_S500x128_S100000x1_S100000x128_1_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf

class Facts : Prop extends Facts₀ where

variable [Facts]
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.Spec.lean ====
/-
  The layer shapes of a two-layer relational graph network, as functions of whole arrays on the extended reals.

  A linear layer is `dense id x w b`: entry (p, q) is (row p of x against column q of w) + b(q).
  A one-relation layer takes the per-destination sum `s` of incoming messages and the column `inv` of reciprocal
  in-degrees; entry (p, q) is
      max( (row p of s against column q of w) · inv(p) + b(q), 0 ).
  A two-relation layer adds a second relation's scaled product before the second bias, in this order:
      max( (((s₁·w₁)(p,q) · inv₁(p) + b₁(q)) + (s₂·w₂)(p,q) · inv₂(p)) + b₂(q), 0 ).
-/
import proofs.«118985_j35038343201327_2_alg».proof.Proof.LibDense

noncomputable section

namespace Cert.Hetero

open Idealize.ShloMosaic Idealize.ShloMosaic.ValueIdx Cert.Lib.Dense
open scoped BigOperators

/-- One relation: scaled product plus bias, clamped below at zero. -/
def comb1 {M K N : ℕ} (s : (⟨2, ![M, K]⟩ : Shape).Idx → EReal) (inv : (⟨2, ![M, 1]⟩ : Shape).Idx → EReal)
    (w : (⟨2, ![K, N]⟩ : Shape).Idx → EReal) (b : (⟨2, ![1, N]⟩ : Shape).Idx → EReal) :
    (⟨2, ![M, N]⟩ : Shape).Idx → EReal :=
  fun i => max (rowDot s w (i 0) (i 1) * inv (ix2 (i 0) (0 : Fin 1)) + b (ix2 (0 : Fin 1) (i 1))) 0

theorem comb1_ix2 {M K N : ℕ} (s : (⟨2, ![M, K]⟩ : Shape).Idx → EReal) (inv : (⟨2, ![M, 1]⟩ : Shape).Idx → EReal)
    (w : (⟨2, ![K, N]⟩ : Shape).Idx → EReal) (b : (⟨2, ![1, N]⟩ : Shape).Idx → EReal) (p : Fin M) (q : Fin N) :
    comb1 s inv w b (ix2 p q)
      = max (rowDot s w p q * inv (ix2 p (0 : Fin 1)) + b (ix2 (0 : Fin 1) q)) 0 := rfl

/-- Two relations landing on one destination type. -/
def comb2 {M K N : ℕ} (s₁ : (⟨2, ![M, K]⟩ : Shape).Idx → EReal) (inv₁ : (⟨2, ![M, 1]⟩ : Shape).Idx → EReal)
    (w₁ : (⟨2, ![K, N]⟩ : Shape).Idx → EReal) (b₁ : (⟨2, ![1, N]⟩ : Shape).Idx → EReal)
    (s₂ : (⟨2, ![M, K]⟩ : Shape).Idx → EReal) (inv₂ : (⟨2, ![M, 1]⟩ : Shape).Idx → EReal)
    (w₂ : (⟨2, ![K, N]⟩ : Shape).Idx → EReal) (b₂ : (⟨2, ![1, N]⟩ : Shape).Idx → EReal) :
    (⟨2, ![M, N]⟩ : Shape).Idx → EReal :=
  fun i => max (((rowDot s₁ w₁ (i 0) (i 1) * inv₁ (ix2 (i 0) (0 : Fin 1)) + b₁ (ix2 (0 : Fin 1) (i 1)))
      + rowDot s₂ w₂ (i 0) (i 1) * inv₂ (ix2 (i 0) (0 : Fin 1))) + b₂ (ix2 (0 : Fin 1) (i 1))) 0

theorem comb2_ix2 {M K N : ℕ} (s₁ : (⟨2, ![M, K]⟩ : Shape).Idx → EReal) (inv₁ : (⟨2, ![M, 1]⟩ : Shape).Idx → EReal)
    (w₁ : (⟨2, ![K, N]⟩ : Shape).Idx → EReal) (b₁ : (⟨2, ![1, N]⟩ : Shape).Idx → EReal)
    (s₂ : (⟨2, ![M, K]⟩ : Shape).Idx → EReal) (inv₂ : (⟨2, ![M, 1]⟩ : Shape).Idx → EReal)
    (w₂ : (⟨2, ![K, N]⟩ : Shape).Idx → EReal) (b₂ : (⟨2, ![1, N]⟩ : Shape).Idx → EReal) (p : Fin M) (q : Fin N) :
    comb2 s₁ inv₁ w₁ b₁ s₂ inv₂ w₂ b₂ (ix2 p q)
      = max (((rowDot s₁ w₁ p q * inv₁ (ix2 p (0 : Fin 1)) + b₁ (ix2 (0 : Fin 1) q))
          + rowDot s₂ w₂ p q * inv₂ (ix2 p (0 : Fin 1))) + b₂ (ix2 (0 : Fin 1) q)) 0 := rfl

/-- The reciprocal of an extended real that is at least one is a nonnegative real. -/
theorem inv_of_one_le (c : EReal) (hc : 1 ≤ c) : ∃ r : ℝ, 0 ≤ r ∧ Ideal.div 1 c = (r : EReal) ∧ ∀ x : EReal, Ideal.div x c = x * (r : EReal) := by
  have hc0 : c ≠ 0 := fun h => by rw [h] at hc; exact absurd hc (by norm_num)
  have hdiv : ∀ x : EReal, Ideal.div x c = x * c⁻¹ := fun x => by rw [Ideal.div, if_neg hc0]
  induction c using EReal.rec with
  | bot => exact absurd (le_bot_iff.mp hc) (by rw [← EReal.coe_one]; exact EReal.coe_ne_bot 1)
  | top => exact ⟨0, le_refl _, by rw [hdiv, EReal.inv_top, mul_zero]; rfl, fun x => by rw [hdiv, EReal.inv_top]; rfl⟩
  | coe x =>
    have hx : (1 : ℝ) ≤ x := by exact_mod_cast hc
    refine ⟨x⁻¹, inv_nonneg.mpr (by linarith), ?_, fun y => ?_⟩
    · rw [hdiv, one_mul]; rfl
    · rw [hdiv]; rfl

/-- A nonnegative real factor moves inside a finite sum of products, on all extended reals. -/
theorem sum_mul_real {K : ℕ} (f g : Fin K → EReal) (r : ℝ) (hr : 0 ≤ r) :
    (∑ k : Fin K, f k * g k) * (r : EReal) = ∑ k : Fin K, (f k * (r : EReal)) * g k := by
  have hr' : (0 : EReal) ≤ (r : EReal) := by exact_mod_cast hr
  induction (Finset.univ : Finset (Fin K)) using Finset.induction_on with
  | empty => simp
  | insert a s ha ih =>
    rw [Finset.sum_insert ha, Finset.sum_insert ha, EReal.right_distrib_of_nonneg_of_ne_top hr' (EReal.coe_ne_top r), ih]
    congr 1
    rw [mul_assoc, mul_comm (g a), ← mul_assoc]

/-- Scaling a row-against-column product by the reciprocal of `c ≥ 1` is taking the product of the row divided by `c`. -/
theorem rowDot_scale {M K N : ℕ} (s : (⟨2, ![M, K]⟩ : Shape).Idx → EReal) (w : (⟨2, ![K, N]⟩ : Shape).Idx → EReal)
    (c : EReal) (hc : 1 ≤ c) (p : Fin M) (q : Fin N) :
    rowDot s w p q * Ideal.div 1 c = ∑ k : Fin K, Ideal.div (s (ix2 p k)) c * w (ix2 k q) := by
  obtain ⟨r, hr, h1, hx⟩ := inv_of_one_le c hc
  rw [h1]
  unfold rowDot
  rw [sum_mul_real _ _ r hr]
  exact Finset.sum_congr rfl fun k _ => by rw [hx]

end Cert.Hetero

end
-- ==== Proof.KSpec.lean ====
/-
  The network as the idealized kernel program computes it, one named stage at a time, on the extended reals.

  Node features of the three node types start as linear layers of the raw features.  A relation's aggregate is the
  scatter-add, by destination index, of the rows gathered by (wrapped) source index; its reciprocal in-degree column is
  one over the larger of one and the scatter-added count of ones.  A convolution layer combines, per destination type,
  the aggregates of the relations landing there (Spec: `comb1`, `comb2`); two such layers are followed by one linear
  layer per node type.  The gathers and scatter-adds are carried as they stand: nothing below depends on what they
  compute, only on their being applied to the same arguments wherever they occur.
-/
import proofs.«118985_j35038343201327_2_alg».proof.Proof.Gen.KernelIdeal
import proofs.«118985_j35038343201327_2_alg».proof.Proof.Spec

noncomputable section

namespace Cert.Hetero.K

open Idealize.ShloMosaic Idealize.ShloMosaic.ValueIdx Cert.Lib.Dense Cert.Hetero Cert.KernelIdeal Cert.KernelIdeal.Gen

/-- A bias vector as a one-row matrix. -/
def row (b : (⟨S128, .f32⟩ : BufTy).Contents (Elt Ideal)) : (⟨S1x128, .f32⟩ : BufTy).Contents (Elt Ideal) :=
  shapeCast S1x128 b shapeCasts_S128_S1x128

/-! ## Reciprocal in-degrees, one column per relation -/

def inv_up (x4 : (⟨S500000, .i32⟩ : BufTy).Contents (Elt Ideal)) : (⟨S100000x1, .f32⟩ : BufTy).Contents (Elt Ideal) :=
  broadcastInDim S100000x1 ![0] bcast_S100000_S100000x1_0 (Host.divf (broadcastInDim S100000 ![] bcast_S_S100000 (constant (F := Ideal) S_ .f32 0x3F800000#32)) (maximumf (Host.scatterAdd scatter_S100000_S500000x1_S500000_n_0_0_1 (broadcastInDim S100000 ![] bcast_S_S100000 (constant (F := Ideal) S_ .f32 0x00000000#32)) (broadcastInDim S500000x1 ![0] bcast_S500000_S500000x1_0 x4) (broadcastInDim S500000 ![] bcast_S_S500000 (constant (F := Ideal) S_ .f32 0x3F800000#32))) (broadcastInDim S100000 ![] bcast_S_S100000 (constant (F := Ideal) S_ .f32 0x3F800000#32))))

def inv_rb (x10 : (⟨S100000, .i32⟩ : BufTy).Contents (Elt Ideal)) : (⟨S100000x1, .f32⟩ : BufTy).Contents (Elt Ideal) :=
  broadcastInDim S100000x1 ![0] bcast_S100000_S100000x1_0 (Host.divf (broadcastInDim S100000 ![] bcast_S_S100000 (constant (F := Ideal) S_ .f32 0x3F800000#32)) (maximumf (Host.scatterAdd scatter_S100000_S100000x1_S100000_n_0_0_1 (broadcastInDim S100000 ![] bcast_S_S100000 (constant (F := Ideal) S_ .f32 0x00000000#32)) (broadcastInDim S100000x1 ![0] bcast_S100000_S100000x1_0 x10) (broadcastInDim S100000 ![] bcast_S_S100000 (constant (F := Ideal) S_ .f32 0x3F800000#32))) (broadcastInDim S100000 ![] bcast_S_S100000 (constant (F := Ideal) S_ .f32 0x3F800000#32))))

def inv_ru (x6 : (⟨S500000, .i32⟩ : BufTy).Contents (Elt Ideal)) : (⟨S50000x1, .f32⟩ : BufTy).Contents (Elt Ideal) :=
  broadcastInDim S50000x1 ![0] bcast_S50000_S50000x1_0 (Host.divf (broadcastInDim S50000 ![] bcast_S_S50000 (constant (F := Ideal) S_ .f32 0x3F800000#32)) (maximumf (Host.scatterAdd scatter_S50000_S500000x1_S500000_n_0_0_1 (broadcastInDim S50000 ![] bcast_S_S50000 (constant (F := Ideal) S_ .f32 0x00000000#32)) (broadcastInDim S500000x1 ![0] bcast_S500000_S500000x1_0 x6) (broadcastInDim S500000 ![] bcast_S_S500000 (constant (F := Ideal) S_ .f32 0x3F800000#32))) (broadcastInDim S50000 ![] bcast_S_S50000 (constant (F := Ideal) S_ .f32 0x3F800000#32))))

def inv_bt (x8 : (⟨S100000, .i32⟩ : BufTy).Contents (Elt Ideal)) : (⟨S500x1, .f32⟩ : BufTy).Contents (Elt Ideal) :=
  broadcastInDim S500x1 ![0] bcast_S500_S500x1_0 (Host.divf (broadcastInDim S500 ![] bcast_S_S500 (constant (F := Ideal) S_ .f32 0x3F800000#32)) (maximumf (Host.scatterAdd scatter_S500_S100000x1_S100000_n_0_0_1 (broadcastInDim S500 ![] bcast_S_S500 (constant (F := Ideal) S_ .f32 0x00000000#32)) (broadcastInDim S100000x1 ![0] bcast_S100000_S100000x1_0 x8) (broadcastInDim S100000 ![] bcast_S_S100000 (constant (F := Ideal) S_ .f32 0x3F800000#32))) (broadcastInDim S500 ![] bcast_S_S500 (constant (F := Ideal) S_ .f32 0x3F800000#32))))

/-! ## Aggregates: rows gathered by source index, scatter-added by destination index -/

def agg_up (hu : (⟨S50000x128, .bf16⟩ : BufTy).Contents (Elt Ideal)) (x3 x4 : (⟨S500000, .i32⟩ : BufTy).Contents (Elt Ideal)) : (⟨S100000x128, .f32⟩ : BufTy).Contents (Elt Ideal) :=
  Host.scatterAdd scatter_S100000x128_S500000x1_S500000x128_1_0_0_1 (broadcastInDim S100000x128 ![] bcast_S_S100000x128 (constant (F := Ideal) S_ .f32 0x00000000#32)) (broadcastInDim S500000x1 ![0] bcast_S500000_S500000x1_0 x4) (extf .f32 (Host.gather gather_S50000x128_S500000x1_S500000x128_1_0_n_n_0_1_1128 hu (broadcastInDim S500000x1 ![0] bcast_S500000_S500000x1_0 (select (cmpi .slt x3 (broadcastInDim S500000 ![] bcast_S_S500000 (constantI S_ 32 0#32))) (addi x3 (broadcastInDim S500000 ![] bcast_S_S500000 (constantI S_ 32 50000#32))) x3))) bitsLt_bf16_f32)

def agg_rb (hs : (⟨S500x128, .bf16⟩ : BufTy).Contents (Elt Ideal)) (x9 x10 : (⟨S100000, .i32⟩ : BufTy).Contents (Elt Ideal)) : (⟨S100000x128, .f32⟩ : BufTy).Contents (Elt Ideal) :=
  Host.scatterAdd scatter_S100000x128_S100000x1_S100000x128_1_0_0_1 (broadcastInDim S100000x128 ![] bcast_S_S100000x128 (constant (F := Ideal) S_ .f32 0x00000000#32)) (broadcastInDim S100000x1 ![0] bcast_S100000_S100000x1_0 x10) (extf .f32 (Host.gather gather_S500x128_S100000x1_S100000x128_1_0_n_n_0_1_1128 hs (broadcastInDim S100000x1 ![0] bcast_S100000_S100000x1_0 (select (cmpi .slt x9 (broadcastInDim S100000 ![] bcast_S_S100000 (constantI S_ 32 0#32))) (addi x9 (broadcastInDim S100000 ![] bcast_S_S100000 (constantI S_ 32 500#32))) x9))) bitsLt_bf16_f32)

def agg_ru (hp : (⟨S100000x128, .bf16⟩ : BufTy).Contents (Elt Ideal)) (x5 x6 : (⟨S500000, .i32⟩ : BufTy).Contents (Elt Ideal)) : (⟨S50000x128, .f32⟩ : BufTy).Contents (Elt Ideal) :=
  Host.scatterAdd scatter_S50000x128_S500000x1_S500000x128_1_0_0_1 (broadcastInDim S50000x128 ![] bcast_S_S50000x128 (constant (F := Ideal) S_ .f32 0x00000000#32)) (broadcastInDim S500000x1 ![0] bcast_S500000_S500000x1_0 x6) (extf .f32 (Host.gather gather_S100000x128_S500000x1_S500000x128_1_0_n_n_0_1_1128 hp (broadcastInDim S500000x1 ![0] bcast_S500000_S500000x1_0 (select (cmpi .slt x5 (broadcastInDim S500000 ![] bcast_S_S500000 (constantI S_ 32 0#32))) (addi x5 (broadcastInDim S500000 ![] bcast_S_S500000 (constantI S_ 32 100000#32))) x5))) bitsLt_bf16_f32)

def agg_bt (hp : (⟨S100000x128, .bf16⟩ : BufTy).Contents (Elt Ideal)) (x7 x8 : (⟨S100000, .i32⟩ : BufTy).Contents (Elt Ideal)) : (⟨S500x128, .f32⟩ : BufTy).Contents (Elt Ideal) :=
  Host.scatterAdd scatter_S500x128_S100000x1_S100000x128_1_0_0_1 (broadcastInDim S500x128 ![] bcast_S_S500x128 (constant (F := Ideal) S_ .f32 0x00000000#32)) (broadcastInDim S100000x1 ![0] bcast_S100000_S100000x1_0 x8) (extf .f32 (Host.gather gather_S100000x128_S100000x1_S100000x128_1_0_n_n_0_1_1128 hp (broadcastInDim S100000x1 ![0] bcast_S100000_S100000x1_0 (select (cmpi .slt x7 (broadcastInDim S100000 ![] bcast_S_S100000 (constantI S_ 32 0#32))) (addi x7 (broadcastInDim S100000 ![] bcast_S_S100000 (constantI S_ 32 100000#32))) x7))) bitsLt_bf16_f32)

/-! ## One convolution layer, per destination type -/

/-- Posts: users' features along "up" and subs' features along "rb". -/
def convP (hu : (⟨S50000x128, .bf16⟩ : BufTy).Contents (Elt Ideal)) (hs : (⟨S500x128, .bf16⟩ : BufTy).Contents (Elt Ideal))
    (x3 x4 : (⟨S500000, .i32⟩ : BufTy).Contents (Elt Ideal)) (x9 x10 : (⟨S100000, .i32⟩ : BufTy).Contents (Elt Ideal))
    (wup : (⟨S128x128, .f32⟩ : BufTy).Contents (Elt Ideal)) (bup : (⟨S128, .f32⟩ : BufTy).Contents (Elt Ideal))
    (wrb : (⟨S128x128, .f32⟩ : BufTy).Contents (Elt Ideal)) (brb : (⟨S128, .f32⟩ : BufTy).Contents (Elt Ideal)) : (⟨S100000x128, .bf16⟩ : BufTy).Contents (Elt Ideal) :=
  comb2 (M := 100000) (K := 128) (N := 128) (agg_up hu x3 x4) (inv_up x4) wup (row bup) (agg_rb hs x9 x10) (inv_rb x10) wrb (row brb)

/-- Users: posts' features along "ru". -/
def convU (hp : (⟨S100000x128, .bf16⟩ : BufTy).Contents (Elt Ideal)) (x5 x6 : (⟨S500000, .i32⟩ : BufTy).Contents (Elt Ideal))
    (wru : (⟨S128x128, .f32⟩ : BufTy).Contents (Elt Ideal)) (bru : (⟨S128, .f32⟩ : BufTy).Contents (Elt Ideal)) : (⟨S50000x128, .bf16⟩ : BufTy).Contents (Elt Ideal) :=
  comb1 (M := 50000) (K := 128) (N := 128) (agg_ru hp x5 x6) (inv_ru x6) wru (row bru)

/-- Subs: posts' features along "bt". -/
def convS (hp : (⟨S100000x128, .bf16⟩ : BufTy).Contents (Elt Ideal)) (x7 x8 : (⟨S100000, .i32⟩ : BufTy).Contents (Elt Ideal))
    (wbt : (⟨S128x128, .f32⟩ : BufTy).Contents (Elt Ideal)) (bbt : (⟨S128, .f32⟩ : BufTy).Contents (Elt Ideal)) : (⟨S500x128, .bf16⟩ : BufTy).Contents (Elt Ideal) :=
  comb1 (M := 500) (K := 128) (N := 128) (agg_bt hp x7 x8) (inv_bt x8) wbt (row bbt)

/-! ## The whole network -/

section Net

variable (x0 : (⟨S50000x3, .f32⟩ : BufTy).Contents (Elt Ideal)) (x1 : (⟨S100000x770, .f32⟩ : BufTy).Contents (Elt Ideal)) (x2 : (⟨S500x9, .f32⟩ : BufTy).Contents (Elt Ideal))
  (x3 x4 x5 x6 : (⟨S500000, .i32⟩ : BufTy).Contents (Elt Ideal)) (x7 x8 x9 x10 : (⟨S100000, .i32⟩ : BufTy).Contents (Elt Ideal))
  (x11 : (⟨S3x128, .f32⟩ : BufTy).Contents (Elt Ideal)) (x12 : (⟨S128, .f32⟩ : BufTy).Contents (Elt Ideal)) (x13 : (⟨S770x128, .f32⟩ : BufTy).Contents (Elt Ideal)) (x14 : (⟨S128, .f32⟩ : BufTy).Contents (Elt Ideal))
  (x15 : (⟨S9x128, .f32⟩ : BufTy).Contents (Elt Ideal)) (x16 : (⟨S128, .f32⟩ : BufTy).Contents (Elt Ideal))
  (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal))
  (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
  (x25 : (⟨S128x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
  (x29 : (⟨S128x128, .f32⟩ : BufTy).Contents (Elt Ideal)) (x30 : (⟨S128, .f32⟩ : BufTy).Contents (Elt Ideal)) (x31 : (⟨S128x128, .f32⟩ : BufTy).Contents (Elt Ideal)) (x32 : (⟨S128, .f32⟩ : BufTy).Contents (Elt Ideal))
  (x33 : (⟨S128x128, .f32⟩ : BufTy).Contents (Elt Ideal)) (x34 : (⟨S128, .f32⟩ : BufTy).Contents (Elt Ideal)) (x35 : (⟨S128x128, .f32⟩ : BufTy).Contents (Elt Ideal)) (x36 : (⟨S128, .f32⟩ : BufTy).Contents (Elt Ideal))
  (x37 : (⟨S128x128, .f32⟩ : BufTy).Contents (Elt Ideal)) (x38 : (⟨S128, .f32⟩ : BufTy).Contents (Elt Ideal))

def hu : (⟨S50000x128, .bf16⟩ : BufTy).Contents (Elt Ideal) := dense (M := 50000) (K := 3) (N := 128) id x0 x11 (row x12)
def hp : (⟨S100000x128, .bf16⟩ : BufTy).Contents (Elt Ideal) := dense (M := 100000) (K := 770) (N := 128) id x1 x13 (row x14)
def hs : (⟨S500x128, .bf16⟩ : BufTy).Contents (Elt Ideal) := dense (M := 500) (K := 9) (N := 128) id x2 x15 (row x16)

def p1 : (⟨S100000x128, .bf16⟩ : BufTy).Contents (Elt Ideal) := convP (hu x0 x11 x12) (hs x2 x15 x16) x3 x4 x9 x10 x17 x18 x23 x24
def u1 : (⟨S50000x128, .bf16⟩ : BufTy).Contents (Elt Ideal) := convU (hp x1 x13 x14) x5 x6 x19 x20
def s1 : (⟨S500x128, .bf16⟩ : BufTy).Contents (Elt Ideal) := convS (hp x1 x13 x14) x7 x8 x21 x22

def p2 : (⟨S100000x128, .bf16⟩ : BufTy).Contents (Elt Ideal) :=
  convP (u1 x1 x5 x6 x13 x14 x19 x20) (s1 x1 x7 x8 x13 x14 x21 x22) x3 x4 x9 x10 x25 x26 x31 x32
def u2 : (⟨S50000x128, .bf16⟩ : BufTy).Contents (Elt Ideal) :=
  convU (p1 x0 x2 x3 x4 x9 x10 x11 x12 x15 x16 x17 x18 x23 x24) x5 x6 x27 x28
def s2 : (⟨S500x128, .bf16⟩ : BufTy).Contents (Elt Ideal) :=
  convS (p1 x0 x2 x3 x4 x9 x10 x11 x12 x15 x16 x17 x18 x23 x24) x7 x8 x29 x30

def outUser : (⟨S50000x128, .f32⟩ : BufTy).Contents (Elt Ideal) :=
  dense (M := 50000) (K := 128) (N := 128) id (u2 x0 x2 x3 x4 x5 x6 x9 x10 x11 x12 x15 x16 x17 x18 x23 x24 x27 x28) x33 (row x34)
def outPost : (⟨S100000x128, .f32⟩ : BufTy).Contents (Elt Ideal) :=
  dense (M := 100000) (K := 128) (N := 128) id (p2 x1 x3 x4 x5 x6 x7 x8 x9 x10 x13 x14 x19 x20 x21 x22 x25 x26 x31 x32) x35 (row x36)
def outSub : (⟨S500x128, .f32⟩ : BufTy).Contents (Elt Ideal) :=
  dense (M := 500) (K := 128) (N := 128) id (s2 x0 x2 x3 x4 x7 x8 x9 x10 x11 x12 x15 x16 x17 x18 x23 x24 x29 x30) x37 (row x38)

end Net

end Cert.Hetero.K

end
-- ==== Proof.FoldArgsC.lean ====
/-
  No host operation and no region of the idealized kernel program writes an argument array, so at every boundary of the
  fold through the program's segments an argument's buffer still holds its launch contents.  This file walks the fold
  back to the launch for the arguments read by the second layer's one-relation regions and by the three heads, at the boundaries where a region or a host stretch reads them.
-/
import proofs.«118985_j35038343201327_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem arg28_at14 (c : Dev nD) : W14 m ρ c (Proc.devRef .tc main_arg28) = m ((c : Thread nD τ).loc main_arg28) :=
  calc W14 m ρ c (Proc.devRef .tc main_arg28)
    _ = W13 m ρ c (Proc.devRef .tc main_arg28) := W14_of_ne m ρ c main_arg28 (by decide)
    _ = W12 m ρ c (Proc.devRef .tc main_arg28) := (StableHlo.after_of_forall_not_mem (b := Proc.devRef .tc main_arg28) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg28) := W12_of_ne m ρ c main_arg28 (by decide)
    _ = W10 m ρ c (Proc.devRef .tc main_arg28) := (StableHlo.after_of_forall_not_mem (b := Proc.devRef .tc main_arg28) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg28) := W10_of_ne m ρ c main_arg28 (by decide)
    _ = W8 m ρ c (Proc.devRef .tc main_arg28) := (StableHlo.after_of_forall_not_mem (b := Proc.devRef .tc main_arg28) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg28) := W8_of_ne m ρ c main_arg28 (by decide)
    _ = W6 m ρ c (Proc.devRef .tc main_arg28) := (StableHlo.after_of_forall_not_mem (b := Proc.devRef .tc main_arg28) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg28) := W6_of_ne m ρ c main_arg28 (by decide)
    _ = W4 m ρ c (Proc.devRef .tc main_arg28) := (StableHlo.after_of_forall_not_mem (b := Proc.devRef .tc main_arg28) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg28) := W4_of_ne m ρ c main_arg28 (by decide)
    _ = W2 m ρ c (Proc.devRef .tc main_arg28) := (StableHlo.after_of_forall_not_mem (b := Proc.devRef .tc main_arg28) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg28) := W2_of_ne m ρ c main_arg28 (by decide)
    _ = W0 m ρ c (Proc.devRef .tc main_arg28) := (StableHlo.after_of_forall_not_mem (b := Proc.devRef .tc main_arg28) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg28) := rfl

theorem arg27_at15 (c : Dev nD) : W15 m ρ c (Proc.devRef .tc main_arg27) = m ((c : Thread nD τ).loc main_arg27) :=
  calc W15 m ρ c (Proc.devRef .tc main_arg27)
    _ = W14 m ρ c (Proc.devRef .tc main_arg27) := (StableHlo.after_of_forall_not_mem (b := Proc.devRef .tc main_arg27) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg27) := W14_of_ne m ρ c main_arg27 (by decide)
    _ = W12 m ρ c (Proc.devRef .tc main_arg27) := (StableHlo.after_of_forall_not_mem (b := Proc.devRef .tc main_arg27) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg27) := W12_of_ne m ρ c main_arg27 (by decide)
    _ = W10 m ρ c (Proc.devRef .tc main_arg27) := (StableHlo.after_of_forall_not_mem (b := Proc.devRef .tc main_arg27) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg27) := W10_of_ne m ρ c main_arg27 (by decide)
    _ = W8 m ρ c (Proc.devRef .tc main_arg27) := (StableHlo.after_of_forall_not_mem (b := Proc.devRef .tc main_arg27) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg27) := W8_of_ne m ρ c main_arg27 (by decide)
    _ = W6 m ρ c (Proc.devRef .tc main_arg27) := (StableHlo.after_of_forall_not_mem (b := Proc.devRef .tc main_arg27) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg27) := W6_of_ne m ρ c main_arg27 (by decide)
    _ = W4 m ρ c (Proc.devRef .tc main_arg27) := (StableHlo.after_of_forall_not_mem (b := Proc.devRef .tc main_arg27) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg27) := W4_of_ne m ρ c main_arg27 (by decide)
    _ = W2 m ρ c (Proc.devRef .tc main_arg27) := (StableHlo.after_of_forall_not_mem (b := Proc.devRef .tc main_arg27) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg27) := W2_of_ne m ρ c main_arg27 (by decide)
    _ = W0 m ρ c (Proc.devRef .tc main_arg27) := (StableHlo.after_of_forall_not_mem (b := Proc.devRef .tc main_arg27) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg27) := rfl

theorem arg30_at16 (c : Dev nD) : W16 m ρ c (Proc.devRef .tc main_arg30) = m ((c : Thread nD τ).loc main_arg30) :=
  calc W16 m ρ c (Proc.devRef .tc main_arg30)
    _ = W15 m ρ c (Proc.devRef .tc main_arg30) := W16_of_ne m ρ c main_arg30 (by decide)
    _ = W14 m ρ c (Proc.devRef .tc main_arg30) := (StableHlo.after_of_forall_not_mem (b := Proc.devRef .tc main_arg30) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg30) := W14_of_ne m ρ c main_arg30 (by decide)
    _ = W12 m ρ c (Proc.devRef .tc main_arg30) := (StableHlo.after_of_forall_not_mem (b := Proc.devRef .tc main_arg30) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg30) := W12_of_ne m ρ c main_arg30 (by decide)
    _ = W10 m ρ c (Proc.devRef .tc main_arg30) := (StableHlo.after_of_forall_not_mem (b := Proc.devRef .tc main_arg30) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg30) := W10_of_ne m ρ c main_arg30 (by decide)
    _ = W8 m ρ c (Proc.devRef .tc main_arg30) := (StableHlo.after_of_forall_not_mem (b := Proc.devRef .tc main_arg30) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg30) := W8_of_ne m ρ c main_arg30 (by decide)
    _ = W6 m ρ c (Proc.devRef .tc main_arg30) := (StableHlo.after_of_forall_not_mem (b := Proc.devRef .tc main_arg30) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg30) := W6_of_ne m ρ c main_arg30 (by decide)
    _ = W4 m ρ c (Proc.devRef .tc main_arg30) := (StableHlo.after_of_forall_not_mem (b := Proc.devRef .tc main_arg30) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg30) := W4_of_ne m ρ c main_arg30 (by decide)
    _ = W2 m ρ c (Proc.devRef .tc main_arg30) := (StableHlo.after_of_forall_not_mem (b := Proc.devRef .tc main_arg30) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg30) := W2_of_ne m ρ c main_arg30 (by decide)
    _ = W0 m ρ c (Proc.devRef .tc main_arg30) := (StableHlo.after_of_forall_not_mem (b := Proc.devRef .tc main_arg30) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg30) := rfl

theorem arg29_at17 (c : Dev nD) : W17 m ρ c (Proc.devRef .tc main_arg29) = m ((c : Thread nD τ).loc main_arg29) :=
  calc W17 m ρ c (Proc.devRef .tc main_arg29)
    _ = W16 m ρ c (Proc.devRef .tc main_arg29) := (StableHlo.after_of_forall_not_mem (b := Proc.devRef .tc main_arg29) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg29) := W16_of_ne m ρ c main_arg29 (by decide)
    _ = W14 m ρ c (Proc.devRef .tc main_arg29) := (StableHlo.after_of_forall_not_mem (b := Proc.devRef .tc main_arg29) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg29) := W14_of_ne m ρ c main_arg29 (by decide)
    _ = W12 m ρ c (Proc.devRef .tc main_arg29) := (StableHlo.after_of_forall_not_mem (b := Proc.devRef .tc main_arg29) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg29) := W12_of_ne m ρ c main_arg29 (by decide)
    _ = W10 m ρ c (Proc.devRef .tc main_arg29) := (StableHlo.after_of_forall_not_mem (b := Proc.devRef .tc main_arg29) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg29) := W10_of_ne m ρ c main_arg29 (by decide)
    _ = W8 m ρ c (Proc.devRef .tc main_arg29) := (StableHlo.after_of_forall_not_mem (b := Proc.devRef .tc main_arg29) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg29) := W8_of_ne m ρ c main_arg29 (by decide)
    _ = W6 m ρ c (Proc.devRef .tc main_arg29) := (StableHlo.after_of_forall_not_mem (b := Proc.devRef .tc main_arg29) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg29) := W6_of_ne m ρ c main_arg29 (by decide)
    _ = W4 m ρ c (Proc.devRef .tc main_arg29) := (StableHlo.after_of_forall_not_mem (b := Proc.devRef .tc main_arg29) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg29) := W4_of_ne m ρ c main_arg29 (by decide)
    _ = W2 m ρ c (Proc.devRef .tc main_arg29) := (StableHlo.after_of_forall_not_mem (b := Proc.devRef .tc main_arg29) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg29) := W2_of_ne m ρ c main_arg29 (by decide)
    _ = W0 m ρ c (Proc.devRef .tc main_arg29) := (StableHlo.after_of_forall_not_mem (b := Proc.devRef .tc main_arg29) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg29) := rfl

theorem arg34_at18 (c : Dev nD) : W18 m ρ c (Proc.devRef .tc main_arg34) = m ((c : Thread nD τ).loc main_arg34) :=
  calc W18 m ρ c (Proc.devRef .tc main_arg34)
    _ = W17 m ρ c (Proc.devRef .tc main_arg34) := W18_of_ne m ρ c main_arg34 (by decide)
    _ = W16 m ρ c (Proc.devRef .tc main_arg34) := (StableHlo.after_of_forall_not_mem (b := Proc.devRef .tc main_arg34) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg34) := W16_of_ne m ρ c main_arg34 (by decide)
    _ = W14 m ρ c (Proc.devRef .tc main_arg34) := (StableHlo.after_of_forall_not_mem (b := Proc.devRef .tc main_arg34) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg34) := W14_of_ne m ρ c main_arg34 (by decide)
    _ = W12 m ρ c (Proc.devRef .tc main_arg34) := (StableHlo.after_of_forall_not_mem (b := Proc.devRef .tc main_arg34) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg34) := W12_of_ne m ρ c main_arg34 (by decide)
    _ = W10 m ρ c (Proc.devRef .tc main_arg34) := (StableHlo.after_of_forall_not_mem (b := Proc.devRef .tc main_arg34) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg34) := W10_of_ne m ρ c main_arg34 (by decide)
    _ = W8 m ρ c (Proc.devRef .tc main_arg34) := (StableHlo.after_of_forall_not_mem (b := Proc.devRef .tc main_arg34) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg34) := W8_of_ne m ρ c main_arg34 (by decide)
    _ = W6 m ρ c (Proc.devRef .tc main_arg34) := (StableHlo.after_of_forall_not_mem (b := Proc.devRef .tc main_arg34) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg34) := W6_of_ne m ρ c main_arg34 (by decide)
    _ = W4 m ρ c (Proc.devRef .tc main_arg34) := (StableHlo.after_of_forall_not_mem (b := Proc.devRef .tc main_arg34) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg34) := W4_of_ne m ρ c main_arg34 (by decide)
    _ = W2 m ρ c (Proc.devRef .tc main_arg34) := (StableHlo.after_of_forall_not_mem (b := Proc.devRef .tc main_arg34) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg34) := W2_of_ne m ρ c main_arg34 (by decide)
    _ = W0 m ρ c (Proc.devRef .tc main_arg34) := (StableHlo.after_of_forall_not_mem (b := Proc.devRef .tc main_arg34) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg34) := rfl

theorem arg33_at19 (c : Dev nD) : W19 m ρ c (Proc.devRef .tc main_arg33) = m ((c : Thread nD τ).loc main_arg33) :=
  calc W19 m ρ c (Proc.devRef .tc main_arg33)
    _ = W18 m ρ c (Proc.devRef .tc main_arg33) := (StableHlo.after_of_forall_not_mem (b := Proc.devRef .tc main_arg33) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_arg33) := W18_of_ne m ρ c main_arg33 (by decide)
    _ = W16 m ρ c (Proc.devRef .tc main_arg33) := (StableHlo.after_of_forall_not_mem (b := Proc.devRef .tc main_arg33) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg33) := W16_of_ne m ρ c main_arg33 (by decide)
    _ = W14 m ρ c (Proc.devRef .tc main_arg33) := (StableHlo.after_of_forall_not_mem (b := Proc.devRef .tc main_arg33) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg33) := W14_of_ne m ρ c main_arg33 (by decide)
    _ = W12 m ρ c (Proc.devRef .tc main_arg33) := (StableHlo.after_of_forall_not_mem (b := Proc.devRef .tc main_arg33) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg33) := W12_of_ne m ρ c main_arg33 (by decide)
    _ = W10 m ρ c (Proc.devRef .tc main_arg33) := (StableHlo.after_of_forall_not_mem (b := Proc.devRef .tc main_arg33) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg33) := W10_of_ne m ρ c main_arg33 (by decide)
    _ = W8 m ρ c (Proc.devRef .tc main_arg33) := (StableHlo.after_of_forall_not_mem (b := Proc.devRef .tc main_arg33) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg33) := W8_of_ne m ρ c main_arg33 (by decide)
    _ = W6 m ρ c (Proc.devRef .tc main_arg33) := (StableHlo.after_of_forall_not_mem (b := Proc.devRef .tc main_arg33) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg33) := W6_of_ne m ρ c main_arg33 (by decide)
    _ = W4 m ρ c (Proc.devRef .tc main_arg33) := (StableHlo.after_of_forall_not_mem (b := Proc.devRef .tc main_arg33) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg33) := W4_of_ne m ρ c main_arg33 (by decide)
    _ = W2 m ρ c (Proc.devRef .tc main_arg33) := (StableHlo.after_of_forall_not_mem (b := Proc.devRef .tc main_arg33) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg33) := W2_of_ne m ρ c main_arg33 (by decide)
    _ = W0 m ρ c (Proc.devRef .tc main_arg33) := (StableHlo.after_of_forall_not_mem (b := Proc.devRef .tc main_arg33) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg33) := rfl

theorem arg36_at20 (c : Dev nD) : W20 m ρ c (Proc.devRef .tc main_arg36) = m ((c : Thread nD τ).loc main_arg36) :=
  calc W20 m ρ c (Proc.devRef .tc main_arg36)
    _ = W19 m ρ c (Proc.devRef .tc main_arg36) := W20_of_ne m ρ c main_arg36 (by decide)
    _ = W18 m ρ c (Proc.devRef .tc main_arg36) := (StableHlo.after_of_forall_not_mem (b := Proc.devRef .tc main_arg36) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_arg36) := W18_of_ne m ρ c main_arg36 (by decide)
    _ = W16 m ρ c (Proc.devRef .tc main_arg36) := (StableHlo.after_of_forall_not_mem (b := Proc.devRef .tc main_arg36) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg36) := W16_of_ne m ρ c main_arg36 (by decide)
    _ = W14 m ρ c (Proc.devRef .tc main_arg36) := (StableHlo.after_of_forall_not_mem (b := Proc.devRef .tc main_arg36) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg36) := W14_of_ne m ρ c main_arg36 (by decide)
    _ = W12 m ρ c (Proc.devRef .tc main_arg36) := (StableHlo.after_of_forall_not_mem (b := Proc.devRef .tc main_arg36) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg36) := W12_of_ne m ρ c main_arg36 (by decide)
    _ = W10 m ρ c (Proc.devRef .tc main_arg36) := (StableHlo.after_of_forall_not_mem (b := Proc.devRef .tc main_arg36) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg36) := W10_of_ne m ρ c main_arg36 (by decide)
    _ = W8 m ρ c (Proc.devRef .tc main_arg36) := (StableHlo.after_of_forall_not_mem (b := Proc.devRef .tc main_arg36) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg36) := W8_of_ne m ρ c main_arg36 (by decide)
    _ = W6 m ρ c (Proc.devRef .tc main_arg36) := (StableHlo.after_of_forall_not_mem (b := Proc.devRef .tc main_arg36) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg36) := W6_of_ne m ρ c main_arg36 (by decide)
    _ = W4 m ρ c (Proc.devRef .tc main_arg36) := (StableHlo.after_of_forall_not_mem (b := Proc.devRef .tc main_arg36) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg36) := W4_of_ne m ρ c main_arg36 (by decide)
    _ = W2 m ρ c (Proc.devRef .tc main_arg36) := (StableHlo.after_of_forall_not_mem (b := Proc.devRef .tc main_arg36) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg36) := W2_of_ne m ρ c main_arg36 (by decide)
    _ = W0 m ρ c (Proc.devRef .tc main_arg36) := (StableHlo.after_of_forall_not_mem (b := Proc.devRef .tc main_arg36) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg36) := rfl

theorem arg35_at21 (c : Dev nD) : W21 m ρ c (Proc.devRef .tc main_arg35) = m ((c : Thread nD τ).loc main_arg35) :=
  calc W21 m ρ c (Proc.devRef .tc main_arg35)
    _ = W20 m ρ c (Proc.devRef .tc main_arg35) := (StableHlo.after_of_forall_not_mem (b := Proc.devRef .tc main_arg35) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W19 m ρ c (Proc.devRef .tc main_arg35) := W20_of_ne m ρ c main_arg35 (by decide)
    _ = W18 m ρ c (Proc.devRef .tc main_arg35) := (StableHlo.after_of_forall_not_mem (b := Proc.devRef .tc main_arg35) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_arg35) := W18_of_ne m ρ c main_arg35 (by decide)
    _ = W16 m ρ c (Proc.devRef .tc main_arg35) := (StableHlo.after_of_forall_not_mem (b := Proc.devRef .tc main_arg35) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg35) := W16_of_ne m ρ c main_arg35 (by decide)
    _ = W14 m ρ c (Proc.devRef .tc main_arg35) := (StableHlo.after_of_forall_not_mem (b := Proc.devRef .tc main_arg35) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg35) := W14_of_ne m ρ c main_arg35 (by decide)
    _ = W12 m ρ c (Proc.devRef .tc main_arg35) := (StableHlo.after_of_forall_not_mem (b := Proc.devRef .tc main_arg35) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg35) := W12_of_ne m ρ c main_arg35 (by decide)
    _ = W10 m ρ c (Proc.devRef .tc main_arg35) := (StableHlo.after_of_forall_not_mem (b := Proc.devRef .tc main_arg35) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg35) := W10_of_ne m ρ c main_arg35 (by decide)
    _ = W8 m ρ c (Proc.devRef .tc main_arg35) := (StableHlo.after_of_forall_not_mem (b := Proc.devRef .tc main_arg35) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg35) := W8_of_ne m ρ c main_arg35 (by decide)
    _ = W6 m ρ c (Proc.devRef .tc main_arg35) := (StableHlo.after_of_forall_not_mem (b := Proc.devRef .tc main_arg35) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg35) := W6_of_ne m ρ c main_arg35 (by decide)
    _ = W4 m ρ c (Proc.devRef .tc main_arg35) := (StableHlo.after_of_forall_not_mem (b := Proc.devRef .tc main_arg35) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg35) := W4_of_ne m ρ c main_arg35 (by decide)
    _ = W2 m ρ c (Proc.devRef .tc main_arg35) := (StableHlo.after_of_forall_not_mem (b := Proc.devRef .tc main_arg35) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg35) := W2_of_ne m ρ c main_arg35 (by decide)
    _ = W0 m ρ c (Proc.devRef .tc main_arg35) := (StableHlo.after_of_forall_not_mem (b := Proc.devRef .tc main_arg35) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg35) := rfl

theorem arg38_at22 (c : Dev nD) : W22 m ρ c (Proc.devRef .tc main_arg38) = m ((c : Thread nD τ).loc main_arg38) :=
  calc W22 m ρ c (Proc.devRef .tc main_arg38)
    _ = W21 m ρ c (Proc.devRef .tc main_arg38) := W22_of_ne m ρ c main_arg38 (by decide)
    _ = W20 m ρ c (Proc.devRef .tc main_arg38) := (StableHlo.after_of_forall_not_mem (b := Proc.devRef .tc main_arg38) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W19 m ρ c (Proc.devRef .tc main_arg38) := W20_of_ne m ρ c main_arg38 (by decide)
    _ = W18 m ρ c (Proc.devRef .tc main_arg38) := (StableHlo.after_of_forall_not_mem (b := Proc.devRef .tc main_arg38) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_arg38) := W18_of_ne m ρ c main_arg38 (by decide)
    _ = W16 m ρ c (Proc.devRef .tc main_arg38) := (StableHlo.after_of_forall_not_mem (b := Proc.devRef .tc main_arg38) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg38) := W16_of_ne m ρ c main_arg38 (by decide)
    _ = W14 m ρ c (Proc.devRef .tc main_arg38) := (StableHlo.after_of_forall_not_mem (b := Proc.devRef .tc main_arg38) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg38) := W14_of_ne m ρ c main_arg38 (by decide)
    _ = W12 m ρ c (Proc.devRef .tc main_arg38) := (StableHlo.after_of_forall_not_mem (b := Proc.devRef .tc main_arg38) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg38) := W12_of_ne m ρ c main_arg38 (by decide)
    _ = W10 m ρ c (Proc.devRef .tc main_arg38) := (StableHlo.after_of_forall_not_mem (b := Proc.devRef .tc main_arg38) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg38) := W10_of_ne m ρ c main_arg38 (by decide)
    _ = W8 m ρ c (Proc.devRef .tc main_arg38) := (StableHlo.after_of_forall_not_mem (b := Proc.devRef .tc main_arg38) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg38) := W8_of_ne m ρ c main_arg38 (by decide)
    _ = W6 m ρ c (Proc.devRef .tc main_arg38) := (StableHlo.after_of_forall_not_mem (b := Proc.devRef .tc main_arg38) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg38) := W6_of_ne m ρ c main_arg38 (by decide)
    _ = W4 m ρ c (Proc.devRef .tc main_arg38) := (StableHlo.after_of_forall_not_mem (b := Proc.devRef .tc main_arg38) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg38) := W4_of_ne m ρ c main_arg38 (by decide)
    _ = W2 m ρ c (Proc.devRef .tc main_arg38) := (StableHlo.after_of_forall_not_mem (b := Proc.devRef .tc main_arg38) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg38) := W2_of_ne m ρ c main_arg38 (by decide)
    _ = W0 m ρ c (Proc.devRef .tc main_arg38) := (StableHlo.after_of_forall_not_mem (b := Proc.devRef .tc main_arg38) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg38) := rfl

theorem arg37_at23 (c : Dev nD) : W23 m ρ c (Proc.devRef .tc main_arg37) = m ((c : Thread nD τ).loc main_arg37) :=
  calc W23 m ρ c (Proc.devRef .tc main_arg37)
    _ = W22 m ρ c (Proc.devRef .tc main_arg37) := (StableHlo.after_of_forall_not_mem (b := Proc.devRef .tc main_arg37) _ _ (List.forall_iff_forall_mem.mp (by
        simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W21 m ρ c (Proc.devRef .tc main_arg37) := W22_of_ne m ρ c main_arg37 (by decide)
    _ = W20 m ρ c (Proc.devRef .tc main_arg37) := (StableHlo.after_of_forall_not_mem (b := Proc.devRef .tc main_arg37) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W19 m ρ c (Proc.devRef .tc main_arg37) := W20_of_ne m ρ c main_arg37 (by decide)
    _ = W18 m ρ c (Proc.devRef .tc main_arg37) := (StableHlo.after_of_forall_not_mem (b := Proc.devRef .tc main_arg37) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_arg37) := W18_of_ne m ρ c main_arg37 (by decide)
    _ = W16 m ρ c (Proc.devRef .tc main_arg37) := (StableHlo.after_of_forall_not_mem (b := Proc.devRef .tc main_arg37) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_arg37) := W16_of_ne m ρ c main_arg37 (by decide)
    _ = W14 m ρ c (Proc.devRef .tc main_arg37) := (StableHlo.after_of_forall_not_mem (b := Proc.devRef .tc main_arg37) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_arg37) := W14_of_ne m ρ c main_arg37 (by decide)
    _ = W12 m ρ c (Proc.devRef .tc main_arg37) := (StableHlo.after_of_forall_not_mem (b := Proc.devRef .tc main_arg37) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg37) := W12_of_ne m ρ c main_arg37 (by decide)
    _ = W10 m ρ c (Proc.devRef .tc main_arg37) := (StableHlo.after_of_forall_not_mem (b := Proc.devRef .tc main_arg37) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg37) := W10_of_ne m ρ c main_arg37 (by decide)
    _ = W8 m ρ c (Proc.devRef .tc main_arg37) := (StableHlo.after_of_forall_not_mem (b := Proc.devRef .tc main_arg37) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg37) := W8_of_ne m ρ c main_arg37 (by decide)
    _ = W6 m ρ c (Proc.devRef .tc main_arg37) := (StableHlo.after_of_forall_not_mem (b := Proc.devRef .tc main_arg37) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg37) := W6_of_ne m ρ c main_arg37 (by decide)
    _ = W4 m ρ c (Proc.devRef .tc main_arg37) := (StableHlo.after_of_forall_not_mem (b := Proc.devRef .tc main_arg37) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg37) := W4_of_ne m ρ c main_arg37 (by decide)
    _ = W2 m ρ c (Proc.devRef .tc main_arg37) := (StableHlo.after_of_forall_not_mem (b := Proc.devRef .tc main_arg37) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg37) := W2_of_ne m ρ c main_arg37 (by decide)
    _ = W0 m ρ c (Proc.devRef .tc main_arg37) := (StableHlo.after_of_forall_not_mem (b := Proc.devRef .tc main_arg37) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg37) := rfl

end Cert.KernelIdeal.Fold

end
-- ==== Proof.FoldArgsB.lean ====
/-
  No host operation and no region of the idealized kernel program writes an argument array, so at every boundary of the
  fold through the program's segments an argument's buffer still holds its launch contents.  This file walks the fold
  back to the launch for the arguments read by the first layer's combine regions and by the second layer's two-relation region, at the boundaries where a region or a host stretch reads them.
-/
import proofs.«118985_j35038343201327_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem arg17_at7 (c : Dev nD) : W7 m ρ c (Proc.devRef .tc main_arg17) = m ((c : Thread nD τ).loc main_arg17) :=
  calc W7 m ρ c (Proc.devRef .tc main_arg17)
    _ = W6 m ρ c (Proc.devRef .tc main_arg17) := (StableHlo.after_of_forall_not_mem (b := Proc.devRef .tc main_arg17) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg17) := W6_of_ne m ρ c main_arg17 (by decide)
    _ = W4 m ρ c (Proc.devRef .tc main_arg17) := (StableHlo.after_of_forall_not_mem (b := Proc.devRef .tc main_arg17) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg17) := W4_of_ne m ρ c main_arg17 (by decide)
    _ = W2 m ρ c (Proc.devRef .tc main_arg17) := (StableHlo.after_of_forall_not_mem (b := Proc.devRef .tc main_arg17) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg17) := W2_of_ne m ρ c main_arg17 (by decide)
    _ = W0 m ρ c (Proc.devRef .tc main_arg17) := (StableHlo.after_of_forall_not_mem (b := Proc.devRef .tc main_arg17) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg17) := rfl

theorem arg23_at7 (c : Dev nD) : W7 m ρ c (Proc.devRef .tc main_arg23) = m ((c : Thread nD τ).loc main_arg23) :=
  calc W7 m ρ c (Proc.devRef .tc main_arg23)
    _ = W6 m ρ c (Proc.devRef .tc main_arg23) := (StableHlo.after_of_forall_not_mem (b := Proc.devRef .tc main_arg23) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg23) := W6_of_ne m ρ c main_arg23 (by decide)
    _ = W4 m ρ c (Proc.devRef .tc main_arg23) := (StableHlo.after_of_forall_not_mem (b := Proc.devRef .tc main_arg23) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg23) := W4_of_ne m ρ c main_arg23 (by decide)
    _ = W2 m ρ c (Proc.devRef .tc main_arg23) := (StableHlo.after_of_forall_not_mem (b := Proc.devRef .tc main_arg23) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg23) := W2_of_ne m ρ c main_arg23 (by decide)
    _ = W0 m ρ c (Proc.devRef .tc main_arg23) := (StableHlo.after_of_forall_not_mem (b := Proc.devRef .tc main_arg23) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg23) := rfl

theorem arg20_at8 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := (StableHlo.after_of_forall_not_mem (b := Proc.devRef .tc main_arg20) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg20) := W6_of_ne m ρ c main_arg20 (by decide)
    _ = W4 m ρ c (Proc.devRef .tc main_arg20) := (StableHlo.after_of_forall_not_mem (b := Proc.devRef .tc main_arg20) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg20) := W4_of_ne m ρ c main_arg20 (by decide)
    _ = W2 m ρ c (Proc.devRef .tc main_arg20) := (StableHlo.after_of_forall_not_mem (b := Proc.devRef .tc main_arg20) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg20) := W2_of_ne m ρ c main_arg20 (by decide)
    _ = W0 m ρ c (Proc.devRef .tc main_arg20) := (StableHlo.after_of_forall_not_mem (b := Proc.devRef .tc main_arg20) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg20) := rfl

theorem arg19_at9 (c : Dev nD) : W9 m ρ c (Proc.devRef .tc main_arg19) = m ((c : Thread nD τ).loc main_arg19) :=
  calc W9 m ρ c (Proc.devRef .tc main_arg19)
    _ = W8 m ρ c (Proc.devRef .tc main_arg19) := (StableHlo.after_of_forall_not_mem (b := Proc.devRef .tc main_arg19) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg19) := W8_of_ne m ρ c main_arg19 (by decide)
    _ = W6 m ρ c (Proc.devRef .tc main_arg19) := (StableHlo.after_of_forall_not_mem (b := Proc.devRef .tc main_arg19) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg19) := W6_of_ne m ρ c main_arg19 (by decide)
    _ = W4 m ρ c (Proc.devRef .tc main_arg19) := (StableHlo.after_of_forall_not_mem (b := Proc.devRef .tc main_arg19) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg19) := W4_of_ne m ρ c main_arg19 (by decide)
    _ = W2 m ρ c (Proc.devRef .tc main_arg19) := (StableHlo.after_of_forall_not_mem (b := Proc.devRef .tc main_arg19) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg19) := W2_of_ne m ρ c main_arg19 (by decide)
    _ = W0 m ρ c (Proc.devRef .tc main_arg19) := (StableHlo.after_of_forall_not_mem (b := Proc.devRef .tc main_arg19) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg19) := rfl

theorem arg22_at10 (c : Dev nD) : W10 m ρ c (Proc.devRef .tc main_arg22) = m ((c : Thread nD τ).loc main_arg22) :=
  calc W10 m ρ c (Proc.devRef .tc main_arg22)
    _ = W9 m ρ c (Proc.devRef .tc main_arg22) := W10_of_ne m ρ c main_arg22 (by decide)
    _ = W8 m ρ c (Proc.devRef .tc main_arg22) := (StableHlo.after_of_forall_not_mem (b := Proc.devRef .tc main_arg22) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg22) := W8_of_ne m ρ c main_arg22 (by decide)
    _ = W6 m ρ c (Proc.devRef .tc main_arg22) := (StableHlo.after_of_forall_not_mem (b := Proc.devRef .tc main_arg22) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg22) := W6_of_ne m ρ c main_arg22 (by decide)
    _ = W4 m ρ c (Proc.devRef .tc main_arg22) := (StableHlo.after_of_forall_not_mem (b := Proc.devRef .tc main_arg22) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg22) := W4_of_ne m ρ c main_arg22 (by decide)
    _ = W2 m ρ c (Proc.devRef .tc main_arg22) := (StableHlo.after_of_forall_not_mem (b := Proc.devRef .tc main_arg22) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg22) := W2_of_ne m ρ c main_arg22 (by decide)
    _ = W0 m ρ c (Proc.devRef .tc main_arg22) := (StableHlo.after_of_forall_not_mem (b := Proc.devRef .tc main_arg22) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg22) := rfl

theorem arg21_at11 (c : Dev nD) : W11 m ρ c (Proc.devRef .tc main_arg21) = m ((c : Thread nD τ).loc main_arg21) :=
  calc W11 m ρ c (Proc.devRef .tc main_arg21)
    _ = W10 m ρ c (Proc.devRef .tc main_arg21) := (StableHlo.after_of_forall_not_mem (b := Proc.devRef .tc main_arg21) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg21) := W10_of_ne m ρ c main_arg21 (by decide)
    _ = W8 m ρ c (Proc.devRef .tc main_arg21) := (StableHlo.after_of_forall_not_mem (b := Proc.devRef .tc main_arg21) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg21) := W8_of_ne m ρ c main_arg21 (by decide)
    _ = W6 m ρ c (Proc.devRef .tc main_arg21) := (StableHlo.after_of_forall_not_mem (b := Proc.devRef .tc main_arg21) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg21) := W6_of_ne m ρ c main_arg21 (by decide)
    _ = W4 m ρ c (Proc.devRef .tc main_arg21) := (StableHlo.after_of_forall_not_mem (b := Proc.devRef .tc main_arg21) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg21) := W4_of_ne m ρ c main_arg21 (by decide)
    _ = W2 m ρ c (Proc.devRef .tc main_arg21) := (StableHlo.after_of_forall_not_mem (b := Proc.devRef .tc main_arg21) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg21) := W2_of_ne m ρ c main_arg21 (by decide)
    _ = W0 m ρ c (Proc.devRef .tc main_arg21) := (StableHlo.after_of_forall_not_mem (b := Proc.devRef .tc main_arg21) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg21) := rfl

theorem arg26_at12 (c : Dev nD) : W12 m ρ c (Proc.devRef .tc main_arg26) = m ((c : Thread nD τ).loc main_arg26) :=
  calc W12 m ρ c (Proc.devRef .tc main_arg26)
    _ = W11 m ρ c (Proc.devRef .tc main_arg26) := W12_of_ne m ρ c main_arg26 (by decide)
    _ = W10 m ρ c (Proc.devRef .tc main_arg26) := (StableHlo.after_of_forall_not_mem (b := Proc.devRef .tc main_arg26) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg26) := W10_of_ne m ρ c main_arg26 (by decide)
    _ = W8 m ρ c (Proc.devRef .tc main_arg26) := (StableHlo.after_of_forall_not_mem (b := Proc.devRef .tc main_arg26) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg26) := W8_of_ne m ρ c main_arg26 (by decide)
    _ = W6 m ρ c (Proc.devRef .tc main_arg26) := (StableHlo.after_of_forall_not_mem (b := Proc.devRef .tc main_arg26) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg26) := W6_of_ne m ρ c main_arg26 (by decide)
    _ = W4 m ρ c (Proc.devRef .tc main_arg26) := (StableHlo.after_of_forall_not_mem (b := Proc.devRef .tc main_arg26) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg26) := W4_of_ne m ρ c main_arg26 (by decide)
    _ = W2 m ρ c (Proc.devRef .tc main_arg26) := (StableHlo.after_of_forall_not_mem (b := Proc.devRef .tc main_arg26) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg26) := W2_of_ne m ρ c main_arg26 (by decide)
    _ = W0 m ρ c (Proc.devRef .tc main_arg26) := (StableHlo.after_of_forall_not_mem (b := Proc.devRef .tc main_arg26) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg26) := rfl

theorem arg32_at12 (c : Dev nD) : W12 m ρ c (Proc.devRef .tc main_arg32) = m ((c : Thread nD τ).loc main_arg32) :=
  calc W12 m ρ c (Proc.devRef .tc main_arg32)
    _ = W11 m ρ c (Proc.devRef .tc main_arg32) := W12_of_ne m ρ c main_arg32 (by decide)
    _ = W10 m ρ c (Proc.devRef .tc main_arg32) := (StableHlo.after_of_forall_not_mem (b := Proc.devRef .tc main_arg32) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg32) := W10_of_ne m ρ c main_arg32 (by decide)
    _ = W8 m ρ c (Proc.devRef .tc main_arg32) := (StableHlo.after_of_forall_not_mem (b := Proc.devRef .tc main_arg32) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg32) := W8_of_ne m ρ c main_arg32 (by decide)
    _ = W6 m ρ c (Proc.devRef .tc main_arg32) := (StableHlo.after_of_forall_not_mem (b := Proc.devRef .tc main_arg32) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg32) := W6_of_ne m ρ c main_arg32 (by decide)
    _ = W4 m ρ c (Proc.devRef .tc main_arg32) := (StableHlo.after_of_forall_not_mem (b := Proc.devRef .tc main_arg32) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg32) := W4_of_ne m ρ c main_arg32 (by decide)
    _ = W2 m ρ c (Proc.devRef .tc main_arg32) := (StableHlo.after_of_forall_not_mem (b := Proc.devRef .tc main_arg32) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg32) := W2_of_ne m ρ c main_arg32 (by decide)
    _ = W0 m ρ c (Proc.devRef .tc main_arg32) := (StableHlo.after_of_forall_not_mem (b := Proc.devRef .tc main_arg32) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg32) := rfl

theorem arg25_at13 (c : Dev nD) : W13 m ρ c (Proc.devRef .tc main_arg25) = m ((c : Thread nD τ).loc main_arg25) :=
  calc W13 m ρ c (Proc.devRef .tc main_arg25)
    _ = W12 m ρ c (Proc.devRef .tc main_arg25) := (StableHlo.after_of_forall_not_mem (b := Proc.devRef .tc main_arg25) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg25) := W12_of_ne m ρ c main_arg25 (by decide)
    _ = W10 m ρ c (Proc.devRef .tc main_arg25) := (StableHlo.after_of_forall_not_mem (b := Proc.devRef .tc main_arg25) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg25) := W10_of_ne m ρ c main_arg25 (by decide)
    _ = W8 m ρ c (Proc.devRef .tc main_arg25) := (StableHlo.after_of_forall_not_mem (b := Proc.devRef .tc main_arg25) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg25) := W8_of_ne m ρ c main_arg25 (by decide)
    _ = W6 m ρ c (Proc.devRef .tc main_arg25) := (StableHlo.after_of_forall_not_mem (b := Proc.devRef .tc main_arg25) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg25) := W6_of_ne m ρ c main_arg25 (by decide)
    _ = W4 m ρ c (Proc.devRef .tc main_arg25) := (StableHlo.after_of_forall_not_mem (b := Proc.devRef .tc main_arg25) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg25) := W4_of_ne m ρ c main_arg25 (by decide)
    _ = W2 m ρ c (Proc.devRef .tc main_arg25) := (StableHlo.after_of_forall_not_mem (b := Proc.devRef .tc main_arg25) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg25) := W2_of_ne m ρ c main_arg25 (by decide)
    _ = W0 m ρ c (Proc.devRef .tc main_arg25) := (StableHlo.after_of_forall_not_mem (b := Proc.devRef .tc main_arg25) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg25) := rfl

theorem arg31_at13 (c : Dev nD) : W13 m ρ c (Proc.devRef .tc main_arg31) = m ((c : Thread nD τ).loc main_arg31) :=
  calc W13 m ρ c (Proc.devRef .tc main_arg31)
    _ = W12 m ρ c (Proc.devRef .tc main_arg31) := (StableHlo.after_of_forall_not_mem (b := Proc.devRef .tc main_arg31) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_arg31) := W12_of_ne m ρ c main_arg31 (by decide)
    _ = W10 m ρ c (Proc.devRef .tc main_arg31) := (StableHlo.after_of_forall_not_mem (b := Proc.devRef .tc main_arg31) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg31) := W10_of_ne m ρ c main_arg31 (by decide)
    _ = W8 m ρ c (Proc.devRef .tc main_arg31) := (StableHlo.after_of_forall_not_mem (b := Proc.devRef .tc main_arg31) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg31) := W8_of_ne m ρ c main_arg31 (by decide)
    _ = W6 m ρ c (Proc.devRef .tc main_arg31) := (StableHlo.after_of_forall_not_mem (b := Proc.devRef .tc main_arg31) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W5 m ρ c (Proc.devRef .tc main_arg31) := W6_of_ne m ρ c main_arg31 (by decide)
    _ = W4 m ρ c (Proc.devRef .tc main_arg31) := (StableHlo.after_of_forall_not_mem (b := Proc.devRef .tc main_arg31) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg31) := W4_of_ne m ρ c main_arg31 (by decide)
    _ = W2 m ρ c (Proc.devRef .tc main_arg31) := (StableHlo.after_of_forall_not_mem (b := Proc.devRef .tc main_arg31) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg31) := W2_of_ne m ρ c main_arg31 (by decide)
    _ = W0 m ρ c (Proc.devRef .tc main_arg31) := (StableHlo.after_of_forall_not_mem (b := Proc.devRef .tc main_arg31) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg31) := rfl

end Cert.KernelIdeal.Fold

end
-- ==== Proof.FoldArgsA.lean ====
/-
  No host operation and no region of the idealized kernel program writes an argument array, so at every boundary of the
  fold through the program's segments an argument's buffer still holds its launch contents.  This file walks the fold
  back to the launch for the arguments read by the three root layers and by the first layer's aggregation, at the boundaries where a region or a host stretch reads them.
-/
import proofs.«118985_j35038343201327_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := (StableHlo.after_of_forall_not_mem (b := Proc.devRef .tc main_arg0) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg0) := rfl

theorem arg11_at1 (c : Dev nD) : W1 m ρ c (Proc.devRef .tc main_arg11) = m ((c : Thread nD τ).loc main_arg11) :=
  calc W1 m ρ c (Proc.devRef .tc main_arg11)
    _ = W0 m ρ c (Proc.devRef .tc main_arg11) := (StableHlo.after_of_forall_not_mem (b := Proc.devRef .tc main_arg11) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg11) := rfl

theorem arg14_at2 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := (StableHlo.after_of_forall_not_mem (b := Proc.devRef .tc main_arg14) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg14) := rfl

theorem arg1_at3 (c : Dev nD) : W3 m ρ c (Proc.devRef .tc main_arg1) = m ((c : Thread nD τ).loc main_arg1) :=
  calc W3 m ρ c (Proc.devRef .tc main_arg1)
    _ = W2 m ρ c (Proc.devRef .tc main_arg1) := (StableHlo.after_of_forall_not_mem (b := Proc.devRef .tc main_arg1) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg1) := W2_of_ne m ρ c main_arg1 (by decide)
    _ = W0 m ρ c (Proc.devRef .tc main_arg1) := (StableHlo.after_of_forall_not_mem (b := Proc.devRef .tc main_arg1) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg1) := rfl

theorem arg13_at3 (c : Dev nD) : W3 m ρ c (Proc.devRef .tc main_arg13) = m ((c : Thread nD τ).loc main_arg13) :=
  calc W3 m ρ c (Proc.devRef .tc main_arg13)
    _ = W2 m ρ c (Proc.devRef .tc main_arg13) := (StableHlo.after_of_forall_not_mem (b := Proc.devRef .tc main_arg13) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg13) := W2_of_ne m ρ c main_arg13 (by decide)
    _ = W0 m ρ c (Proc.devRef .tc main_arg13) := (StableHlo.after_of_forall_not_mem (b := Proc.devRef .tc main_arg13) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg13) := rfl

theorem arg16_at4 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := (StableHlo.after_of_forall_not_mem (b := Proc.devRef .tc main_arg16) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg16) := W2_of_ne m ρ c main_arg16 (by decide)
    _ = W0 m ρ c (Proc.devRef .tc main_arg16) := (StableHlo.after_of_forall_not_mem (b := Proc.devRef .tc main_arg16) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg16) := rfl

theorem arg2_at5 (c : Dev nD) : W5 m ρ c (Proc.devRef .tc main_arg2) = m ((c : Thread nD τ).loc main_arg2) :=
  calc W5 m ρ c (Proc.devRef .tc main_arg2)
    _ = W4 m ρ c (Proc.devRef .tc main_arg2) := (StableHlo.after_of_forall_not_mem (b := Proc.devRef .tc main_arg2) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg2) := W4_of_ne m ρ c main_arg2 (by decide)
    _ = W2 m ρ c (Proc.devRef .tc main_arg2) := (StableHlo.after_of_forall_not_mem (b := Proc.devRef .tc main_arg2) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg2) := W2_of_ne m ρ c main_arg2 (by decide)
    _ = W0 m ρ c (Proc.devRef .tc main_arg2) := (StableHlo.after_of_forall_not_mem (b := Proc.devRef .tc main_arg2) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg2) := rfl

theorem arg15_at5 (c : Dev nD) : W5 m ρ c (Proc.devRef .tc main_arg15) = m ((c : Thread nD τ).loc main_arg15) :=
  calc W5 m ρ c (Proc.devRef .tc main_arg15)
    _ = W4 m ρ c (Proc.devRef .tc main_arg15) := (StableHlo.after_of_forall_not_mem (b := Proc.devRef .tc main_arg15) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg15) := W4_of_ne m ρ c main_arg15 (by decide)
    _ = W2 m ρ c (Proc.devRef .tc main_arg15) := (StableHlo.after_of_forall_not_mem (b := Proc.devRef .tc main_arg15) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg15) := W2_of_ne m ρ c main_arg15 (by decide)
    _ = W0 m ρ c (Proc.devRef .tc main_arg15) := (StableHlo.after_of_forall_not_mem (b := Proc.devRef .tc main_arg15) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg15) := rfl

theorem arg3_at6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := (StableHlo.after_of_forall_not_mem (b := Proc.devRef .tc main_arg3) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg3) := W4_of_ne m ρ c main_arg3 (by decide)
    _ = W2 m ρ c (Proc.devRef .tc main_arg3) := (StableHlo.after_of_forall_not_mem (b := Proc.devRef .tc main_arg3) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg3) := W2_of_ne m ρ c main_arg3 (by decide)
    _ = W0 m ρ c (Proc.devRef .tc main_arg3) := (StableHlo.after_of_forall_not_mem (b := Proc.devRef .tc main_arg3) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg3) := rfl

theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := (StableHlo.after_of_forall_not_mem (b := Proc.devRef .tc main_arg4) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg4) := W4_of_ne m ρ c main_arg4 (by decide)
    _ = W2 m ρ c (Proc.devRef .tc main_arg4) := (StableHlo.after_of_forall_not_mem (b := Proc.devRef .tc main_arg4) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg4) := W2_of_ne m ρ c main_arg4 (by decide)
    _ = W0 m ρ c (Proc.devRef .tc main_arg4) := (StableHlo.after_of_forall_not_mem (b := Proc.devRef .tc main_arg4) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg4) := rfl

theorem arg5_at6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := (StableHlo.after_of_forall_not_mem (b := Proc.devRef .tc main_arg5) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg5) := W4_of_ne m ρ c main_arg5 (by decide)
    _ = W2 m ρ c (Proc.devRef .tc main_arg5) := (StableHlo.after_of_forall_not_mem (b := Proc.devRef .tc main_arg5) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg5) := W2_of_ne m ρ c main_arg5 (by decide)
    _ = W0 m ρ c (Proc.devRef .tc main_arg5) := (StableHlo.after_of_forall_not_mem (b := Proc.devRef .tc main_arg5) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg5) := rfl

theorem arg6_at6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := (StableHlo.after_of_forall_not_mem (b := Proc.devRef .tc main_arg6) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg6) := W4_of_ne m ρ c main_arg6 (by decide)
    _ = W2 m ρ c (Proc.devRef .tc main_arg6) := (StableHlo.after_of_forall_not_mem (b := Proc.devRef .tc main_arg6) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg6) := W2_of_ne m ρ c main_arg6 (by decide)
    _ = W0 m ρ c (Proc.devRef .tc main_arg6) := (StableHlo.after_of_forall_not_mem (b := Proc.devRef .tc main_arg6) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg6) := rfl

theorem arg7_at6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := (StableHlo.after_of_forall_not_mem (b := Proc.devRef .tc main_arg7) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg7) := W4_of_ne m ρ c main_arg7 (by decide)
    _ = W2 m ρ c (Proc.devRef .tc main_arg7) := (StableHlo.after_of_forall_not_mem (b := Proc.devRef .tc main_arg7) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg7) := W2_of_ne m ρ c main_arg7 (by decide)
    _ = W0 m ρ c (Proc.devRef .tc main_arg7) := (StableHlo.after_of_forall_not_mem (b := Proc.devRef .tc main_arg7) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg7) := rfl

theorem arg8_at6 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := (StableHlo.after_of_forall_not_mem (b := Proc.devRef .tc main_arg8) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg8) := W4_of_ne m ρ c main_arg8 (by decide)
    _ = W2 m ρ c (Proc.devRef .tc main_arg8) := (StableHlo.after_of_forall_not_mem (b := Proc.devRef .tc main_arg8) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg8) := W2_of_ne m ρ c main_arg8 (by decide)
    _ = W0 m ρ c (Proc.devRef .tc main_arg8) := (StableHlo.after_of_forall_not_mem (b := Proc.devRef .tc main_arg8) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg8) := rfl

theorem arg9_at6 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := (StableHlo.after_of_forall_not_mem (b := Proc.devRef .tc main_arg9) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg9) := W4_of_ne m ρ c main_arg9 (by decide)
    _ = W2 m ρ c (Proc.devRef .tc main_arg9) := (StableHlo.after_of_forall_not_mem (b := Proc.devRef .tc main_arg9) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg9) := W2_of_ne m ρ c main_arg9 (by decide)
    _ = W0 m ρ c (Proc.devRef .tc main_arg9) := (StableHlo.after_of_forall_not_mem (b := Proc.devRef .tc main_arg9) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg9) := rfl

theorem arg10_at6 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := (StableHlo.after_of_forall_not_mem (b := Proc.devRef .tc main_arg10) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg10) := W4_of_ne m ρ c main_arg10 (by decide)
    _ = W2 m ρ c (Proc.devRef .tc main_arg10) := (StableHlo.after_of_forall_not_mem (b := Proc.devRef .tc main_arg10) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg10) := W2_of_ne m ρ c main_arg10 (by decide)
    _ = W0 m ρ c (Proc.devRef .tc main_arg10) := (StableHlo.after_of_forall_not_mem (b := Proc.devRef .tc main_arg10) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg10) := rfl

theorem arg18_at6 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := (StableHlo.after_of_forall_not_mem (b := Proc.devRef .tc main_arg18) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg18) := W4_of_ne m ρ c main_arg18 (by decide)
    _ = W2 m ρ c (Proc.devRef .tc main_arg18) := (StableHlo.after_of_forall_not_mem (b := Proc.devRef .tc main_arg18) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg18) := W2_of_ne m ρ c main_arg18 (by decide)
    _ = W0 m ρ c (Proc.devRef .tc main_arg18) := (StableHlo.after_of_forall_not_mem (b := Proc.devRef .tc main_arg18) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg18) := rfl

theorem arg24_at6 (c : Dev nD) : W6 m ρ c (Proc.devRef .tc main_arg24) = m ((c : Thread nD τ).loc main_arg24) :=
  calc W6 m ρ c (Proc.devRef .tc main_arg24)
    _ = W5 m ρ c (Proc.devRef .tc main_arg24) := W6_of_ne m ρ c main_arg24 (by decide)
    _ = W4 m ρ c (Proc.devRef .tc main_arg24) := (StableHlo.after_of_forall_not_mem (b := Proc.devRef .tc main_arg24) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_arg24) := W4_of_ne m ρ c main_arg24 (by decide)
    _ = W2 m ρ c (Proc.devRef .tc main_arg24) := (StableHlo.after_of_forall_not_mem (b := Proc.devRef .tc main_arg24) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg24) := W2_of_ne m ρ c main_arg24 (by decide)
    _ = W0 m ρ c (Proc.devRef .tc main_arg24) := (StableHlo.after_of_forall_not_mem (b := Proc.devRef .tc main_arg24) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg24) := rfl

end Cert.KernelIdeal.Fold

end
-- ==== Proof.FoldArgsD.lean ====
/-
  No host operation and no region of the idealized kernel program writes an argument array, so at every boundary of the
  fold through the program's segments an argument's buffer still holds its launch contents.  This file walks the fold
  back to the launch for the arguments that are index vectors, at the second layer's aggregation, at the boundaries where a region or a host stretch reads them.
-/
import proofs.«118985_j35038343201327_2_alg».proof.Proof.Gen.KernelIdeal.Frame
import proofs.«118985_j35038343201327_2_alg».proof.Proof.FoldArgsA

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem arg3_at12 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := (StableHlo.after_of_forall_not_mem (b := Proc.devRef .tc main_arg3) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg3) := W10_of_ne m ρ c main_arg3 (by decide)
    _ = W8 m ρ c (Proc.devRef .tc main_arg3) := (StableHlo.after_of_forall_not_mem (b := Proc.devRef .tc main_arg3) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg3) := W8_of_ne m ρ c main_arg3 (by decide)
    _ = W6 m ρ c (Proc.devRef .tc main_arg3) := (StableHlo.after_of_forall_not_mem (b := Proc.devRef .tc main_arg3) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg3) := arg3_at6 m ρ c

theorem arg4_at12 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := (StableHlo.after_of_forall_not_mem (b := Proc.devRef .tc main_arg4) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg4) := W10_of_ne m ρ c main_arg4 (by decide)
    _ = W8 m ρ c (Proc.devRef .tc main_arg4) := (StableHlo.after_of_forall_not_mem (b := Proc.devRef .tc main_arg4) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg4) := W8_of_ne m ρ c main_arg4 (by decide)
    _ = W6 m ρ c (Proc.devRef .tc main_arg4) := (StableHlo.after_of_forall_not_mem (b := Proc.devRef .tc main_arg4) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg4) := arg4_at6 m ρ c

theorem arg5_at12 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := (StableHlo.after_of_forall_not_mem (b := Proc.devRef .tc main_arg5) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg5) := W10_of_ne m ρ c main_arg5 (by decide)
    _ = W8 m ρ c (Proc.devRef .tc main_arg5) := (StableHlo.after_of_forall_not_mem (b := Proc.devRef .tc main_arg5) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg5) := W8_of_ne m ρ c main_arg5 (by decide)
    _ = W6 m ρ c (Proc.devRef .tc main_arg5) := (StableHlo.after_of_forall_not_mem (b := Proc.devRef .tc main_arg5) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg5) := arg5_at6 m ρ c

theorem arg6_at12 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := (StableHlo.after_of_forall_not_mem (b := Proc.devRef .tc main_arg6) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg6) := W10_of_ne m ρ c main_arg6 (by decide)
    _ = W8 m ρ c (Proc.devRef .tc main_arg6) := (StableHlo.after_of_forall_not_mem (b := Proc.devRef .tc main_arg6) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg6) := W8_of_ne m ρ c main_arg6 (by decide)
    _ = W6 m ρ c (Proc.devRef .tc main_arg6) := (StableHlo.after_of_forall_not_mem (b := Proc.devRef .tc main_arg6) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg6) := arg6_at6 m ρ c

theorem arg7_at12 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := (StableHlo.after_of_forall_not_mem (b := Proc.devRef .tc main_arg7) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg7) := W10_of_ne m ρ c main_arg7 (by decide)
    _ = W8 m ρ c (Proc.devRef .tc main_arg7) := (StableHlo.after_of_forall_not_mem (b := Proc.devRef .tc main_arg7) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg7) := W8_of_ne m ρ c main_arg7 (by decide)
    _ = W6 m ρ c (Proc.devRef .tc main_arg7) := (StableHlo.after_of_forall_not_mem (b := Proc.devRef .tc main_arg7) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg7) := arg7_at6 m ρ c

theorem arg8_at12 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := (StableHlo.after_of_forall_not_mem (b := Proc.devRef .tc main_arg8) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg8) := W10_of_ne m ρ c main_arg8 (by decide)
    _ = W8 m ρ c (Proc.devRef .tc main_arg8) := (StableHlo.after_of_forall_not_mem (b := Proc.devRef .tc main_arg8) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg8) := W8_of_ne m ρ c main_arg8 (by decide)
    _ = W6 m ρ c (Proc.devRef .tc main_arg8) := (StableHlo.after_of_forall_not_mem (b := Proc.devRef .tc main_arg8) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg8) := arg8_at6 m ρ c

theorem arg9_at12 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := (StableHlo.after_of_forall_not_mem (b := Proc.devRef .tc main_arg9) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg9) := W10_of_ne m ρ c main_arg9 (by decide)
    _ = W8 m ρ c (Proc.devRef .tc main_arg9) := (StableHlo.after_of_forall_not_mem (b := Proc.devRef .tc main_arg9) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg9) := W8_of_ne m ρ c main_arg9 (by decide)
    _ = W6 m ρ c (Proc.devRef .tc main_arg9) := (StableHlo.after_of_forall_not_mem (b := Proc.devRef .tc main_arg9) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg9) := arg9_at6 m ρ c

theorem arg10_at12 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := (StableHlo.after_of_forall_not_mem (b := Proc.devRef .tc main_arg10) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_arg10) := W10_of_ne m ρ c main_arg10 (by decide)
    _ = W8 m ρ c (Proc.devRef .tc main_arg10) := (StableHlo.after_of_forall_not_mem (b := Proc.devRef .tc main_arg10) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_arg10) := W8_of_ne m ρ c main_arg10 (by decide)
    _ = W6 m ρ c (Proc.devRef .tc main_arg10) := (StableHlo.after_of_forall_not_mem (b := Proc.devRef .tc main_arg10) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = m ((c : Thread nD τ).loc main_arg10) := arg10_at6 m ρ c

end Cert.KernelIdeal.Fold

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Bodies.lean ====
/-
  The three layer bodies of the network, read at one entry on the extended reals.

  Every body is a product into a zero accumulator followed by pointwise steps over whole blocks:
    linear          (x · w) + rows(b)
    one relation    max( (s · w) ⊙ cols(inv) + rows(b), 0 )
    two relations   max( (((s₁ · w₁) ⊙ cols(inv₁) + rows(b₁)) + (s₂ · w₂) ⊙ cols(inv₂)) + rows(b₂), 0 )
  where rows(b) spreads a bias row [1, N] over the M rows and cols(inv) spreads a column [M, 1] over the N
  columns.  At entry (p, q) the product is row p of the left factor against column q of the right one, rows(b)
  is b(0, q), cols(inv) is inv(p, 0), and the remaining steps act on that one entry.  A change of float format
  is the identity on the extended reals, and a cast of a block to its own shape changes nothing.
-/
import proofs.«118985_j35038343201327_2_alg».proof.Proof.LibDense
import proofs.«118985_j35038343201327_2_alg».proof.Proof.LibKeepdims
import proofs.«118985_j35038343201327_2_alg».proof.Proof.Spec

noncomputable section

namespace Cert.Hetero.Bodies

open Idealize.ShloMosaic Idealize.ShloMosaic.ValueIdx Cert.Lib.Dense Cert.Lib.Keepdims Cert.Hetero
open scoped BigOperators

/-- The zero a clamp compares against: the scalar with all bits clear, spread over a block, is zero at every entry. -/
theorem zeroSplat_at {s : Shape} (i : s.Idx) :
    broadcast s (Scalar.ofBits (F := Ideal) .f32 0x00000000#32) i = (0 : EReal) :=
  Ideal.ofBits_zero_f32

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

/-- A bias row cast to its own shape and spread over the rows reads, at (p, q), the row's entry q. -/
theorem biasRows_at (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix2 (0 : Fin 1) q) :=
  (broadcastTo_1b_ab_apply (shapeCast ⟨2, ![1, N]⟩ b hc) hb p q).trans (congrFun (shapeCast_self b hc) _)

/-- A column cast to its own shape and spread over the columns reads, at (p, q), the column's entry p. -/
theorem scaleCols_at (inv : FVec Ideal ⟨2, ![M, 1]⟩ .f32) (hc : (⟨2, ![M, 1]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ inv hc) hb (ix2 p q) = inv (ix2 p (0 : Fin 1)) :=
  (broadcastTo_a1_ab_apply (shapeCast ⟨2, ![M, 1]⟩ inv hc) hb p q).trans (congrFun (shapeCast_self inv hc) _)

include hlc hrc hln hrn hlb hrb in
/-- The linear body at (p, q): row p of x against column q of w, plus the bias entry q. -/
theorem linear_at {φ₁ φ₂ : FTy} (x : FVec Ideal ⟨2, ![M, K]⟩ φ₁) (w : FVec Ideal ⟨2, ![K, N]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (F := Ideal) (matmul D none x w (constant ⟨2, ![M, N]⟩ .f32 0x00000000#32))
        (broadcastTo ⟨2, ![M, N]⟩ (shapeCast ⟨2, ![1, N]⟩ b hc) hb) (ix2 p q)
      = dense id x w b (ix2 p q) := by
  rw [dense_ix2]
  exact congrArg₂ (fun u v : EReal => u + v) (matmul_zero_at D hlc hrc hln hrn hlb hrb x w p q)
    (biasRows_at b hc hb p q)

include hlc hrc hln hrn hlb hrb in
/-- The one-relation body at (p, q): the product's entry scaled by the row's factor, plus the bias entry, clamped
    below at zero. -/
theorem relation1_at {φ₁ φ₂ : FTy} (s : FVec Ideal ⟨2, ![M, K]⟩ φ₁) (w : FVec Ideal ⟨2, ![K, N]⟩ φ₂)
    (inv : FVec Ideal ⟨2, ![M, 1]⟩ .f32) (b : FVec Ideal ⟨2, ![1, N]⟩ .f32)
    (hci : (⟨2, ![M, 1]⟩ : Shape).ShapeCasts ⟨2, ![M, 1]⟩) (hbi : (⟨2, ![M, 1]⟩ : Shape).Broadcasts ⟨2, ![M, N]⟩)
    (hc : (⟨2, ![1, N]⟩ : Shape).ShapeCasts ⟨2, ![1, N]⟩) (hb : (⟨2, ![1, N]⟩ : Shape).Broadcasts ⟨2, ![M, N]⟩)
    (p : Fin M) (q : Fin N) :
    maximumf (F := Ideal)
        (addf (mulf (matmul D none s w (constant ⟨2, ![M, N]⟩ .f32 0x00000000#32))
            (broadcastTo ⟨2, ![M, N]⟩ (shapeCast ⟨2, ![M, 1]⟩ inv hci) hbi))
          (broadcastTo ⟨2, ![M, N]⟩ (shapeCast ⟨2, ![1, N]⟩ b hc) hb))
        (broadcast ⟨2, ![M, N]⟩ (Scalar.ofBits (F := Ideal) .f32 0x00000000#32)) (ix2 p q)
      = comb1 s inv w b (ix2 p q) := by
  rw [comb1_ix2]
  exact congrArg₂ (fun u v : EReal => max u v)
    (congrArg₂ (fun u v : EReal => u + v)
      (congrArg₂ (fun u v : EReal => u * v) (matmul_zero_at D hlc hrc hln hrn hlb hrb s w p q)
        (scaleCols_at inv hci hbi p q))
      (biasRows_at b hc hb p q))
    (zeroSplat_at (ix2 p q))

include hlc hrc hln hrn hlb hrb in
/-- The two-relation body at (p, q): the first relation's scaled entry plus its bias, plus the second relation's
    scaled entry, plus the second bias, clamped below at zero, in this order. -/
theorem relation2_at {φ₁ φ₂ φ₃ φ₄ : FTy} (s₁ : FVec Ideal ⟨2, ![M, K]⟩ φ₁) (w₁ : FVec Ideal ⟨2, ![K, N]⟩ φ₂)
    (inv₁ : FVec Ideal ⟨2, ![M, 1]⟩ .f32) (b₁ : FVec Ideal ⟨2, ![1, N]⟩ .f32)
    (s₂ : FVec Ideal ⟨2, ![M, K]⟩ φ₃) (w₂ : FVec Ideal ⟨2, ![K, N]⟩ φ₄)
    (inv₂ : FVec Ideal ⟨2, ![M, 1]⟩ .f32) (b₂ : FVec Ideal ⟨2, ![1, N]⟩ .f32)
    (hci₁ : (⟨2, ![M, 1]⟩ : Shape).ShapeCasts ⟨2, ![M, 1]⟩) (hbi₁ : (⟨2, ![M, 1]⟩ : Shape).Broadcasts ⟨2, ![M, N]⟩)
    (hc₁ : (⟨2, ![1, N]⟩ : Shape).ShapeCasts ⟨2, ![1, N]⟩) (hb₁ : (⟨2, ![1, N]⟩ : Shape).Broadcasts ⟨2, ![M, N]⟩)
    (hci₂ : (⟨2, ![M, 1]⟩ : Shape).ShapeCasts ⟨2, ![M, 1]⟩) (hbi₂ : (⟨2, ![M, 1]⟩ : Shape).Broadcasts ⟨2, ![M, N]⟩)
    (hc₂ : (⟨2, ![1, N]⟩ : Shape).ShapeCasts ⟨2, ![1, N]⟩) (hb₂ : (⟨2, ![1, N]⟩ : Shape).Broadcasts ⟨2, ![M, N]⟩)
    (p : Fin M) (q : Fin N) :
    maximumf (F := Ideal)
        (addf
          (addf
            (addf (mulf (matmul D none s₁ w₁ (constant ⟨2, ![M, N]⟩ .f32 0x00000000#32))
                (broadcastTo ⟨2, ![M, N]⟩ (shapeCast ⟨2, ![M, 1]⟩ inv₁ hci₁) hbi₁))
              (broadcastTo ⟨2, ![M, N]⟩ (shapeCast ⟨2, ![1, N]⟩ b₁ hc₁) hb₁))
            (mulf (matmul D none s₂ w₂ (constant ⟨2, ![M, N]⟩ .f32 0x00000000#32))
              (broadcastTo ⟨2, ![M, N]⟩ (shapeCast ⟨2, ![M, 1]⟩ inv₂ hci₂) hbi₂)))
          (broadcastTo ⟨2, ![M, N]⟩ (shapeCast ⟨2, ![1, N]⟩ b₂ hc₂) hb₂))
        (broadcast ⟨2, ![M, N]⟩ (Scalar.ofBits (F := Ideal) .f32 0x00000000#32)) (ix2 p q)
      = comb2 s₁ inv₁ w₁ b₁ s₂ inv₂ w₂ b₂ (ix2 p q) := by
  rw [comb2_ix2]
  exact congrArg₂ (fun u v : EReal => max u v)
    (congrArg₂ (fun u v : EReal => u + v)
      (congrArg₂ (fun u v : EReal => u + v)
        (congrArg₂ (fun u v : EReal => u + v)
          (congrArg₂ (fun u v : EReal => u * v) (matmul_zero_at D hlc hrc hln hrn hlb hrb s₁ w₁ p q)
            (scaleCols_at inv₁ hci₁ hbi₁ p q))
          (biasRows_at b₁ hc₁ hb₁ p q))
        (congrArg₂ (fun u v : EReal => u * v) (matmul_zero_at D hlc hrc hln hrn hlb hrb s₂ w₂ p q)
          (scaleCols_at inv₂ hci₂ hbi₂ p q)))
      (biasRows_at b₂ hc₂ hb₂ p q))
    (zeroSplat_at (ix2 p q))

end Plain

/-! ## A block of rows of a layer

  A layer's entry (r, q) reads row r of its row-wise operands (the left factor, the column of scale factors) and
  all of its shared operands (the right factor, the bias row).  So a block of rows of the layer is the layer of the
  block of rows: if the block's row p is the array's row r, and the shared operands are the arrays', entry (p, q)
  of the one is entry (r, q) of the other. -/

theorem zero2 : (![0, 0] : Fin 2 → Nat) = fun _ => 0 := funext fun a => by fin_cases a <;> rfl

theorem rowDot_rows {Mt M K N : ℕ} (x : (⟨2, ![Mt, K]⟩ : Shape).Idx → EReal) (w : (⟨2, ![K, N]⟩ : Shape).Idx → EReal)
    (X : (⟨2, ![M, K]⟩ : Shape).Idx → EReal) (W : (⟨2, ![K, N]⟩ : Shape).Idx → EReal) (p : Fin Mt) (r : Fin M) (q : Fin N)
    (hx : ∀ k : Fin K, x (ix2 p k) = X (ix2 r k)) (hw : ∀ k : Fin K, w (ix2 k q) = W (ix2 k q)) :
    rowDot x w p q = rowDot X W r q :=
  Finset.sum_congr rfl fun k _ => by rw [hx k, hw k]

theorem dense_rows {Mt M K N : ℕ} (act : EReal → EReal)
    (x : (⟨2, ![Mt, K]⟩ : Shape).Idx → EReal) (w : (⟨2, ![K, N]⟩ : Shape).Idx → EReal) (b : (⟨2, ![1, N]⟩ : Shape).Idx → EReal)
    (X : (⟨2, ![M, K]⟩ : Shape).Idx → EReal) (W : (⟨2, ![K, N]⟩ : Shape).Idx → EReal) (B : (⟨2, ![1, N]⟩ : Shape).Idx → EReal)
    (p : Fin Mt) (r : Fin M) (q : Fin N)
    (hx : ∀ k : Fin K, x (ix2 p k) = X (ix2 r k)) (hw : ∀ k : Fin K, w (ix2 k q) = W (ix2 k q))
    (hb : b (ix2 (0 : Fin 1) q) = B (ix2 (0 : Fin 1) q)) :
    dense act x w b (ix2 p q) = dense act X W B (ix2 r q) := by
  rw [dense_ix2, dense_ix2, rowDot_rows x w X W p r q hx hw, hb]

theorem comb1_rows {Mt M K N : ℕ}
    (s : (⟨2, ![Mt, K]⟩ : Shape).Idx → EReal) (inv : (⟨2, ![Mt, 1]⟩ : Shape).Idx → EReal)
    (w : (⟨2, ![K, N]⟩ : Shape).Idx → EReal) (b : (⟨2, ![1, N]⟩ : Shape).Idx → EReal)
    (S : (⟨2, ![M, K]⟩ : Shape).Idx → EReal) (I : (⟨2, ![M, 1]⟩ : Shape).Idx → EReal)
    (W : (⟨2, ![K, N]⟩ : Shape).Idx → EReal) (B : (⟨2, ![1, N]⟩ : Shape).Idx → EReal)
    (p : Fin Mt) (r : Fin M) (q : Fin N)
    (hs : ∀ k : Fin K, s (ix2 p k) = S (ix2 r k)) (hi : inv (ix2 p (0 : Fin 1)) = I (ix2 r (0 : Fin 1)))
    (hw : ∀ k : Fin K, w (ix2 k q) = W (ix2 k q)) (hb : b (ix2 (0 : Fin 1) q) = B (ix2 (0 : Fin 1) q)) :
    comb1 s inv w b (ix2 p q) = comb1 S I W B (ix2 r q) := by
  rw [comb1_ix2, comb1_ix2, rowDot_rows s w S W p r q hs hw, hi, hb]

theorem comb2_rows {Mt M K N : ℕ}
    (s₁ : (⟨2, ![Mt, K]⟩ : Shape).Idx → EReal) (inv₁ : (⟨2, ![Mt, 1]⟩ : Shape).Idx → EReal)
    (w₁ : (⟨2, ![K, N]⟩ : Shape).Idx → EReal) (b₁ : (⟨2, ![1, N]⟩ : Shape).Idx → EReal)
    (s₂ : (⟨2, ![Mt, K]⟩ : Shape).Idx → EReal) (inv₂ : (⟨2, ![Mt, 1]⟩ : Shape).Idx → EReal)
    (w₂ : (⟨2, ![K, N]⟩ : Shape).Idx → EReal) (b₂ : (⟨2, ![1, N]⟩ : Shape).Idx → EReal)
    (S₁ : (⟨2, ![M, K]⟩ : Shape).Idx → EReal) (I₁ : (⟨2, ![M, 1]⟩ : Shape).Idx → EReal)
    (W₁ : (⟨2, ![K, N]⟩ : Shape).Idx → EReal) (B₁ : (⟨2, ![1, N]⟩ : Shape).Idx → EReal)
    (S₂ : (⟨2, ![M, K]⟩ : Shape).Idx → EReal) (I₂ : (⟨2, ![M, 1]⟩ : Shape).Idx → EReal)
    (W₂ : (⟨2, ![K, N]⟩ : Shape).Idx → EReal) (B₂ : (⟨2, ![1, N]⟩ : Shape).Idx → EReal)
    (p : Fin Mt) (r : Fin M) (q : Fin N)
    (hs₁ : ∀ k : Fin K, s₁ (ix2 p k) = S₁ (ix2 r k)) (hi₁ : inv₁ (ix2 p (0 : Fin 1)) = I₁ (ix2 r (0 : Fin 1)))
    (hw₁ : ∀ k : Fin K, w₁ (ix2 k q) = W₁ (ix2 k q)) (hb₁ : b₁ (ix2 (0 : Fin 1) q) = B₁ (ix2 (0 : Fin 1) q))
    (hs₂ : ∀ k : Fin K, s₂ (ix2 p k) = S₂ (ix2 r k)) (hi₂ : inv₂ (ix2 p (0 : Fin 1)) = I₂ (ix2 r (0 : Fin 1)))
    (hw₂ : ∀ k : Fin K, w₂ (ix2 k q) = W₂ (ix2 k q)) (hb₂ : b₂ (ix2 (0 : Fin 1) q) = B₂ (ix2 (0 : Fin 1) q)) :
    comb2 s₁ inv₁ w₁ b₁ s₂ inv₂ w₂ b₂ (ix2 p q) = comb2 S₁ I₁ W₁ B₁ S₂ I₂ W₂ B₂ (ix2 r q) := by
  rw [comb2_ix2, comb2_ix2, rowDot_rows s₁ w₁ S₁ W₁ p r q hs₁ hw₁, rowDot_rows s₂ w₂ S₂ W₂ p r q hs₂ hw₂,
    hi₁, hb₁, hi₂, hb₂]

end Cert.Hetero.Bodies

end
-- ==== Proof.Region0.lean ====
/-
  The first root layer (50000 rows in 10 blocks of 5000) as one function of whole arrays.

  Grid point t stages rows 5000·t … 5000·t + 4999 of the input array together with the whole weight matrix and the
  whole bias row, and writes back the same rows of the result.  Entry (p, q) of what it writes is row p of the block
  against column q of the weights plus the bias entry q, that is entry (5000·t + p, q) of the dense layer of the whole
  arrays.  The blocks tile the result (row r lies in block r / 5000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay0_at (v0 : FVec Ideal S5000x3 .f32) (v2 : FVec Ideal S3x128 .f32) (v5 : FVec Ideal S1x128 .f32)
    (p : Fin 5000) (q : Fin 128) :
    k0_pay1 (F := Ideal) v0 v2 v5 (ix2 p q) = dense id v0 v2 v5 (ix2 p q) :=
  linear_at dot_S5000x3_S3x128_S5000x128_1_0_0_1_n_n rfl rfl rfl rfl rfl rfl
    (truncf (φ := .f32) .bf16 v0 bitsLt_bf16_f32) (truncf (φ := .f32) .bf16 v2 bitsLt_bf16_f32) v5
    shapeCasts_S1x128_S1x128 broadcasts_S1x128_S5000x128 p q

/-- The block indices over the grid: the row-wise windows and the result window move down one block of rows per
    point, the shared windows stay on their whole arrays. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

set_option maxHeartbeats 1000000 in
/-- What point t writes back is block t of the layer of the arrays as the region finds them. -/
theorem flushed0 (c : Dev nD) (t : Fin cfg0.N) :
    (dat0 (F := Ideal) V c).flushed 3 t = ((cfg0.win 3).blk t).view.read (Elt Ideal)
      (dense id (V c main_arg0 : S50000x3.Idx → EReal) (V c main_arg11 : S3x128.Idx → EReal) (V c main_v0 : S1x128.Idx → EReal)) := by
  show (cfg0.win 3).cut (grid0.coords t) ((dat0 (F := Ideal) V c).after 3 t) = _
  rw [after0_3]
  unfold out0_3
  rw [View.canon_unit_zero zero2]
  simp only [View.ld_unit_zero (S := S5000x3) zero2, View.ld_unit_zero (S := S3x128) zero2, View.ld_unit_zero (S := S1x128) zero2]
  obtain ⟨e0, e1, e2, e3, e4, e5, e6, e7⟩ := idx0 t
  have hN : cfg0.N = 10 := N_0
  have ht : t.val < 10 := by have := t.isLt; omega
  funext j
  have hp : (j 0).val < 5000 := (j 0).isLt
  have hq : (j 1).val < 128 := (j 1).isLt
  obtain ⟨p, hpv⟩ : ∃ p : Fin 5000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 50000, r.val = t.val * 5000 + (j 0).val := ⟨⟨_, by omega⟩, rfl⟩
  have hL : (cfg0.win 3).xinj (grid0.coords t) j = (ix2 p q : S5000x128.Idx) :=
    funext fun a => Fin.ext (by
      match a with
      | ⟨0, _⟩ => exact hpv.symm
      | ⟨1, _⟩ => exact hqv.symm)
  have hR : ((cfg0.win 3).blk t).view.emb j = (ix2 r q : S50000x128.Idx) :=
    funext fun a => Fin.ext (by
      match a with
      | ⟨0, _⟩ => show win0_3.index t (0 : Fin 2) * 5000 + 1 * (j 0).val = r.val; omega
      | ⟨1, _⟩ => show win0_3.index t (1 : Fin 2) * 128 + 1 * (j 1).val = q.val; omega)
  show k0_pay1 (F := Ideal) (iblk0 V c 0 t) (iblk0 V c 1 t) (iblk0 V c 2 t) ((cfg0.win 3).xinj (grid0.coords t) j)
    = (dense id (V c main_arg0 : S50000x3.Idx → EReal) (V c main_arg11 : S3x128.Idx → EReal) (V c main_v0 : S1x128.Idx → EReal))
        (((cfg0.win 3).blk t).view.emb j)
  rw [hL, hR]
  refine (pay0_at (iblk0 V c 0 t) (iblk0 V c 1 t) (iblk0 V c 2 t) p q).trans ?_
  refine dense_rows id _ _ _ _ _ _ p r q (fun k => ?_) (fun k => ?_) ?_
  · show V c main_arg0 (((cfg0.win 0).blk t).view.emb (ix2 p k : S5000x3.Idx)) = V c main_arg0 (ix2 r k : S50000x3.Idx)
    refine congrArg _ (funext fun a => Fin.ext ?_)
    match a with
    | ⟨0, _⟩ => show win0_0.index t (0 : Fin 2) * 5000 + 1 * p.val = r.val; omega
    | ⟨1, _⟩ => show win0_0.index t (1 : Fin 2) * 3 + 1 * k.val = k.val; omega
  · show V c main_arg11 (((cfg0.win 1).blk t).view.emb (ix2 k q : S3x128.Idx)) = V c main_arg11 (ix2 k q : S3x128.Idx)
    refine congrArg _ (funext fun a => Fin.ext ?_)
    match a with
    | ⟨0, _⟩ => show win0_1.index t (0 : Fin 2) * 3 + 1 * k.val = k.val; omega
    | ⟨1, _⟩ => show win0_1.index t (1 : Fin 2) * 128 + 1 * q.val = q.val; omega
  · show V c main_v0 (((cfg0.win 2).blk t).view.emb (ix2 (0 : Fin 1) q : S1x128.Idx)) = V c main_v0 (ix2 (0 : Fin 1) q : S1x128.Idx)
    refine congrArg _ (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row r of the result lies in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by omega⟩, rfl⟩
  obtain ⟨-, -, -, -, -, -, e6, e7⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The result array after the region: the dense layer of the input array, the weights and the bias row. -/
theorem out0 (c : Dev nD) :
    (dat0 (F := Ideal) V c).arrAt 3 cfg0.N
      = dense id (V c main_arg0 : S50000x3.Idx → EReal) (V c main_arg11 : S3x128.Idx → EReal) (V c main_v0 : S1x128.Idx → EReal) :=
  (dat0 (F := Ideal) V c).arrAt_eq_of_cover 3 _ (fun t _ => flushed0 V c t) cover0

end Cert.KernelIdeal.Region

end
-- ==== Proof.Region1.lean ====
/-
  The second root layer (100000 rows in 50 blocks of 2000) as one function of whole arrays.

  Grid point t stages rows 2000·t … 2000·t + 1999 of the input array together with the whole weight matrix and the
  whole bias row, and writes back the same rows of the result.  Entry (p, q) of what it writes is row p of the block
  against column q of the weights plus the bias entry q, that is entry (2000·t + p, q) of the dense layer of the whole
  arrays.  The blocks tile the result (row r lies in block r / 2000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay1_at (v0 : FVec Ideal S2000x770 .f32) (v2 : FVec Ideal S770x128 .f32) (v5 : FVec Ideal S1x128 .f32)
    (p : Fin 2000) (q : Fin 128) :
    k1_pay1 (F := Ideal) v0 v2 v5 (ix2 p q) = dense id v0 v2 v5 (ix2 p q) :=
  linear_at dot_S2000x770_S770x128_S2000x128_1_0_0_1_n_n rfl rfl rfl rfl rfl rfl
    (truncf (φ := .f32) .bf16 v0 bitsLt_bf16_f32) (truncf (φ := .f32) .bf16 v2 bitsLt_bf16_f32) v5
    shapeCasts_S1x128_S1x128 broadcasts_S1x128_S2000x128 p q

/-- The block indices over the grid: the row-wise windows and the result window move down one block of rows per
    point, the shared windows stay on their whole arrays. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

set_option maxHeartbeats 1000000 in
/-- What point t writes back is block t of the layer of the arrays as the region finds them. -/
theorem flushed1 (c : Dev nD) (t : Fin cfg1.N) :
    (dat1 (F := Ideal) V c).flushed 3 t = ((cfg1.win 3).blk t).view.read (Elt Ideal)
      (dense id (V c main_arg1 : S100000x770.Idx → EReal) (V c main_arg13 : S770x128.Idx → EReal) (V c main_v2 : S1x128.Idx → EReal)) := by
  show (cfg1.win 3).cut (grid1.coords t) ((dat1 (F := Ideal) V c).after 3 t) = _
  rw [after1_3]
  unfold out1_3
  rw [View.canon_unit_zero zero2]
  simp only [View.ld_unit_zero (S := S2000x770) zero2, View.ld_unit_zero (S := S770x128) zero2, View.ld_unit_zero (S := S1x128) zero2]
  obtain ⟨e0, e1, e2, e3, e4, e5, e6, e7⟩ := idx1 t
  have hN : cfg1.N = 50 := N_1
  have ht : t.val < 50 := by have := t.isLt; omega
  funext j
  have hp : (j 0).val < 2000 := (j 0).isLt
  have hq : (j 1).val < 128 := (j 1).isLt
  obtain ⟨p, hpv⟩ : ∃ p : Fin 2000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 100000, r.val = t.val * 2000 + (j 0).val := ⟨⟨_, by omega⟩, rfl⟩
  have hL : (cfg1.win 3).xinj (grid1.coords t) j = (ix2 p q : S2000x128.Idx) :=
    funext fun a => Fin.ext (by
      match a with
      | ⟨0, _⟩ => exact hpv.symm
      | ⟨1, _⟩ => exact hqv.symm)
  have hR : ((cfg1.win 3).blk t).view.emb j = (ix2 r q : S100000x128.Idx) :=
    funext fun a => Fin.ext (by
      match a with
      | ⟨0, _⟩ => show win1_3.index t (0 : Fin 2) * 2000 + 1 * (j 0).val = r.val; omega
      | ⟨1, _⟩ => show win1_3.index t (1 : Fin 2) * 128 + 1 * (j 1).val = q.val; omega)
  show k1_pay1 (F := Ideal) (iblk1 V c 0 t) (iblk1 V c 1 t) (iblk1 V c 2 t) ((cfg1.win 3).xinj (grid1.coords t) j)
    = (dense id (V c main_arg1 : S100000x770.Idx → EReal) (V c main_arg13 : S770x128.Idx → EReal) (V c main_v2 : S1x128.Idx → EReal))
        (((cfg1.win 3).blk t).view.emb j)
  rw [hL, hR]
  refine (pay1_at (iblk1 V c 0 t) (iblk1 V c 1 t) (iblk1 V c 2 t) p q).trans ?_
  refine dense_rows id _ _ _ _ _ _ p r q (fun k => ?_) (fun k => ?_) ?_
  · show V c main_arg1 (((cfg1.win 0).blk t).view.emb (ix2 p k : S2000x770.Idx)) = V c main_arg1 (ix2 r k : S100000x770.Idx)
    refine congrArg _ (funext fun a => Fin.ext ?_)
    match a with
    | ⟨0, _⟩ => show win1_0.index t (0 : Fin 2) * 2000 + 1 * p.val = r.val; omega
    | ⟨1, _⟩ => show win1_0.index t (1 : Fin 2) * 770 + 1 * k.val = k.val; omega
  · show V c main_arg13 (((cfg1.win 1).blk t).view.emb (ix2 k q : S770x128.Idx)) = V c main_arg13 (ix2 k q : S770x128.Idx)
    refine congrArg _ (funext fun a => Fin.ext ?_)
    match a with
    | ⟨0, _⟩ => show win1_1.index t (0 : Fin 2) * 770 + 1 * k.val = k.val; omega
    | ⟨1, _⟩ => show win1_1.index t (1 : Fin 2) * 128 + 1 * q.val = q.val; omega
  · show V c main_v2 (((cfg1.win 2).blk t).view.emb (ix2 (0 : Fin 1) q : S1x128.Idx)) = V c main_v2 (ix2 (0 : Fin 1) q : S1x128.Idx)
    refine congrArg _ (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 128 + 1 * q.val = q.val; omega

/-- An index of the result array is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v3).slice (win1_3.rect t)).set ↔ _
  rw [View.set_slice_whole, Rect.mem_set_unit]
  exact Iff.rfl

/-- Row r of the result lies in the block of point r / 2000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨t, htv⟩ : ∃ t : Fin cfg1.N, t.val = (i 0).val / 2000 := ⟨⟨(i 0).val / 2000, by omega⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- The result array after the region: the dense layer of the input array, the weights and the bias row. -/
theorem out1 (c : Dev nD) :
    (dat1 (F := Ideal) V c).arrAt 3 cfg1.N
      = dense id (V c main_arg1 : S100000x770.Idx → EReal) (V c main_arg13 : S770x128.Idx → EReal) (V c main_v2 : S1x128.Idx → EReal) :=
  (dat1 (F := Ideal) V c).arrAt_eq_of_cover 3 _ (fun t _ => flushed1 V c t) cover1

end Cert.KernelIdeal.Region

end
-- ==== Proof.Region2.lean ====
/-
  The third root layer (500 rows in 1 block of 500) as one function of whole arrays.

  Grid point t stages rows 500·t … 500·t + 499 of the input array together with the whole weight matrix and the
  whole bias row, and writes back the same rows of the result.  Entry (p, q) of what it writes is row p of the block
  against column q of the weights plus the bias entry q, that is entry (500·t + p, q) of the dense layer of the whole
  arrays.  The blocks tile the result (row r lies in block r / 500), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay2_at (v0 : FVec Ideal S500x9 .f32) (v2 : FVec Ideal S9x128 .f32) (v5 : FVec Ideal S1x128 .f32)
    (p : Fin 500) (q : Fin 128) :
    k2_pay1 (F := Ideal) v0 v2 v5 (ix2 p q) = dense id v0 v2 v5 (ix2 p q) :=
  linear_at dot_S500x9_S9x128_S500x128_1_0_0_1_n_n rfl rfl rfl rfl rfl rfl
    (truncf (φ := .f32) .bf16 v0 bitsLt_bf16_f32) (truncf (φ := .f32) .bf16 v2 bitsLt_bf16_f32) v5
    shapeCasts_S1x128_S1x128 broadcasts_S1x128_S500x128 p q

/-- The block indices over the grid: the row-wise windows and the result window move down one block of rows per
    point, the shared windows stay on their whole arrays. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

set_option maxHeartbeats 1000000 in
/-- What point t writes back is block t of the layer of the arrays as the region finds them. -/
theorem flushed2 (c : Dev nD) (t : Fin cfg2.N) :
    (dat2 (F := Ideal) V c).flushed 3 t = ((cfg2.win 3).blk t).view.read (Elt Ideal)
      (dense id (V c main_arg2 : S500x9.Idx → EReal) (V c main_arg15 : S9x128.Idx → EReal) (V c main_v4 : S1x128.Idx → EReal)) := by
  show (cfg2.win 3).cut (grid2.coords t) ((dat2 (F := Ideal) V c).after 3 t) = _
  rw [after2_3]
  unfold out2_3
  rw [View.canon_unit_zero zero2]
  simp only [View.ld_unit_zero (S := S500x9) zero2, View.ld_unit_zero (S := S9x128) zero2, View.ld_unit_zero (S := S1x128) zero2]
  obtain ⟨e0, e1, e2, e3, e4, e5, e6, e7⟩ := idx2 t
  have hN : cfg2.N = 1 := N_2
  have ht : t.val < 1 := by have := t.isLt; omega
  funext j
  have hp : (j 0).val < 500 := (j 0).isLt
  have hq : (j 1).val < 128 := (j 1).isLt
  obtain ⟨p, hpv⟩ : ∃ p : Fin 500, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 500, r.val = t.val * 500 + (j 0).val := ⟨⟨_, by omega⟩, rfl⟩
  have hL : (cfg2.win 3).xinj (grid2.coords t) j = (ix2 p q : S500x128.Idx) :=
    funext fun a => Fin.ext (by
      match a with
      | ⟨0, _⟩ => exact hpv.symm
      | ⟨1, _⟩ => exact hqv.symm)
  have hR : ((cfg2.win 3).blk t).view.emb j = (ix2 r q : S500x128.Idx) :=
    funext fun a => Fin.ext (by
      match a with
      | ⟨0, _⟩ => show win2_3.index t (0 : Fin 2) * 500 + 1 * (j 0).val = r.val; omega
      | ⟨1, _⟩ => show win2_3.index t (1 : Fin 2) * 128 + 1 * (j 1).val = q.val; omega)
  show k2_pay1 (F := Ideal) (iblk2 V c 0 t) (iblk2 V c 1 t) (iblk2 V c 2 t) ((cfg2.win 3).xinj (grid2.coords t) j)
    = (dense id (V c main_arg2 : S500x9.Idx → EReal) (V c main_arg15 : S9x128.Idx → EReal) (V c main_v4 : S1x128.Idx → EReal))
        (((cfg2.win 3).blk t).view.emb j)
  rw [hL, hR]
  refine (pay2_at (iblk2 V c 0 t) (iblk2 V c 1 t) (iblk2 V c 2 t) p q).trans ?_
  refine dense_rows id _ _ _ _ _ _ p r q (fun k => ?_) (fun k => ?_) ?_
  · show V c main_arg2 (((cfg2.win 0).blk t).view.emb (ix2 p k : S500x9.Idx)) = V c main_arg2 (ix2 r k : S500x9.Idx)
    refine congrArg _ (funext fun a => Fin.ext ?_)
    match a with
    | ⟨0, _⟩ => show win2_0.index t (0 : Fin 2) * 500 + 1 * p.val = r.val; omega
    | ⟨1, _⟩ => show win2_0.index t (1 : Fin 2) * 9 + 1 * k.val = k.val; omega
  · show V c main_arg15 (((cfg2.win 1).blk t).view.emb (ix2 k q : S9x128.Idx)) = V c main_arg15 (ix2 k q : S9x128.Idx)
    refine congrArg _ (funext fun a => Fin.ext ?_)
    match a with
    | ⟨0, _⟩ => show win2_1.index t (0 : Fin 2) * 9 + 1 * k.val = k.val; omega
    | ⟨1, _⟩ => show win2_1.index t (1 : Fin 2) * 128 + 1 * q.val = q.val; omega
  · show V c main_v4 (((cfg2.win 2).blk t).view.emb (ix2 (0 : Fin 1) q : S1x128.Idx)) = V c main_v4 (ix2 (0 : Fin 1) q : S1x128.Idx)
    refine congrArg _ (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 128 + 1 * q.val = q.val; omega

/-- An index of the result array is in point t's block iff each coordinate is in the block's range on its axis. -/
theorem mem_blk2 (t : Fin cfg2.N) (i : S500x128.Idx) :
    i ∈ ((cfg2.win 3).blk t).view.set ↔ ∀ a : Fin 2, win2_3.index t a * S500x128.size a ≤ (i a).val
      ∧ (i a).val < win2_3.index t a * S500x128.size a + S500x128.size a := by
  show i ∈ ((View.whole main_v5).slice (win2_3.rect t)).set ↔ _
  rw [View.set_slice_whole, Rect.mem_set_unit]
  exact Iff.rfl

/-- Row r of the result lies in the block of point r / 500. -/
theorem cover2 (i : S500x128.Idx) :
    ∃ t : Fin cfg2.N, (cfg2.win 3).flush t = true ∧ i ∈ ((cfg2.win 3).blk t).view.set := by
  have hi0 : (i 0).val < 500 := (i 0).isLt
  have hi1 : (i 1).val < 128 := (i 1).isLt
  have hN : cfg2.N = 1 := N_2
  obtain ⟨t, htv⟩ : ∃ t : Fin cfg2.N, t.val = (i 0).val / 500 := ⟨⟨(i 0).val / 500, by omega⟩, rfl⟩
  obtain ⟨-, -, -, -, -, -, e6, e7⟩ := idx2 t
  refine ⟨t, flush2_3 t, ?_⟩
  rw [mem_blk2]
  intro a
  match a with
  | ⟨0, _⟩ =>
    show win2_3.index t (0 : Fin 2) * 500 ≤ (i 0).val ∧ (i 0).val < win2_3.index t (0 : Fin 2) * 500 + 500
    omega
  | ⟨1, _⟩ =>
    show win2_3.index t (1 : Fin 2) * 128 ≤ (i 1).val ∧ (i 1).val < win2_3.index t (1 : Fin 2) * 128 + 128
    omega

/-- The result array after the region: the dense layer of the input array, the weights and the bias row. -/
theorem out2 (c : Dev nD) :
    (dat2 (F := Ideal) V c).arrAt 3 cfg2.N
      = dense id (V c main_arg2 : S500x9.Idx → EReal) (V c main_arg15 : S9x128.Idx → EReal) (V c main_v4 : S1x128.Idx → EReal) :=
  (dat2 (F := Ideal) V c).arrAt_eq_of_cover 3 _ (fun t _ => flushed2 V c t) cover2

end Cert.KernelIdeal.Region

end
-- ==== Proof.FoldRoots.lean ====
/-
  The three root layers at the boundaries of the fold: after its region, each node type's feature buffer holds the
  linear layer of that type's raw features (a bias vector first made a row by a host reshape).
-/
import proofs.«118985_j35038343201327_2_alg».proof.Proof.Gen.KernelIdeal.Frame
import proofs.«118985_j35038343201327_2_alg».proof.Proof.KSpec
import proofs.«118985_j35038343201327_2_alg».proof.Proof.FoldArgsA
import proofs.«118985_j35038343201327_2_alg».proof.Proof.Region0
import proofs.«118985_j35038343201327_2_alg».proof.Proof.Region1
import proofs.«118985_j35038343201327_2_alg».proof.Proof.Region2

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Hetero

variable (m : (ℓ : Loc nD τ sig) → Buf (Elt Ideal) ℓ) (ρ : Dev nD → PrngReg)

theorem v0_at1 (c : Dev nD) : W1 m ρ c (Proc.devRef .tc main_v0) = K.row (m ((c : Thread nD τ).loc main_arg12)) := by
  have h : W1 m ρ c (Proc.devRef .tc main_v0) = K.row (W0 m ρ c (Proc.devRef .tc main_arg12)) := by
    show StableHlo.after hostOps0 (W0 m ρ c) (Proc.devRef .tc main_v0) = _
    after_results; rfl
  rw [h, show W0 m ρ c (Proc.devRef .tc main_arg12) = (m ((c : Thread nD τ).loc main_arg12)) from rfl]

theorem hu_at2 (c : Dev nD) : W2 m ρ c (Proc.devRef .tc main_v1) = K.hu (m ((c : Thread nD τ).loc main_arg0)) (m ((c : Thread nD τ).loc main_arg11)) (m ((c : Thread nD τ).loc main_arg12)) := by
  refine (W2_arr m ρ c 3).trans ?_
  rw [Cert.KernelIdeal.Region.out0 (V1 m ρ) c]
  rw [show V1 m ρ c main_arg0 = (m ((c : Thread nD τ).loc main_arg0)) from arg0_at1 m ρ c,
    show V1 m ρ c main_arg11 = (m ((c : Thread nD τ).loc main_arg11)) from arg11_at1 m ρ c,
    show V1 m ρ c main_v0 = K.row (m ((c : Thread nD τ).loc main_arg12)) from v0_at1 m ρ c]
  rfl

theorem v2_at3 (c : Dev nD) : W3 m ρ c (Proc.devRef .tc main_v2) = K.row (m ((c : Thread nD τ).loc main_arg14)) := by
  have h : W3 m ρ c (Proc.devRef .tc main_v2) = K.row (W2 m ρ c (Proc.devRef .tc main_arg14)) := by
    show StableHlo.after hostOps1 (W2 m ρ c) (Proc.devRef .tc main_v2) = _
    after_results; rfl
  rw [h, arg14_at2 m ρ c]

theorem hp_at4 (c : Dev nD) : W4 m ρ c (Proc.devRef .tc main_v3) = K.hp (m ((c : Thread nD τ).loc main_arg1)) (m ((c : Thread nD τ).loc main_arg13)) (m ((c : Thread nD τ).loc main_arg14)) := by
  refine (W4_arr m ρ c 3).trans ?_
  rw [Cert.KernelIdeal.Region.out1 (V3 m ρ) c]
  rw [show V3 m ρ c main_arg1 = (m ((c : Thread nD τ).loc main_arg1)) from arg1_at3 m ρ c,
    show V3 m ρ c main_arg13 = (m ((c : Thread nD τ).loc main_arg13)) from arg13_at3 m ρ c,
    show V3 m ρ c main_v2 = K.row (m ((c : Thread nD τ).loc main_arg14)) from v2_at3 m ρ c]
  rfl

theorem v4_at5 (c : Dev nD) : W5 m ρ c (Proc.devRef .tc main_v4) = K.row (m ((c : Thread nD τ).loc main_arg16)) := by
  have h : W5 m ρ c (Proc.devRef .tc main_v4) = K.row (W4 m ρ c (Proc.devRef .tc main_arg16)) := by
    show StableHlo.after hostOps2 (W4 m ρ c) (Proc.devRef .tc main_v4) = _
    after_results; rfl
  rw [h, arg16_at4 m ρ c]

theorem hs_at6 (c : Dev nD) : W6 m ρ c (Proc.devRef .tc main_v5) = K.hs (m ((c : Thread nD τ).loc main_arg2)) (m ((c : Thread nD τ).loc main_arg15)) (m ((c : Thread nD τ).loc main_arg16)) := by
  refine (W6_arr m ρ c 3).trans ?_
  rw [Cert.KernelIdeal.Region.out2 (V5 m ρ) c]
  rw [show V5 m ρ c main_arg2 = (m ((c : Thread nD τ).loc main_arg2)) from arg2_at5 m ρ c,
    show V5 m ρ c main_arg15 = (m ((c : Thread nD τ).loc main_arg15)) from arg15_at5 m ρ c,
    show V5 m ρ c main_v4 = K.row (m ((c : Thread nD τ).loc main_arg16)) from v4_at5 m ρ c]
  rfl

theorem v1_keep6_2 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := (StableHlo.after_of_forall_not_mem (b := Proc.devRef .tc main_v1) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W3 m ρ c (Proc.devRef .tc main_v1) := W4_of_ne m ρ c main_v1 (by decide)
    _ = W2 m ρ c (Proc.devRef .tc main_v1) := (StableHlo.after_of_forall_not_mem (b := Proc.devRef .tc main_v1) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v3_keep6_4 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := (StableHlo.after_of_forall_not_mem (b := Proc.devRef .tc main_v3) _ _ (List.forall_iff_forall_mem.mp (by
        simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem hu_at6 (c : Dev nD) : W6 m ρ c (Proc.devRef .tc main_v1) = K.hu (m ((c : Thread nD τ).loc main_arg0)) (m ((c : Thread nD τ).loc main_arg11)) (m ((c : Thread nD τ).loc main_arg12)) :=
  (v1_keep6_2 m ρ c).trans (hu_at2 m ρ c)

theorem hp_at6 (c : Dev nD) : W6 m ρ c (Proc.devRef .tc main_v3) = K.hp (m ((c : Thread nD τ).loc main_arg1)) (m ((c : Thread nD τ).loc main_arg13)) (m ((c : Thread nD τ).loc main_arg14)) :=
  (v3_keep6_4 m ρ c).trans (hp_at4 m ρ c)

end Cert.KernelIdeal.Fold

end
-- ==== Proof.Region3.lean ====
/-
  The first two-relation layer (100000 rows in 50 blocks of 2000) as one function of whole arrays.

  Grid point t stages rows 2000·t … 2000·t + 1999 of each relation's summed messages and column of scale factors,
  together with both whole weight matrices and both whole bias rows, and writes back the same rows of the result.
  Entry (p, q) of what it writes is the first relation's scaled product entry plus its bias entry, plus the second
  relation's scaled product entry, plus the second bias entry, clamped below at zero: entry (2000·t + p, q) of the
  two-relation layer of the whole arrays.  The blocks tile the result (row r lies in block r / 2000), so the result
  array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the two-relation body of the eight loaded blocks. -/
theorem pay3_at (v0 : FVec Ideal S2000x128 .f32) (v3 : FVec Ideal S128x128 .f32) (v6 : FVec Ideal S2000x1 .f32) (v10 : FVec Ideal S1x128 .f32)
    (v14 : FVec Ideal S2000x128 .f32) (v17 : FVec Ideal S128x128 .f32) (v20 : FVec Ideal S2000x1 .f32) (v25 : FVec Ideal S1x128 .f32)
    (p : Fin 2000) (q : Fin 128) :
    k3_pay1 (F := Ideal) v0 v3 v6 v10 v14 v17 v20 v25 (ix2 p q) = comb2 v0 v6 v3 v10 v14 v20 v17 v25 (ix2 p q) :=
  ((relation2_at dot_S2000x128_S128x128_S2000x128_1_0_0_1_n_n rfl rfl rfl rfl rfl rfl
    (truncf (φ := .f32) .bf16 (shapeCast S2000x128 v0 shapeCasts_S2000x128_S2000x128) bitsLt_bf16_f32)
    (truncf (φ := .f32) .bf16 v3 bitsLt_bf16_f32) v6 v10
    (truncf (φ := .f32) .bf16 (shapeCast S2000x128 v14 shapeCasts_S2000x128_S2000x128) bitsLt_bf16_f32)
    (truncf (φ := .f32) .bf16 v17 bitsLt_bf16_f32) v20 v25
    shapeCasts_S2000x1_S2000x1 broadcasts_S2000x1_S2000x128 shapeCasts_S1x128_S1x128 broadcasts_S1x128_S2000x128
    shapeCasts_S2000x1_S2000x1 broadcasts_S2000x1_S2000x128 shapeCasts_S1x128_S1x128 broadcasts_S1x128_S2000x128 p q).trans
    (congrArg (fun x : S2000x128.Idx → EReal => comb2 x v6 v3 v10 (shapeCast S2000x128 v14 shapeCasts_S2000x128_S2000x128) v20 v17 v25 (ix2 p q))
      (shapeCast_self v0 shapeCasts_S2000x128_S2000x128))).trans
    (congrArg (fun x : S2000x128.Idx → EReal => comb2 v0 v6 v3 v10 x v20 v17 v25 (ix2 p q)) (shapeCast_self v14 shapeCasts_S2000x128_S2000x128))

/-- The block indices over the grid: the row-wise windows and the result window move down one block of rows per
    point, the shared windows stay on their whole arrays. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0
    ∧ win3_5.index t (0 : Fin 2) = t.val
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

set_option maxHeartbeats 1000000 in
/-- What point t writes back is block t of the layer of the arrays as the region finds them. -/
theorem flushed3 (c : Dev nD) (t : Fin cfg3.N) :
    (dat3 (F := Ideal) V c).flushed 8 t = ((cfg3.win 8).blk t).view.read (Elt Ideal)
      (comb2 (V c main_v52 : S100000x128.Idx → EReal) (V c main_v14 : S100000x1.Idx → EReal) (V c main_arg17 : S128x128.Idx → EReal) (V c main_v86 : S1x128.Idx → EReal) (V c main_v63 : S100000x128.Idx → EReal) (V c main_v23 : S100000x1.Idx → EReal) (V c main_arg23 : S128x128.Idx → EReal) (V c main_v87 : S1x128.Idx → EReal)) := by
  show (cfg3.win 8).cut (grid3.coords t) ((dat3 (F := Ideal) V c).after 8 t) = _
  rw [after3_8]
  unfold out3_8
  rw [View.canon_unit_zero zero2]
  simp only [View.ld_unit_zero (S := S2000x128) zero2, View.ld_unit_zero (S := S2000x1) zero2, View.ld_unit_zero (S := S128x128) zero2, View.ld_unit_zero (S := S1x128) zero2]
  obtain ⟨e0, e1, e2, e3, e4, e5, e6, e7, e8, e9, e10, e11, e12, e13, e14, e15, e16, e17⟩ := idx3 t
  have hN : cfg3.N = 50 := N_3
  have ht : t.val < 50 := by have := t.isLt; omega
  funext j
  have hp : (j 0).val < 2000 := (j 0).isLt
  have hq : (j 1).val < 128 := (j 1).isLt
  obtain ⟨p, hpv⟩ : ∃ p : Fin 2000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 100000, r.val = t.val * 2000 + (j 0).val := ⟨⟨_, by omega⟩, rfl⟩
  have hL : (cfg3.win 8).xinj (grid3.coords t) j = (ix2 p q : S2000x128.Idx) :=
    funext fun a => Fin.ext (by
      match a with
      | ⟨0, _⟩ => exact hpv.symm
      | ⟨1, _⟩ => exact hqv.symm)
  have hR : ((cfg3.win 8).blk t).view.emb j = (ix2 r q : S100000x128.Idx) :=
    funext fun a => Fin.ext (by
      match a with
      | ⟨0, _⟩ => show win3_8.index t (0 : Fin 2) * 2000 + 1 * (j 0).val = r.val; omega
      | ⟨1, _⟩ => show win3_8.index t (1 : Fin 2) * 128 + 1 * (j 1).val = q.val; omega)
  show k3_pay1 (F := Ideal) (iblk3 V c 0 t) (iblk3 V c 2 t) (iblk3 V c 1 t) (iblk3 V c 3 t) (iblk3 V c 4 t) (iblk3 V c 6 t) (iblk3 V c 5 t) (iblk3 V c 7 t) ((cfg3.win 8).xinj (grid3.coords t) j)
    = (comb2 (V c main_v52 : S100000x128.Idx → EReal) (V c main_v14 : S100000x1.Idx → EReal) (V c main_arg17 : S128x128.Idx → EReal) (V c main_v86 : S1x128.Idx → EReal) (V c main_v63 : S100000x128.Idx → EReal) (V c main_v23 : S100000x1.Idx → EReal) (V c main_arg23 : S128x128.Idx → EReal) (V c main_v87 : S1x128.Idx → EReal))
        (((cfg3.win 8).blk t).view.emb j)
  rw [hL, hR]
  refine (pay3_at (iblk3 V c 0 t) (iblk3 V c 2 t) (iblk3 V c 1 t) (iblk3 V c 3 t) (iblk3 V c 4 t) (iblk3 V c 6 t) (iblk3 V c 5 t) (iblk3 V c 7 t) p q).trans ?_
  refine comb2_rows _ _ _ _ _ _ _ _ _ _ _ _ _ _ _ _ p r q (fun k => ?_) ?_ (fun k => ?_) ?_ (fun k => ?_) ?_ (fun k => ?_) ?_
  · show V c main_v52 (((cfg3.win 0).blk t).view.emb (ix2 p k : S2000x128.Idx)) = V c main_v52 (ix2 r k : S100000x128.Idx)
    refine congrArg _ (funext fun a => Fin.ext ?_)
    match a with
    | ⟨0, _⟩ => show win3_0.index t (0 : Fin 2) * 2000 + 1 * p.val = r.val; omega
    | ⟨1, _⟩ => show win3_0.index t (1 : Fin 2) * 128 + 1 * k.val = k.val; omega
  · show V c main_v14 (((cfg3.win 1).blk t).view.emb (ix2 p (0 : Fin 1) : S2000x1.Idx)) = V c main_v14 (ix2 r (0 : Fin 1) : S100000x1.Idx)
    refine congrArg _ (funext fun a => Fin.ext ?_)
    match a with
    | ⟨0, _⟩ => show win3_1.index t (0 : Fin 2) * 2000 + 1 * p.val = r.val; omega
    | ⟨1, _⟩ => show win3_1.index t (1 : Fin 2) * 1 + 1 * (0 : Fin 1).val = (0 : Fin 1).val; omega
  · show V c main_arg17 (((cfg3.win 2).blk t).view.emb (ix2 k q : S128x128.Idx)) = V c main_arg17 (ix2 k q : S128x128.Idx)
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · show V c main_v86 (((cfg3.win 3).blk t).view.emb (ix2 (0 : Fin 1) q : S1x128.Idx)) = V c main_v86 (ix2 (0 : Fin 1) q : S1x128.Idx)
    refine congrArg _ (funext fun a => Fin.ext ?_)
    match a with
    | ⟨0, _⟩ => show win3_3.index t (0 : Fin 2) * 1 + 1 * (0 : Fin 1).val = (0 : Fin 1).val; omega
    | ⟨1, _⟩ => show win3_3.index t (1 : Fin 2) * 128 + 1 * q.val = q.val; omega
  · show V c main_v63 (((cfg3.win 4).blk t).view.emb (ix2 p k : S2000x128.Idx)) = V c main_v63 (ix2 r k : S100000x128.Idx)
    refine congrArg _ (funext fun a => Fin.ext ?_)
    match a with
    | ⟨0, _⟩ => show win3_4.index t (0 : Fin 2) * 2000 + 1 * p.val = r.val; omega
    | ⟨1, _⟩ => show win3_4.index t (1 : Fin 2) * 128 + 1 * k.val = k.val; omega
  · show V c main_v23 (((cfg3.win 5).blk t).view.emb (ix2 p (0 : Fin 1) : S2000x1.Idx)) = V c main_v23 (ix2 r (0 : Fin 1) : S100000x1.Idx)
    refine congrArg _ (funext fun a => Fin.ext ?_)
    match a with
    | ⟨0, _⟩ => show win3_5.index t (0 : Fin 2) * 2000 + 1 * p.val = r.val; omega
    | ⟨1, _⟩ => show win3_5.index t (1 : Fin 2) * 1 + 1 * (0 : Fin 1).val = (0 : Fin 1).val; omega
  · show V c main_arg23 (((cfg3.win 6).blk t).view.emb (ix2 k q : S128x128.Idx)) = V c main_arg23 (ix2 k q : S128x128.Idx)
    refine congrArg _ (funext fun a => Fin.ext ?_)
    match a with
    | ⟨0, _⟩ => show win3_6.index t (0 : Fin 2) * 128 + 1 * k.val = k.val; omega
    | ⟨1, _⟩ => show win3_6.index t (1 : Fin 2) * 128 + 1 * q.val = q.val; omega
  · show V c main_v87 (((cfg3.win 7).blk t).view.emb (ix2 (0 : Fin 1) q : S1x128.Idx)) = V c main_v87 (ix2 (0 : Fin 1) q : S1x128.Idx)
    refine congrArg _ (funext fun a => Fin.ext ?_)
    match a with
    | ⟨0, _⟩ => show win3_7.index t (0 : Fin 2) * 1 + 1 * (0 : Fin 1).val = (0 : Fin 1).val; omega
    | ⟨1, _⟩ => show win3_7.index t (1 : Fin 2) * 128 + 1 * q.val = q.val; omega

/-- An index of the result array is in point t's block iff each coordinate is in the block's range on its axis. -/
theorem mem_blk3 (t : Fin cfg3.N) (i : S100000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v88).slice (win3_8.rect t)).set ↔ _
  rw [View.set_slice_whole, Rect.mem_set_unit]
  exact Iff.rfl

/-- Row r of the result lies in the block of point r / 2000. -/
theorem cover3 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 50 := N_3
  obtain ⟨t, htv⟩ : ∃ t : Fin cfg3.N, t.val = (i 0).val / 2000 := ⟨⟨(i 0).val / 2000, by omega⟩, rfl⟩
  obtain ⟨-, -, -, -, -, -, -, -, -, -, -, -, -, -, -, -, e16, e17⟩ := idx3 t
  refine ⟨t, flush3_8 t, ?_⟩
  rw [mem_blk3]
  intro a
  match a with
  | ⟨0, _⟩ =>
    show win3_8.index t (0 : Fin 2) * 2000 ≤ (i 0).val ∧ (i 0).val < win3_8.index t (0 : Fin 2) * 2000 + 2000
    omega
  | ⟨1, _⟩ =>
    show win3_8.index t (1 : Fin 2) * 128 ≤ (i 1).val ∧ (i 1).val < win3_8.index t (1 : Fin 2) * 128 + 128
    omega

/-- The result array after the region: the two-relation layer of the summed messages, scale columns, weights and bias rows. -/
theorem out3 (c : Dev nD) :
    (dat3 (F := Ideal) V c).arrAt 8 cfg3.N
      = comb2 (V c main_v52 : S100000x128.Idx → EReal) (V c main_v14 : S100000x1.Idx → EReal) (V c main_arg17 : S128x128.Idx → EReal) (V c main_v86 : S1x128.Idx → EReal) (V c main_v63 : S100000x128.Idx → EReal) (V c main_v23 : S100000x1.Idx → EReal) (V c main_arg23 : S128x128.Idx → EReal) (V c main_v87 : S1x128.Idx → EReal) :=
  (dat3 (F := Ideal) V c).arrAt_eq_of_cover 8 _ (fun t _ => flushed3 V c t) cover3

end Cert.KernelIdeal.Region

end
-- ==== Proof.Region4.lean ====
/-
  The first one-relation layer on 50000 rows (50000 rows in 10 blocks of 5000) as one function of whole arrays.

  Grid point t stages rows 5000·t … 5000·t + 4999 of the summed messages and of the column of scale factors,
  together with the whole weight matrix and the whole bias row, and writes back the same rows of the result.  Entry
  (p, q) of what it writes is (row p of the block against column q of the weights) times the row's scale factor, plus
  the bias entry q, clamped below at zero: entry (5000·t + p, q) of the one-relation layer of the whole arrays.  The
  blocks tile the result (row r lies in block r / 5000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the one-relation body of the four loaded blocks. -/
theorem pay4_at (v0 : FVec Ideal S5000x128 .f32) (v3 : FVec Ideal S128x128 .f32) (v6 : FVec Ideal S5000x1 .f32) (v10 : FVec Ideal S1x128 .f32)
    (p : Fin 5000) (q : Fin 128) :
    k4_pay1 (F := Ideal) v0 v3 v6 v10 (ix2 p q) = comb1 v0 v6 v3 v10 (ix2 p q) :=
  (relation1_at dot_S5000x128_S128x128_S5000x128_1_0_0_1_n_n rfl rfl rfl rfl rfl rfl
    (truncf (φ := .f32) .bf16 (shapeCast S5000x128 v0 shapeCasts_S5000x128_S5000x128) bitsLt_bf16_f32)
    (truncf (φ := .f32) .bf16 v3 bitsLt_bf16_f32) v6 v10
    shapeCasts_S5000x1_S5000x1 broadcasts_S5000x1_S5000x128 shapeCasts_S1x128_S1x128 broadcasts_S1x128_S5000x128 p q).trans
    (congrArg (fun x : S5000x128.Idx → EReal => comb1 x v6 v3 v10 (ix2 p q)) (shapeCast_self v0 shapeCasts_S5000x128_S5000x128))

/-- The block indices over the grid: the row-wise windows and the result window move down one block of rows per
    point, the shared windows stay on their whole arrays. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

set_option maxHeartbeats 1000000 in
/-- What point t writes back is block t of the layer of the arrays as the region finds them. -/
theorem flushed4 (c : Dev nD) (t : Fin cfg4.N) :
    (dat4 (F := Ideal) V c).flushed 4 t = ((cfg4.win 4).blk t).view.read (Elt Ideal)
      (comb1 (V c main_v74 : S50000x128.Idx → EReal) (V c main_v32 : S50000x1.Idx → EReal) (V c main_arg19 : S128x128.Idx → EReal) (V c main_v89 : S1x128.Idx → EReal)) := by
  show (cfg4.win 4).cut (grid4.coords t) ((dat4 (F := Ideal) V c).after 4 t) = _
  rw [after4_4]
  unfold out4_4
  rw [View.canon_unit_zero zero2]
  simp only [View.ld_unit_zero (S := S5000x128) zero2, View.ld_unit_zero (S := S5000x1) zero2, View.ld_unit_zero (S := S128x128) zero2, View.ld_unit_zero (S := S1x128) zero2]
  obtain ⟨e0, e1, e2, e3, e4, e5, e6, e7, e8, e9⟩ := idx4 t
  have hN : cfg4.N = 10 := N_4
  have ht : t.val < 10 := by have := t.isLt; omega
  funext j
  have hp : (j 0).val < 5000 := (j 0).isLt
  have hq : (j 1).val < 128 := (j 1).isLt
  obtain ⟨p, hpv⟩ : ∃ p : Fin 5000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 50000, r.val = t.val * 5000 + (j 0).val := ⟨⟨_, by omega⟩, rfl⟩
  have hL : (cfg4.win 4).xinj (grid4.coords t) j = (ix2 p q : S5000x128.Idx) :=
    funext fun a => Fin.ext (by
      match a with
      | ⟨0, _⟩ => exact hpv.symm
      | ⟨1, _⟩ => exact hqv.symm)
  have hR : ((cfg4.win 4).blk t).view.emb j = (ix2 r q : S50000x128.Idx) :=
    funext fun a => Fin.ext (by
      match a with
      | ⟨0, _⟩ => show win4_4.index t (0 : Fin 2) * 5000 + 1 * (j 0).val = r.val; omega
      | ⟨1, _⟩ => show win4_4.index t (1 : Fin 2) * 128 + 1 * (j 1).val = q.val; omega)
  show k4_pay1 (F := Ideal) (iblk4 V c 0 t) (iblk4 V c 2 t) (iblk4 V c 1 t) (iblk4 V c 3 t) ((cfg4.win 4).xinj (grid4.coords t) j)
    = (comb1 (V c main_v74 : S50000x128.Idx → EReal) (V c main_v32 : S50000x1.Idx → EReal) (V c main_arg19 : S128x128.Idx → EReal) (V c main_v89 : S1x128.Idx → EReal))
        (((cfg4.win 4).blk t).view.emb j)
  rw [hL, hR]
  refine (pay4_at (iblk4 V c 0 t) (iblk4 V c 2 t) (iblk4 V c 1 t) (iblk4 V c 3 t) p q).trans ?_
  refine comb1_rows _ _ _ _ _ _ _ _ p r q (fun k => ?_) ?_ (fun k => ?_) ?_
  · show V c main_v74 (((cfg4.win 0).blk t).view.emb (ix2 p k : S5000x128.Idx)) = V c main_v74 (ix2 r k : S50000x128.Idx)
    refine congrArg _ (funext fun a => Fin.ext ?_)
    match a with
    | ⟨0, _⟩ => show win4_0.index t (0 : Fin 2) * 5000 + 1 * p.val = r.val; omega
    | ⟨1, _⟩ => show win4_0.index t (1 : Fin 2) * 128 + 1 * k.val = k.val; omega
  · show V c main_v32 (((cfg4.win 1).blk t).view.emb (ix2 p (0 : Fin 1) : S5000x1.Idx)) = V c main_v32 (ix2 r (0 : Fin 1) : S50000x1.Idx)
    refine congrArg _ (funext fun a => Fin.ext ?_)
    match a with
    | ⟨0, _⟩ => show win4_1.index t (0 : Fin 2) * 5000 + 1 * p.val = r.val; omega
    | ⟨1, _⟩ => show win4_1.index t (1 : Fin 2) * 1 + 1 * (0 : Fin 1).val = (0 : Fin 1).val; omega
  · show V c main_arg19 (((cfg4.win 2).blk t).view.emb (ix2 k q : S128x128.Idx)) = V c main_arg19 (ix2 k q : S128x128.Idx)
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * q.val = q.val; omega
  · show V c main_v89 (((cfg4.win 3).blk t).view.emb (ix2 (0 : Fin 1) q : S1x128.Idx)) = V c main_v89 (ix2 (0 : Fin 1) q : S1x128.Idx)
    refine congrArg _ (funext fun a => Fin.ext ?_)
    match a with
    | ⟨0, _⟩ => show win4_3.index t (0 : Fin 2) * 1 + 1 * (0 : Fin 1).val = (0 : Fin 1).val; omega
    | ⟨1, _⟩ => show win4_3.index t (1 : Fin 2) * 128 + 1 * q.val = q.val; omega

/-- An index of the result array is in point t's block iff each coordinate is in the block's range on its axis. -/
theorem mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v90).slice (win4_4.rect t)).set ↔ _
  rw [View.set_slice_whole, Rect.mem_set_unit]
  exact Iff.rfl

/-- Row r of the result lies in the block of point r / 5000. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  obtain ⟨t, htv⟩ : ∃ t : Fin cfg4.N, t.val = (i 0).val / 5000 := ⟨⟨(i 0).val / 5000, by omega⟩, rfl⟩
  obtain ⟨-, -, -, -, -, -, -, -, e8, e9⟩ := idx4 t
  refine ⟨t, flush4_4 t, ?_⟩
  rw [mem_blk4]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- The result array after the region: the one-relation layer of the summed messages, the scale column, the weights and the bias row. -/
theorem out4 (c : Dev nD) :
    (dat4 (F := Ideal) V c).arrAt 4 cfg4.N
      = comb1 (V c main_v74 : S50000x128.Idx → EReal) (V c main_v32 : S50000x1.Idx → EReal) (V c main_arg19 : S128x128.Idx → EReal) (V c main_v89 : S1x128.Idx → EReal) :=
  (dat4 (F := Ideal) V c).arrAt_eq_of_cover 4 _ (fun t _ => flushed4 V c t) cover4

end Cert.KernelIdeal.Region

end
-- ==== Proof.Region5.lean ====
/-
  The first one-relation layer on 500 rows (500 rows in 1 block of 500) as one function of whole arrays.

  Grid point t stages rows 500·t … 500·t + 499 of the summed messages and of the column of scale factors,
  together with the whole weight matrix and the whole bias row, and writes back the same rows of the result.  Entry
  (p, q) of what it writes is (row p of the block against column q of the weights) times the row's scale factor, plus
  the bias entry q, clamped below at zero: entry (500·t + p, q) of the one-relation layer of the whole arrays.  The
  blocks tile the result (row r lies in block r / 500), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the one-relation body of the four loaded blocks. -/
theorem pay5_at (v0 : FVec Ideal S500x128 .f32) (v3 : FVec Ideal S128x128 .f32) (v6 : FVec Ideal S500x1 .f32) (v10 : FVec Ideal S1x128 .f32)
    (p : Fin 500) (q : Fin 128) :
    k5_pay1 (F := Ideal) v0 v3 v6 v10 (ix2 p q) = comb1 v0 v6 v3 v10 (ix2 p q) :=
  (relation1_at dot_S500x128_S128x128_S500x128_1_0_0_1_n_n rfl rfl rfl rfl rfl rfl
    (truncf (φ := .f32) .bf16 (shapeCast S500x128 v0 shapeCasts_S500x128_S500x128) bitsLt_bf16_f32)
    (truncf (φ := .f32) .bf16 v3 bitsLt_bf16_f32) v6 v10
    shapeCasts_S500x1_S500x1 broadcasts_S500x1_S500x128 shapeCasts_S1x128_S1x128 broadcasts_S1x128_S500x128 p q).trans
    (congrArg (fun x : S500x128.Idx → EReal => comb1 x v6 v3 v10 (ix2 p q)) (shapeCast_self v0 shapeCasts_S500x128_S500x128))

/-- The block indices over the grid: the row-wise windows and the result window move down one block of rows per
    point, the shared windows stay on their whole arrays. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

set_option maxHeartbeats 1000000 in
/-- What point t writes back is block t of the layer of the arrays as the region finds them. -/
theorem flushed5 (c : Dev nD) (t : Fin cfg5.N) :
    (dat5 (F := Ideal) V c).flushed 4 t = ((cfg5.win 4).blk t).view.read (Elt Ideal)
      (comb1 (V c main_v85 : S500x128.Idx → EReal) (V c main_v41 : S500x1.Idx → EReal) (V c main_arg21 : S128x128.Idx → EReal) (V c main_v91 : S1x128.Idx → EReal)) := by
  show (cfg5.win 4).cut (grid5.coords t) ((dat5 (F := Ideal) V c).after 4 t) = _
  rw [after5_4]
  unfold out5_4
  rw [View.canon_unit_zero zero2]
  simp only [View.ld_unit_zero (S := S500x128) zero2, View.ld_unit_zero (S := S500x1) zero2, View.ld_unit_zero (S := S128x128) zero2, View.ld_unit_zero (S := S1x128) zero2]
  obtain ⟨e0, e1, e2, e3, e4, e5, e6, e7, e8, e9⟩ := idx5 t
  have hN : cfg5.N = 1 := N_5
  have ht : t.val < 1 := by have := t.isLt; omega
  funext j
  have hp : (j 0).val < 500 := (j 0).isLt
  have hq : (j 1).val < 128 := (j 1).isLt
  obtain ⟨p, hpv⟩ : ∃ p : Fin 500, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 500, r.val = t.val * 500 + (j 0).val := ⟨⟨_, by omega⟩, rfl⟩
  have hL : (cfg5.win 4).xinj (grid5.coords t) j = (ix2 p q : S500x128.Idx) :=
    funext fun a => Fin.ext (by
      match a with
      | ⟨0, _⟩ => exact hpv.symm
      | ⟨1, _⟩ => exact hqv.symm)
  have hR : ((cfg5.win 4).blk t).view.emb j = (ix2 r q : S500x128.Idx) :=
    funext fun a => Fin.ext (by
      match a with
      | ⟨0, _⟩ => show win5_4.index t (0 : Fin 2) * 500 + 1 * (j 0).val = r.val; omega
      | ⟨1, _⟩ => show win5_4.index t (1 : Fin 2) * 128 + 1 * (j 1).val = q.val; omega)
  show k5_pay1 (F := Ideal) (iblk5 V c 0 t) (iblk5 V c 2 t) (iblk5 V c 1 t) (iblk5 V c 3 t) ((cfg5.win 4).xinj (grid5.coords t) j)
    = (comb1 (V c main_v85 : S500x128.Idx → EReal) (V c main_v41 : S500x1.Idx → EReal) (V c main_arg21 : S128x128.Idx → EReal) (V c main_v91 : S1x128.Idx → EReal))
        (((cfg5.win 4).blk t).view.emb j)
  rw [hL, hR]
  refine (pay5_at (iblk5 V c 0 t) (iblk5 V c 2 t) (iblk5 V c 1 t) (iblk5 V c 3 t) p q).trans ?_
  refine comb1_rows _ _ _ _ _ _ _ _ p r q (fun k => ?_) ?_ (fun k => ?_) ?_
  · show V c main_v85 (((cfg5.win 0).blk t).view.emb (ix2 p k : S500x128.Idx)) = V c main_v85 (ix2 r k : S500x128.Idx)
    refine congrArg _ (funext fun a => Fin.ext ?_)
    match a with
    | ⟨0, _⟩ => show win5_0.index t (0 : Fin 2) * 500 + 1 * p.val = r.val; omega
    | ⟨1, _⟩ => show win5_0.index t (1 : Fin 2) * 128 + 1 * k.val = k.val; omega
  · show V c main_v41 (((cfg5.win 1).blk t).view.emb (ix2 p (0 : Fin 1) : S500x1.Idx)) = V c main_v41 (ix2 r (0 : Fin 1) : S500x1.Idx)
    refine congrArg _ (funext fun a => Fin.ext ?_)
    match a with
    | ⟨0, _⟩ => show win5_1.index t (0 : Fin 2) * 500 + 1 * p.val = r.val; omega
    | ⟨1, _⟩ => show win5_1.index t (1 : Fin 2) * 1 + 1 * (0 : Fin 1).val = (0 : Fin 1).val; omega
  · show V c main_arg21 (((cfg5.win 2).blk t).view.emb (ix2 k q : S128x128.Idx)) = V c main_arg21 (ix2 k q : S128x128.Idx)
    refine congrArg _ (funext fun a => Fin.ext ?_)
    match a with
    | ⟨0, _⟩ => show win5_2.index t (0 : Fin 2) * 128 + 1 * k.val = k.val; omega
    | ⟨1, _⟩ => show win5_2.index t (1 : Fin 2) * 128 + 1 * q.val = q.val; omega
  · show V c main_v91 (((cfg5.win 3).blk t).view.emb (ix2 (0 : Fin 1) q : S1x128.Idx)) = V c main_v91 (ix2 (0 : Fin 1) q : S1x128.Idx)
    refine congrArg _ (funext fun a => Fin.ext ?_)
    match a with
    | ⟨0, _⟩ => show win5_3.index t (0 : Fin 2) * 1 + 1 * (0 : Fin 1).val = (0 : Fin 1).val; omega
    | ⟨1, _⟩ => show win5_3.index t (1 : Fin 2) * 128 + 1 * q.val = q.val; omega

/-- An index of the result array is in point t's block iff each coordinate is in the block's range on its axis. -/
theorem mem_blk5 (t : Fin cfg5.N) (i : S500x128.Idx) :
    i ∈ ((cfg5.win 4).blk t).view.set ↔ ∀ a : Fin 2, win5_4.index t a * S500x128.size a ≤ (i a).val
      ∧ (i a).val < win5_4.index t a * S500x128.size a + S500x128.size a := by
  show i ∈ ((View.whole main_v92).slice (win5_4.rect t)).set ↔ _
  rw [View.set_slice_whole, Rect.mem_set_unit]
  exact Iff.rfl

/-- Row r of the result lies in the block of point r / 500. -/
theorem cover5 (i : S500x128.Idx) :
    ∃ t : Fin cfg5.N, (cfg5.win 4).flush t = true ∧ i ∈ ((cfg5.win 4).blk t).view.set := by
  have hi0 : (i 0).val < 500 := (i 0).isLt
  have hi1 : (i 1).val < 128 := (i 1).isLt
  have hN : cfg5.N = 1 := N_5
  obtain ⟨t, htv⟩ : ∃ t : Fin cfg5.N, t.val = (i 0).val / 500 := ⟨⟨(i 0).val / 500, by omega⟩, rfl⟩
  obtain ⟨-, -, -, -, -, -, -, -, e8, e9⟩ := idx5 t
  refine ⟨t, flush5_4 t, ?_⟩
  rw [mem_blk5]
  intro a
  match a with
  | ⟨0, _⟩ =>
    show win5_4.index t (0 : Fin 2) * 500 ≤ (i 0).val ∧ (i 0).val < win5_4.index t (0 : Fin 2) * 500 + 500
    omega
  | ⟨1, _⟩ =>
    show win5_4.index t (1 : Fin 2) * 128 ≤ (i 1).val ∧ (i 1).val < win5_4.index t (1 : Fin 2) * 128 + 128
    omega

/-- The result array after the region: the one-relation layer of the summed messages, the scale column, the weights and the bias row. -/
theorem out5 (c : Dev nD) :
    (dat5 (F := Ideal) V c).arrAt 4 cfg5.N
      = comb1 (V c main_v85 : S500x128.Idx → EReal) (V c main_v41 : S500x1.Idx → EReal) (V c main_arg21 : S128x128.Idx → EReal) (V c main_v91 : S1x128.Idx → EReal) :=
  (dat5 (F := Ideal) V c).arrAt_eq_of_cover 4 _ (fun t _ => flushed5 V c t) cover5

end Cert.KernelIdeal.Region

end
-- ==== Proof.FoldLayer1.lean ====
/-
  The first convolution layer at the boundaries of the fold.  The long host stretch before its first region computes,
  from the root features and the index vectors, the four aggregates and the four reciprocal in-degree columns; the
  three combine regions then leave the layer's features of posts, users and subs.
-/
import proofs.«118985_j35038343201327_2_alg».proof.Proof.Gen.KernelIdeal.Frame
import proofs.«118985_j35038343201327_2_alg».proof.Proof.KSpec
import proofs.«118985_j35038343201327_2_alg».proof.Proof.FoldArgsA
import proofs.«118985_j35038343201327_2_alg».proof.Proof.FoldArgsB
import proofs.«118985_j35038343201327_2_alg».proof.Proof.FoldRoots
import proofs.«118985_j35038343201327_2_alg».proof.Proof.Region3
import proofs.«118985_j35038343201327_2_alg».proof.Proof.Region4
import proofs.«118985_j35038343201327_2_alg».proof.Proof.Region5

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Hetero

variable (m : (ℓ : Loc nD τ sig) → Buf (Elt Ideal) ℓ) (ρ : Dev nD → PrngReg)

set_option maxHeartbeats 4000000 in
theorem v14_at7 (c : Dev nD) : W7 m ρ c (Proc.devRef .tc main_v14) = K.inv_up ((m ((c : Thread nD τ).loc main_arg4))) := by
  have h : W7 m ρ c (Proc.devRef .tc main_v14) = K.inv_up (W6 m ρ c (Proc.devRef .tc main_arg4)) := by
    show StableHlo.after hostOps3 (W6 m ρ c) (Proc.devRef .tc main_v14) = _
    after_results_simp; rfl
  rw [h, arg4_at6 m ρ c]

set_option maxHeartbeats 4000000 in
theorem v23_at7 (c : Dev nD) : W7 m ρ c (Proc.devRef .tc main_v23) = K.inv_rb ((m ((c : Thread nD τ).loc main_arg10))) := by
  have h : W7 m ρ c (Proc.devRef .tc main_v23) = K.inv_rb (W6 m ρ c (Proc.devRef .tc main_arg10)) := by
    show StableHlo.after hostOps3 (W6 m ρ c) (Proc.devRef .tc main_v23) = _
    after_results_simp; rfl
  rw [h, arg10_at6 m ρ c]

set_option maxHeartbeats 4000000 in
theorem v32_at7 (c : Dev nD) : W7 m ρ c (Proc.devRef .tc main_v32) = K.inv_ru ((m ((c : Thread nD τ).loc main_arg6))) := by
  have h : W7 m ρ c (Proc.devRef .tc main_v32) = K.inv_ru (W6 m ρ c (Proc.devRef .tc main_arg6)) := by
    show StableHlo.after hostOps3 (W6 m ρ c) (Proc.devRef .tc main_v32) = _
    after_results_simp; rfl
  rw [h, arg6_at6 m ρ c]

set_option maxHeartbeats 4000000 in
theorem v41_at7 (c : Dev nD) : W7 m ρ c (Proc.devRef .tc main_v41) = K.inv_bt ((m ((c : Thread nD τ).loc main_arg8))) := by
  have h : W7 m ρ c (Proc.devRef .tc main_v41) = K.inv_bt (W6 m ρ c (Proc.devRef .tc main_arg8)) := by
    show StableHlo.after hostOps3 (W6 m ρ c) (Proc.devRef .tc main_v41) = _
    after_results_simp; rfl
  rw [h, arg8_at6 m ρ c]

set_option maxHeartbeats 4000000 in
theorem v52_at7 (c : Dev nD) : W7 m ρ c (Proc.devRef .tc main_v52) = K.agg_up (K.hu (m ((c : Thread nD τ).loc main_arg0)) (m ((c : Thread nD τ).loc main_arg11)) (m ((c : Thread nD τ).loc main_arg12))) ((m ((c : Thread nD τ).loc main_arg3))) ((m ((c : Thread nD τ).loc main_arg4))) := by
  have h : W7 m ρ c (Proc.devRef .tc main_v52) = K.agg_up (W6 m ρ c (Proc.devRef .tc main_v1)) (W6 m ρ c (Proc.devRef .tc main_arg3)) (W6 m ρ c (Proc.devRef .tc main_arg4)) := by
    show StableHlo.after hostOps3 (W6 m ρ c) (Proc.devRef .tc main_v52) = _
    after_results_simp; rfl
  rw [h, hu_at6 m ρ c, arg3_at6 m ρ c, arg4_at6 m ρ c]

set_option maxHeartbeats 4000000 in
theorem v63_at7 (c : Dev nD) : W7 m ρ c (Proc.devRef .tc main_v63) = K.agg_rb (K.hs (m ((c : Thread nD τ).loc main_arg2)) (m ((c : Thread nD τ).loc main_arg15)) (m ((c : Thread nD τ).loc main_arg16))) ((m ((c : Thread nD τ).loc main_arg9))) ((m ((c : Thread nD τ).loc main_arg10))) := by
  have h : W7 m ρ c (Proc.devRef .tc main_v63) = K.agg_rb (W6 m ρ c (Proc.devRef .tc main_v5)) (W6 m ρ c (Proc.devRef .tc main_arg9)) (W6 m ρ c (Proc.devRef .tc main_arg10)) := by
    show StableHlo.after hostOps3 (W6 m ρ c) (Proc.devRef .tc main_v63) = _
    after_results_simp; rfl
  rw [h, hs_at6 m ρ c, arg9_at6 m ρ c, arg10_at6 m ρ c]

set_option maxHeartbeats 4000000 in
theorem v74_at7 (c : Dev nD) : W7 m ρ c (Proc.devRef .tc main_v74) = K.agg_ru (K.hp (m ((c : Thread nD τ).loc main_arg1)) (m ((c : Thread nD τ).loc main_arg13)) (m ((c : Thread nD τ).loc main_arg14))) ((m ((c : Thread nD τ).loc main_arg5))) ((m ((c : Thread nD τ).loc main_arg6))) := by
  have h : W7 m ρ c (Proc.devRef .tc main_v74) = K.agg_ru (W6 m ρ c (Proc.devRef .tc main_v3)) (W6 m ρ c (Proc.devRef .tc main_arg5)) (W6 m ρ c (Proc.devRef .tc main_arg6)) := by
    show StableHlo.after hostOps3 (W6 m ρ c) (Proc.devRef .tc main_v74) = _
    after_results_simp; rfl
  rw [h, hp_at6 m ρ c, arg5_at6 m ρ c, arg6_at6 m ρ c]

set_option maxHeartbeats 4000000 in
theorem v85_at7 (c : Dev nD) : W7 m ρ c (Proc.devRef .tc main_v85) = K.agg_bt (K.hp (m ((c : Thread nD τ).loc main_arg1)) (m ((c : Thread nD τ).loc main_arg13)) (m ((c : Thread nD τ).loc main_arg14))) ((m ((c : Thread nD τ).loc main_arg7))) ((m ((c : Thread nD τ).loc main_arg8))) := by
  have h : W7 m ρ c (Proc.devRef .tc main_v85) = K.agg_bt (W6 m ρ c (Proc.devRef .tc main_v3)) (W6 m ρ c (Proc.devRef .tc main_arg7)) (W6 m ρ c (Proc.devRef .tc main_arg8)) := by
    show StableHlo.after hostOps3 (W6 m ρ c) (Proc.devRef .tc main_v85) = _
    after_results_simp; rfl
  rw [h, hp_at6 m ρ c, arg7_at6 m ρ c, arg8_at6 m ρ c]

set_option maxHeartbeats 4000000 in
theorem v86_at7 (c : Dev nD) : W7 m ρ c (Proc.devRef .tc main_v86) = K.row ((m ((c : Thread nD τ).loc main_arg18))) := by
  have h : W7 m ρ c (Proc.devRef .tc main_v86) = K.row (W6 m ρ c (Proc.devRef .tc main_arg18)) := by
    show StableHlo.after hostOps3 (W6 m ρ c) (Proc.devRef .tc main_v86) = _
    after_results_simp; rfl
  rw [h, arg18_at6 m ρ c]

set_option maxHeartbeats 4000000 in
theorem v87_at7 (c : Dev nD) : W7 m ρ c (Proc.devRef .tc main_v87) = K.row ((m ((c : Thread nD τ).loc main_arg24))) := by
  have h : W7 m ρ c (Proc.devRef .tc main_v87) = K.row (W6 m ρ c (Proc.devRef .tc main_arg24)) := by
    show StableHlo.after hostOps3 (W6 m ρ c) (Proc.devRef .tc main_v87) = _
    after_results_simp; rfl
  rw [h, arg24_at6 m ρ c]

theorem p1_at8 (c : Dev nD) : W8 m ρ c (Proc.devRef .tc main_v88) = K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) := by
  refine (W8_arr m ρ c 8).trans ?_
  rw [Cert.KernelIdeal.Region.out3 (V7 m ρ) c]
  rw [show V7 m ρ c main_v52 = K.agg_up (K.hu (m ((c : Thread nD τ).loc main_arg0)) (m ((c : Thread nD τ).loc main_arg11)) (m ((c : Thread nD τ).loc main_arg12))) (m ((c : Thread nD τ).loc main_arg3)) (m ((c : Thread nD τ).loc main_arg4)) from v52_at7 m ρ c,
    show V7 m ρ c main_v14 = K.inv_up (m ((c : Thread nD τ).loc main_arg4)) from v14_at7 m ρ c,
    show V7 m ρ c main_arg17 = (m ((c : Thread nD τ).loc main_arg17)) from arg17_at7 m ρ c,
    show V7 m ρ c main_v86 = K.row (m ((c : Thread nD τ).loc main_arg18)) from v86_at7 m ρ c,
    show V7 m ρ c main_v63 = K.agg_rb (K.hs (m ((c : Thread nD τ).loc main_arg2)) (m ((c : Thread nD τ).loc main_arg15)) (m ((c : Thread nD τ).loc main_arg16))) (m ((c : Thread nD τ).loc main_arg9)) (m ((c : Thread nD τ).loc main_arg10)) from v63_at7 m ρ c,
    show V7 m ρ c main_v23 = K.inv_rb (m ((c : Thread nD τ).loc main_arg10)) from v23_at7 m ρ c,
    show V7 m ρ c main_arg23 = (m ((c : Thread nD τ).loc main_arg23)) from arg23_at7 m ρ c,
    show V7 m ρ c main_v87 = K.row (m ((c : Thread nD τ).loc main_arg24)) from v87_at7 m ρ c]
  rfl

theorem v74_keep9_7 (c : Dev nD) : W9 m ρ c (Proc.devRef .tc main_v74) = W7 m ρ c (Proc.devRef .tc main_v74) :=
  calc W9 m ρ c (Proc.devRef .tc main_v74)
    _ = W8 m ρ c (Proc.devRef .tc main_v74) := (StableHlo.after_of_forall_not_mem (b := Proc.devRef .tc main_v74) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v74) := W8_of_ne m ρ c main_v74 (by decide)

theorem v32_keep9_7 (c : Dev nD) : W9 m ρ c (Proc.devRef .tc main_v32) = W7 m ρ c (Proc.devRef .tc main_v32) :=
  calc W9 m ρ c (Proc.devRef .tc main_v32)
    _ = W8 m ρ c (Proc.devRef .tc main_v32) := (StableHlo.after_of_forall_not_mem (b := Proc.devRef .tc main_v32) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v32) := W8_of_ne m ρ c main_v32 (by decide)

theorem v89_at9 (c : Dev nD) : W9 m ρ c (Proc.devRef .tc main_v89) = K.row (m ((c : Thread nD τ).loc main_arg20)) := by
  have h : W9 m ρ c (Proc.devRef .tc main_v89) = K.row (W8 m ρ c (Proc.devRef .tc main_arg20)) := by
    show StableHlo.after hostOps4 (W8 m ρ c) (Proc.devRef .tc main_v89) = _
    after_results; rfl
  rw [h, arg20_at8 m ρ c]

theorem u1_at10 (c : Dev nD) : W10 m ρ c (Proc.devRef .tc main_v90) = K.u1 (m ((c : Thread nD τ).loc main_arg1)) (m ((c : Thread nD τ).loc main_arg5)) (m ((c : Thread nD τ).loc main_arg6)) (m ((c : Thread nD τ).loc main_arg13)) (m ((c : Thread nD τ).loc main_arg14)) (m ((c : Thread nD τ).loc main_arg19)) (m ((c : Thread nD τ).loc main_arg20)) := by
  refine (W10_arr m ρ c 4).trans ?_
  rw [Cert.KernelIdeal.Region.out4 (V9 m ρ) c]
  rw [show V9 m ρ c main_v74 = K.agg_ru (K.hp (m ((c : Thread nD τ).loc main_arg1)) (m ((c : Thread nD τ).loc main_arg13)) (m ((c : Thread nD τ).loc main_arg14))) (m ((c : Thread nD τ).loc main_arg5)) (m ((c : Thread nD τ).loc main_arg6)) from (v74_keep9_7 m ρ c).trans (v74_at7 m ρ c),
    show V9 m ρ c main_v32 = K.inv_ru (m ((c : Thread nD τ).loc main_arg6)) from (v32_keep9_7 m ρ c).trans (v32_at7 m ρ c),
    show V9 m ρ c main_arg19 = (m ((c : Thread nD τ).loc main_arg19)) from arg19_at9 m ρ c,
    show V9 m ρ c main_v89 = K.row (m ((c : Thread nD τ).loc main_arg20)) from v89_at9 m ρ c]
  rfl

theorem v85_keep11_7 (c : Dev nD) : W11 m ρ c (Proc.devRef .tc main_v85) = W7 m ρ c (Proc.devRef .tc main_v85) :=
  calc W11 m ρ c (Proc.devRef .tc main_v85)
    _ = W10 m ρ c (Proc.devRef .tc main_v85) := (StableHlo.after_of_forall_not_mem (b := Proc.devRef .tc main_v85) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v85) := W10_of_ne m ρ c main_v85 (by decide)
    _ = W8 m ρ c (Proc.devRef .tc main_v85) := (StableHlo.after_of_forall_not_mem (b := Proc.devRef .tc main_v85) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v85) := W8_of_ne m ρ c main_v85 (by decide)

theorem v41_keep11_7 (c : Dev nD) : W11 m ρ c (Proc.devRef .tc main_v41) = W7 m ρ c (Proc.devRef .tc main_v41) :=
  calc W11 m ρ c (Proc.devRef .tc main_v41)
    _ = W10 m ρ c (Proc.devRef .tc main_v41) := (StableHlo.after_of_forall_not_mem (b := Proc.devRef .tc main_v41) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v41) := W10_of_ne m ρ c main_v41 (by decide)
    _ = W8 m ρ c (Proc.devRef .tc main_v41) := (StableHlo.after_of_forall_not_mem (b := Proc.devRef .tc main_v41) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v41) := W8_of_ne m ρ c main_v41 (by decide)

theorem v91_at11 (c : Dev nD) : W11 m ρ c (Proc.devRef .tc main_v91) = K.row (m ((c : Thread nD τ).loc main_arg22)) := by
  have h : W11 m ρ c (Proc.devRef .tc main_v91) = K.row (W10 m ρ c (Proc.devRef .tc main_arg22)) := by
    show StableHlo.after hostOps5 (W10 m ρ c) (Proc.devRef .tc main_v91) = _
    after_results; rfl
  rw [h, arg22_at10 m ρ c]

theorem s1_at12 (c : Dev nD) : W12 m ρ c (Proc.devRef .tc main_v92) = K.s1 (m ((c : Thread nD τ).loc main_arg1)) (m ((c : Thread nD τ).loc main_arg7)) (m ((c : Thread nD τ).loc main_arg8)) (m ((c : Thread nD τ).loc main_arg13)) (m ((c : Thread nD τ).loc main_arg14)) (m ((c : Thread nD τ).loc main_arg21)) (m ((c : Thread nD τ).loc main_arg22)) := by
  refine (W12_arr m ρ c 4).trans ?_
  rw [Cert.KernelIdeal.Region.out5 (V11 m ρ) c]
  rw [show V11 m ρ c main_v85 = K.agg_bt (K.hp (m ((c : Thread nD τ).loc main_arg1)) (m ((c : Thread nD τ).loc main_arg13)) (m ((c : Thread nD τ).loc main_arg14))) (m ((c : Thread nD τ).loc main_arg7)) (m ((c : Thread nD τ).loc main_arg8)) from (v85_keep11_7 m ρ c).trans (v85_at7 m ρ c),
    show V11 m ρ c main_v41 = K.inv_bt (m ((c : Thread nD τ).loc main_arg8)) from (v41_keep11_7 m ρ c).trans (v41_at7 m ρ c),
    show V11 m ρ c main_arg21 = (m ((c : Thread nD τ).loc main_arg21)) from arg21_at11 m ρ c,
    show V11 m ρ c main_v91 = K.row (m ((c : Thread nD τ).loc main_arg22)) from v91_at11 m ρ c]
  rfl

end Cert.KernelIdeal.Fold

end
-- ==== Proof.Region6.lean ====
/-
  The second two-relation layer (100000 rows in 50 blocks of 2000) as one function of whole arrays.

  Grid point t stages rows 2000·t … 2000·t + 1999 of each relation's summed messages and column of scale factors,
  together with both whole weight matrices and both whole bias rows, and writes back the same rows of the result.
  Entry (p, q) of what it writes is the first relation's scaled product entry plus its bias entry, plus the second
  relation's scaled product entry, plus the second bias entry, clamped below at zero: entry (2000·t + p, q) of the
  two-relation layer of the whole arrays.  The blocks tile the result (row r lies in block r / 2000), so the result
  array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the two-relation body of the eight loaded blocks. -/
theorem pay6_at (v0 : FVec Ideal S2000x128 .f32) (v3 : FVec Ideal S128x128 .f32) (v6 : FVec Ideal S2000x1 .f32) (v10 : FVec Ideal S1x128 .f32)
    (v14 : FVec Ideal S2000x128 .f32) (v17 : FVec Ideal S128x128 .f32) (v20 : FVec Ideal S2000x1 .f32) (v25 : FVec Ideal S1x128 .f32)
    (p : Fin 2000) (q : Fin 128) :
    k6_pay1 (F := Ideal) v0 v3 v6 v10 v14 v17 v20 v25 (ix2 p q) = comb2 v0 v6 v3 v10 v14 v20 v17 v25 (ix2 p q) :=
  ((relation2_at dot_S2000x128_S128x128_S2000x128_1_0_0_1_n_n rfl rfl rfl rfl rfl rfl
    (truncf (φ := .f32) .bf16 (shapeCast S2000x128 v0 shapeCasts_S2000x128_S2000x128) bitsLt_bf16_f32)
    (truncf (φ := .f32) .bf16 v3 bitsLt_bf16_f32) v6 v10
    (truncf (φ := .f32) .bf16 (shapeCast S2000x128 v14 shapeCasts_S2000x128_S2000x128) bitsLt_bf16_f32)
    (truncf (φ := .f32) .bf16 v17 bitsLt_bf16_f32) v20 v25
    shapeCasts_S2000x1_S2000x1 broadcasts_S2000x1_S2000x128 shapeCasts_S1x128_S1x128 broadcasts_S1x128_S2000x128
    shapeCasts_S2000x1_S2000x1 broadcasts_S2000x1_S2000x128 shapeCasts_S1x128_S1x128 broadcasts_S1x128_S2000x128 p q).trans
    (congrArg (fun x : S2000x128.Idx → EReal => comb2 x v6 v3 v10 (shapeCast S2000x128 v14 shapeCasts_S2000x128_S2000x128) v20 v17 v25 (ix2 p q))
      (shapeCast_self v0 shapeCasts_S2000x128_S2000x128))).trans
    (congrArg (fun x : S2000x128.Idx → EReal => comb2 v0 v6 v3 v10 x v20 v17 v25 (ix2 p q)) (shapeCast_self v14 shapeCasts_S2000x128_S2000x128))

/-- The block indices over the grid: the row-wise windows and the result window move down one block of rows per
    point, the shared windows stay on their whole arrays. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0
    ∧ win6_5.index t (0 : Fin 2) = t.val
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = t.val
    ∧ win6_8.index t (1 : Fin 2) = 0 :=
  (by decide +kernel : ∀ t : Fin grid6.N, _)

set_option maxHeartbeats 1000000 in
/-- What point t writes back is block t of the layer of the arrays as the region finds them. -/
theorem flushed6 (c : Dev nD) (t : Fin cfg6.N) :
    (dat6 (F := Ideal) V c).flushed 8 t = ((cfg6.win 8).blk t).view.read (Elt Ideal)
      (comb2 (V c main_v103 : S100000x128.Idx → EReal) (V c main_v14 : S100000x1.Idx → EReal) (V c main_arg25 : S128x128.Idx → EReal) (V c main_v137 : S1x128.Idx → EReal) (V c main_v114 : S100000x128.Idx → EReal) (V c main_v23 : S100000x1.Idx → EReal) (V c main_arg31 : S128x128.Idx → EReal) (V c main_v138 : S1x128.Idx → EReal)) := by
  show (cfg6.win 8).cut (grid6.coords t) ((dat6 (F := Ideal) V c).after 8 t) = _
  rw [after6_8]
  unfold out6_8
  rw [View.canon_unit_zero zero2]
  simp only [View.ld_unit_zero (S := S2000x128) zero2, View.ld_unit_zero (S := S2000x1) zero2, View.ld_unit_zero (S := S128x128) zero2, View.ld_unit_zero (S := S1x128) zero2]
  obtain ⟨e0, e1, e2, e3, e4, e5, e6, e7, e8, e9, e10, e11, e12, e13, e14, e15, e16, e17⟩ := idx6 t
  have hN : cfg6.N = 50 := N_6
  have ht : t.val < 50 := by have := t.isLt; omega
  funext j
  have hp : (j 0).val < 2000 := (j 0).isLt
  have hq : (j 1).val < 128 := (j 1).isLt
  obtain ⟨p, hpv⟩ : ∃ p : Fin 2000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 100000, r.val = t.val * 2000 + (j 0).val := ⟨⟨_, by omega⟩, rfl⟩
  have hL : (cfg6.win 8).xinj (grid6.coords t) j = (ix2 p q : S2000x128.Idx) :=
    funext fun a => Fin.ext (by
      match a with
      | ⟨0, _⟩ => exact hpv.symm
      | ⟨1, _⟩ => exact hqv.symm)
  have hR : ((cfg6.win 8).blk t).view.emb j = (ix2 r q : S100000x128.Idx) :=
    funext fun a => Fin.ext (by
      match a with
      | ⟨0, _⟩ => show win6_8.index t (0 : Fin 2) * 2000 + 1 * (j 0).val = r.val; omega
      | ⟨1, _⟩ => show win6_8.index t (1 : Fin 2) * 128 + 1 * (j 1).val = q.val; omega)
  show k6_pay1 (F := Ideal) (iblk6 V c 0 t) (iblk6 V c 2 t) (iblk6 V c 1 t) (iblk6 V c 3 t) (iblk6 V c 4 t) (iblk6 V c 6 t) (iblk6 V c 5 t) (iblk6 V c 7 t) ((cfg6.win 8).xinj (grid6.coords t) j)
    = (comb2 (V c main_v103 : S100000x128.Idx → EReal) (V c main_v14 : S100000x1.Idx → EReal) (V c main_arg25 : S128x128.Idx → EReal) (V c main_v137 : S1x128.Idx → EReal) (V c main_v114 : S100000x128.Idx → EReal) (V c main_v23 : S100000x1.Idx → EReal) (V c main_arg31 : S128x128.Idx → EReal) (V c main_v138 : S1x128.Idx → EReal))
        (((cfg6.win 8).blk t).view.emb j)
  rw [hL, hR]
  refine (pay6_at (iblk6 V c 0 t) (iblk6 V c 2 t) (iblk6 V c 1 t) (iblk6 V c 3 t) (iblk6 V c 4 t) (iblk6 V c 6 t) (iblk6 V c 5 t) (iblk6 V c 7 t) p q).trans ?_
  refine comb2_rows _ _ _ _ _ _ _ _ _ _ _ _ _ _ _ _ p r q (fun k => ?_) ?_ (fun k => ?_) ?_ (fun k => ?_) ?_ (fun k => ?_) ?_
  · show V c main_v103 (((cfg6.win 0).blk t).view.emb (ix2 p k : S2000x128.Idx)) = V c main_v103 (ix2 r k : S100000x128.Idx)
    refine congrArg _ (funext fun a => Fin.ext ?_)
    match a with
    | ⟨0, _⟩ => show win6_0.index t (0 : Fin 2) * 2000 + 1 * p.val = r.val; omega
    | ⟨1, _⟩ => show win6_0.index t (1 : Fin 2) * 128 + 1 * k.val = k.val; omega
  · show V c main_v14 (((cfg6.win 1).blk t).view.emb (ix2 p (0 : Fin 1) : S2000x1.Idx)) = V c main_v14 (ix2 r (0 : Fin 1) : S100000x1.Idx)
    refine congrArg _ (funext fun a => Fin.ext ?_)
    match a with
    | ⟨0, _⟩ => show win6_1.index t (0 : Fin 2) * 2000 + 1 * p.val = r.val; omega
    | ⟨1, _⟩ => show win6_1.index t (1 : Fin 2) * 1 + 1 * (0 : Fin 1).val = (0 : Fin 1).val; omega
  · show V c main_arg25 (((cfg6.win 2).blk t).view.emb (ix2 k q : S128x128.Idx)) = V c main_arg25 (ix2 k q : S128x128.Idx)
    refine congrArg _ (funext fun a => Fin.ext ?_)
    match a with
    | ⟨0, _⟩ => show win6_2.index t (0 : Fin 2) * 128 + 1 * k.val = k.val; omega
    | ⟨1, _⟩ => show win6_2.index t (1 : Fin 2) * 128 + 1 * q.val = q.val; omega
  · show V c main_v137 (((cfg6.win 3).blk t).view.emb (ix2 (0 : Fin 1) q : S1x128.Idx)) = V c main_v137 (ix2 (0 : Fin 1) q : S1x128.Idx)
    refine congrArg _ (funext fun a => Fin.ext ?_)
    match a with
    | ⟨0, _⟩ => show win6_3.index t (0 : Fin 2) * 1 + 1 * (0 : Fin 1).val = (0 : Fin 1).val; omega
    | ⟨1, _⟩ => show win6_3.index t (1 : Fin 2) * 128 + 1 * q.val = q.val; omega
  · show V c main_v114 (((cfg6.win 4).blk t).view.emb (ix2 p k : S2000x128.Idx)) = V c main_v114 (ix2 r k : S100000x128.Idx)
    refine congrArg _ (funext fun a => Fin.ext ?_)
    match a with
    | ⟨0, _⟩ => show win6_4.index t (0 : Fin 2) * 2000 + 1 * p.val = r.val; omega
    | ⟨1, _⟩ => show win6_4.index t (1 : Fin 2) * 128 + 1 * k.val = k.val; omega
  · show V c main_v23 (((cfg6.win 5).blk t).view.emb (ix2 p (0 : Fin 1) : S2000x1.Idx)) = V c main_v23 (ix2 r (0 : Fin 1) : S100000x1.Idx)
    refine congrArg _ (funext fun a => Fin.ext ?_)
    match a with
    | ⟨0, _⟩ => show win6_5.index t (0 : Fin 2) * 2000 + 1 * p.val = r.val; omega
    | ⟨1, _⟩ => show win6_5.index t (1 : Fin 2) * 1 + 1 * (0 : Fin 1).val = (0 : Fin 1).val; omega
  · show V c main_arg31 (((cfg6.win 6).blk t).view.emb (ix2 k q : S128x128.Idx)) = V c main_arg31 (ix2 k q : S128x128.Idx)
    refine congrArg _ (funext fun a => Fin.ext ?_)
    match a with
    | ⟨0, _⟩ => show win6_6.index t (0 : Fin 2) * 128 + 1 * k.val = k.val; omega
    | ⟨1, _⟩ => show win6_6.index t (1 : Fin 2) * 128 + 1 * q.val = q.val; omega
  · show V c main_v138 (((cfg6.win 7).blk t).view.emb (ix2 (0 : Fin 1) q : S1x128.Idx)) = V c main_v138 (ix2 (0 : Fin 1) q : S1x128.Idx)
    refine congrArg _ (funext fun a => Fin.ext ?_)
    match a with
    | ⟨0, _⟩ => show win6_7.index t (0 : Fin 2) * 1 + 1 * (0 : Fin 1).val = (0 : Fin 1).val; omega
    | ⟨1, _⟩ => show win6_7.index t (1 : Fin 2) * 128 + 1 * q.val = q.val; omega

/-- An index of the result array is in point t's block iff each coordinate is in the block's range on its axis. -/
theorem mem_blk6 (t : Fin cfg6.N) (i : S100000x128.Idx) :
    i ∈ ((cfg6.win 8).blk t).view.set ↔ ∀ a : Fin 2, win6_8.index t a * S2000x128.size a ≤ (i a).val
      ∧ (i a).val < win6_8.index t a * S2000x128.size a + S2000x128.size a := by
  show i ∈ ((View.whole main_v139).slice (win6_8.rect t)).set ↔ _
  rw [View.set_slice_whole, Rect.mem_set_unit]
  exact Iff.rfl

/-- Row r of the result lies in the block of point r / 2000. -/
theorem cover6 (i : S100000x128.Idx) :
    ∃ t : Fin cfg6.N, (cfg6.win 8).flush t = true ∧ i ∈ ((cfg6.win 8).blk t).view.set := by
  have hi0 : (i 0).val < 100000 := (i 0).isLt
  have hi1 : (i 1).val < 128 := (i 1).isLt
  have hN : cfg6.N = 50 := N_6
  obtain ⟨t, htv⟩ : ∃ t : Fin cfg6.N, t.val = (i 0).val / 2000 := ⟨⟨(i 0).val / 2000, by omega⟩, rfl⟩
  obtain ⟨-, -, -, -, -, -, -, -, -, -, -, -, -, -, -, -, e16, e17⟩ := idx6 t
  refine ⟨t, flush6_8 t, ?_⟩
  rw [mem_blk6]
  intro a
  match a with
  | ⟨0, _⟩ =>
    show win6_8.index t (0 : Fin 2) * 2000 ≤ (i 0).val ∧ (i 0).val < win6_8.index t (0 : Fin 2) * 2000 + 2000
    omega
  | ⟨1, _⟩ =>
    show win6_8.index t (1 : Fin 2) * 128 ≤ (i 1).val ∧ (i 1).val < win6_8.index t (1 : Fin 2) * 128 + 128
    omega

/-- The result array after the region: the two-relation layer of the summed messages, scale columns, weights and bias rows. -/
theorem out6 (c : Dev nD) :
    (dat6 (F := Ideal) V c).arrAt 8 cfg6.N
      = comb2 (V c main_v103 : S100000x128.Idx → EReal) (V c main_v14 : S100000x1.Idx → EReal) (V c main_arg25 : S128x128.Idx → EReal) (V c main_v137 : S1x128.Idx → EReal) (V c main_v114 : S100000x128.Idx → EReal) (V c main_v23 : S100000x1.Idx → EReal) (V c main_arg31 : S128x128.Idx → EReal) (V c main_v138 : S1x128.Idx → EReal) :=
  (dat6 (F := Ideal) V c).arrAt_eq_of_cover 8 _ (fun t _ => flushed6 V c t) cover6

end Cert.KernelIdeal.Region

end
-- ==== Proof.Region7.lean ====
/-
  The second one-relation layer on 50000 rows (50000 rows in 10 blocks of 5000) as one function of whole arrays.

  Grid point t stages rows 5000·t … 5000·t + 4999 of the summed messages and of the column of scale factors,
  together with the whole weight matrix and the whole bias row, and writes back the same rows of the result.  Entry
  (p, q) of what it writes is (row p of the block against column q of the weights) times the row's scale factor, plus
  the bias entry q, clamped below at zero: entry (5000·t + p, q) of the one-relation layer of the whole arrays.  The
  blocks tile the result (row r lies in block r / 5000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the one-relation body of the four loaded blocks. -/
theorem pay7_at (v0 : FVec Ideal S5000x128 .f32) (v3 : FVec Ideal S128x128 .f32) (v6 : FVec Ideal S5000x1 .f32) (v10 : FVec Ideal S1x128 .f32)
    (p : Fin 5000) (q : Fin 128) :
    k7_pay1 (F := Ideal) v0 v3 v6 v10 (ix2 p q) = comb1 v0 v6 v3 v10 (ix2 p q) :=
  (relation1_at dot_S5000x128_S128x128_S5000x128_1_0_0_1_n_n rfl rfl rfl rfl rfl rfl
    (truncf (φ := .f32) .bf16 (shapeCast S5000x128 v0 shapeCasts_S5000x128_S5000x128) bitsLt_bf16_f32)
    (truncf (φ := .f32) .bf16 v3 bitsLt_bf16_f32) v6 v10
    shapeCasts_S5000x1_S5000x1 broadcasts_S5000x1_S5000x128 shapeCasts_S1x128_S1x128 broadcasts_S1x128_S5000x128 p q).trans
    (congrArg (fun x : S5000x128.Idx → EReal => comb1 x v6 v3 v10 (ix2 p q)) (shapeCast_self v0 shapeCasts_S5000x128_S5000x128))

/-- The block indices over the grid: the row-wise windows and the result window move down one block of rows per
    point, the shared windows stay on their whole arrays. -/
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

set_option maxHeartbeats 1000000 in
/-- What point t writes back is block t of the layer of the arrays as the region finds them. -/
theorem flushed7 (c : Dev nD) (t : Fin cfg7.N) :
    (dat7 (F := Ideal) V c).flushed 4 t = ((cfg7.win 4).blk t).view.read (Elt Ideal)
      (comb1 (V c main_v125 : S50000x128.Idx → EReal) (V c main_v32 : S50000x1.Idx → EReal) (V c main_arg27 : S128x128.Idx → EReal) (V c main_v140 : S1x128.Idx → EReal)) := by
  show (cfg7.win 4).cut (grid7.coords t) ((dat7 (F := Ideal) V c).after 4 t) = _
  rw [after7_4]
  unfold out7_4
  rw [View.canon_unit_zero zero2]
  simp only [View.ld_unit_zero (S := S5000x128) zero2, View.ld_unit_zero (S := S5000x1) zero2, View.ld_unit_zero (S := S128x128) zero2, View.ld_unit_zero (S := S1x128) zero2]
  obtain ⟨e0, e1, e2, e3, e4, e5, e6, e7, e8, e9⟩ := idx7 t
  have hN : cfg7.N = 10 := N_7
  have ht : t.val < 10 := by have := t.isLt; omega
  funext j
  have hp : (j 0).val < 5000 := (j 0).isLt
  have hq : (j 1).val < 128 := (j 1).isLt
  obtain ⟨p, hpv⟩ : ∃ p : Fin 5000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 50000, r.val = t.val * 5000 + (j 0).val := ⟨⟨_, by omega⟩, rfl⟩
  have hL : (cfg7.win 4).xinj (grid7.coords t) j = (ix2 p q : S5000x128.Idx) :=
    funext fun a => Fin.ext (by
      match a with
      | ⟨0, _⟩ => exact hpv.symm
      | ⟨1, _⟩ => exact hqv.symm)
  have hR : ((cfg7.win 4).blk t).view.emb j = (ix2 r q : S50000x128.Idx) :=
    funext fun a => Fin.ext (by
      match a with
      | ⟨0, _⟩ => show win7_4.index t (0 : Fin 2) * 5000 + 1 * (j 0).val = r.val; omega
      | ⟨1, _⟩ => show win7_4.index t (1 : Fin 2) * 128 + 1 * (j 1).val = q.val; omega)
  show k7_pay1 (F := Ideal) (iblk7 V c 0 t) (iblk7 V c 2 t) (iblk7 V c 1 t) (iblk7 V c 3 t) ((cfg7.win 4).xinj (grid7.coords t) j)
    = (comb1 (V c main_v125 : S50000x128.Idx → EReal) (V c main_v32 : S50000x1.Idx → EReal) (V c main_arg27 : S128x128.Idx → EReal) (V c main_v140 : S1x128.Idx → EReal))
        (((cfg7.win 4).blk t).view.emb j)
  rw [hL, hR]
  refine (pay7_at (iblk7 V c 0 t) (iblk7 V c 2 t) (iblk7 V c 1 t) (iblk7 V c 3 t) p q).trans ?_
  refine comb1_rows _ _ _ _ _ _ _ _ p r q (fun k => ?_) ?_ (fun k => ?_) ?_
  · show V c main_v125 (((cfg7.win 0).blk t).view.emb (ix2 p k : S5000x128.Idx)) = V c main_v125 (ix2 r k : S50000x128.Idx)
    refine congrArg _ (funext fun a => Fin.ext ?_)
    match a with
    | ⟨0, _⟩ => show win7_0.index t (0 : Fin 2) * 5000 + 1 * p.val = r.val; omega
    | ⟨1, _⟩ => show win7_0.index t (1 : Fin 2) * 128 + 1 * k.val = k.val; omega
  · show V c main_v32 (((cfg7.win 1).blk t).view.emb (ix2 p (0 : Fin 1) : S5000x1.Idx)) = V c main_v32 (ix2 r (0 : Fin 1) : S50000x1.Idx)
    refine congrArg _ (funext fun a => Fin.ext ?_)
    match a with
    | ⟨0, _⟩ => show win7_1.index t (0 : Fin 2) * 5000 + 1 * p.val = r.val; omega
    | ⟨1, _⟩ => show win7_1.index t (1 : Fin 2) * 1 + 1 * (0 : Fin 1).val = (0 : Fin 1).val; omega
  · show V c main_arg27 (((cfg7.win 2).blk t).view.emb (ix2 k q : S128x128.Idx)) = V c main_arg27 (ix2 k q : S128x128.Idx)
    refine congrArg _ (funext fun a => Fin.ext ?_)
    match a with
    | ⟨0, _⟩ => show win7_2.index t (0 : Fin 2) * 128 + 1 * k.val = k.val; omega
    | ⟨1, _⟩ => show win7_2.index t (1 : Fin 2) * 128 + 1 * q.val = q.val; omega
  · show V c main_v140 (((cfg7.win 3).blk t).view.emb (ix2 (0 : Fin 1) q : S1x128.Idx)) = V c main_v140 (ix2 (0 : Fin 1) q : S1x128.Idx)
    refine congrArg _ (funext fun a => Fin.ext ?_)
    match a with
    | ⟨0, _⟩ => show win7_3.index t (0 : Fin 2) * 1 + 1 * (0 : Fin 1).val = (0 : Fin 1).val; omega
    | ⟨1, _⟩ => show win7_3.index t (1 : Fin 2) * 128 + 1 * q.val = q.val; omega

/-- An index of the result array is in point t's block iff each coordinate is in the block's range on its axis. -/
theorem mem_blk7 (t : Fin cfg7.N) (i : S50000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v141).slice (win7_4.rect t)).set ↔ _
  rw [View.set_slice_whole, Rect.mem_set_unit]
  exact Iff.rfl

/-- Row r of the result lies in the block of point r / 5000. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 10 := N_7
  obtain ⟨t, htv⟩ : ∃ t : Fin cfg7.N, t.val = (i 0).val / 5000 := ⟨⟨(i 0).val / 5000, by omega⟩, rfl⟩
  obtain ⟨-, -, -, -, -, -, -, -, e8, e9⟩ := idx7 t
  refine ⟨t, flush7_4 t, ?_⟩
  rw [mem_blk7]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 128 ≤ (i 1).val ∧ (i 1).val < win7_4.index t (1 : Fin 2) * 128 + 128
    omega

/-- The result array after the region: the one-relation layer of the summed messages, the scale column, the weights and the bias row. -/
theorem out7 (c : Dev nD) :
    (dat7 (F := Ideal) V c).arrAt 4 cfg7.N
      = comb1 (V c main_v125 : S50000x128.Idx → EReal) (V c main_v32 : S50000x1.Idx → EReal) (V c main_arg27 : S128x128.Idx → EReal) (V c main_v140 : S1x128.Idx → EReal) :=
  (dat7 (F := Ideal) V c).arrAt_eq_of_cover 4 _ (fun t _ => flushed7 V c t) cover7

end Cert.KernelIdeal.Region

end
-- ==== Proof.Region8.lean ====
/-
  The second one-relation layer on 500 rows (500 rows in 1 block of 500) as one function of whole arrays.

  Grid point t stages rows 500·t … 500·t + 499 of the summed messages and of the column of scale factors,
  together with the whole weight matrix and the whole bias row, and writes back the same rows of the result.  Entry
  (p, q) of what it writes is (row p of the block against column q of the weights) times the row's scale factor, plus
  the bias entry q, clamped below at zero: entry (500·t + p, q) of the one-relation layer of the whole arrays.  The
  blocks tile the result (row r lies in block r / 500), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the one-relation body of the four loaded blocks. -/
theorem pay8_at (v0 : FVec Ideal S500x128 .f32) (v3 : FVec Ideal S128x128 .f32) (v6 : FVec Ideal S500x1 .f32) (v10 : FVec Ideal S1x128 .f32)
    (p : Fin 500) (q : Fin 128) :
    k8_pay1 (F := Ideal) v0 v3 v6 v10 (ix2 p q) = comb1 v0 v6 v3 v10 (ix2 p q) :=
  (relation1_at dot_S500x128_S128x128_S500x128_1_0_0_1_n_n rfl rfl rfl rfl rfl rfl
    (truncf (φ := .f32) .bf16 (shapeCast S500x128 v0 shapeCasts_S500x128_S500x128) bitsLt_bf16_f32)
    (truncf (φ := .f32) .bf16 v3 bitsLt_bf16_f32) v6 v10
    shapeCasts_S500x1_S500x1 broadcasts_S500x1_S500x128 shapeCasts_S1x128_S1x128 broadcasts_S1x128_S500x128 p q).trans
    (congrArg (fun x : S500x128.Idx → EReal => comb1 x v6 v3 v10 (ix2 p q)) (shapeCast_self v0 shapeCasts_S500x128_S500x128))

/-- The block indices over the grid: the row-wise windows and the result window move down one block of rows per
    point, the shared windows stay on their whole arrays. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = t.val
    ∧ win8_4.index t (1 : Fin 2) = 0 :=
  (by decide +kernel : ∀ t : Fin grid8.N, _)

set_option maxHeartbeats 1000000 in
/-- What point t writes back is block t of the layer of the arrays as the region finds them. -/
theorem flushed8 (c : Dev nD) (t : Fin cfg8.N) :
    (dat8 (F := Ideal) V c).flushed 4 t = ((cfg8.win 4).blk t).view.read (Elt Ideal)
      (comb1 (V c main_v136 : S500x128.Idx → EReal) (V c main_v41 : S500x1.Idx → EReal) (V c main_arg29 : S128x128.Idx → EReal) (V c main_v142 : S1x128.Idx → EReal)) := by
  show (cfg8.win 4).cut (grid8.coords t) ((dat8 (F := Ideal) V c).after 4 t) = _
  rw [after8_4]
  unfold out8_4
  rw [View.canon_unit_zero zero2]
  simp only [View.ld_unit_zero (S := S500x128) zero2, View.ld_unit_zero (S := S500x1) zero2, View.ld_unit_zero (S := S128x128) zero2, View.ld_unit_zero (S := S1x128) zero2]
  obtain ⟨e0, e1, e2, e3, e4, e5, e6, e7, e8, e9⟩ := idx8 t
  have hN : cfg8.N = 1 := N_8
  have ht : t.val < 1 := by have := t.isLt; omega
  funext j
  have hp : (j 0).val < 500 := (j 0).isLt
  have hq : (j 1).val < 128 := (j 1).isLt
  obtain ⟨p, hpv⟩ : ∃ p : Fin 500, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 500, r.val = t.val * 500 + (j 0).val := ⟨⟨_, by omega⟩, rfl⟩
  have hL : (cfg8.win 4).xinj (grid8.coords t) j = (ix2 p q : S500x128.Idx) :=
    funext fun a => Fin.ext (by
      match a with
      | ⟨0, _⟩ => exact hpv.symm
      | ⟨1, _⟩ => exact hqv.symm)
  have hR : ((cfg8.win 4).blk t).view.emb j = (ix2 r q : S500x128.Idx) :=
    funext fun a => Fin.ext (by
      match a with
      | ⟨0, _⟩ => show win8_4.index t (0 : Fin 2) * 500 + 1 * (j 0).val = r.val; omega
      | ⟨1, _⟩ => show win8_4.index t (1 : Fin 2) * 128 + 1 * (j 1).val = q.val; omega)
  show k8_pay1 (F := Ideal) (iblk8 V c 0 t) (iblk8 V c 2 t) (iblk8 V c 1 t) (iblk8 V c 3 t) ((cfg8.win 4).xinj (grid8.coords t) j)
    = (comb1 (V c main_v136 : S500x128.Idx → EReal) (V c main_v41 : S500x1.Idx → EReal) (V c main_arg29 : S128x128.Idx → EReal) (V c main_v142 : S1x128.Idx → EReal))
        (((cfg8.win 4).blk t).view.emb j)
  rw [hL, hR]
  refine (pay8_at (iblk8 V c 0 t) (iblk8 V c 2 t) (iblk8 V c 1 t) (iblk8 V c 3 t) p q).trans ?_
  refine comb1_rows _ _ _ _ _ _ _ _ p r q (fun k => ?_) ?_ (fun k => ?_) ?_
  · show V c main_v136 (((cfg8.win 0).blk t).view.emb (ix2 p k : S500x128.Idx)) = V c main_v136 (ix2 r k : S500x128.Idx)
    refine congrArg _ (funext fun a => Fin.ext ?_)
    match a with
    | ⟨0, _⟩ => show win8_0.index t (0 : Fin 2) * 500 + 1 * p.val = r.val; omega
    | ⟨1, _⟩ => show win8_0.index t (1 : Fin 2) * 128 + 1 * k.val = k.val; omega
  · show V c main_v41 (((cfg8.win 1).blk t).view.emb (ix2 p (0 : Fin 1) : S500x1.Idx)) = V c main_v41 (ix2 r (0 : Fin 1) : S500x1.Idx)
    refine congrArg _ (funext fun a => Fin.ext ?_)
    match a with
    | ⟨0, _⟩ => show win8_1.index t (0 : Fin 2) * 500 + 1 * p.val = r.val; omega
    | ⟨1, _⟩ => show win8_1.index t (1 : Fin 2) * 1 + 1 * (0 : Fin 1).val = (0 : Fin 1).val; omega
  · show V c main_arg29 (((cfg8.win 2).blk t).view.emb (ix2 k q : S128x128.Idx)) = V c main_arg29 (ix2 k q : S128x128.Idx)
    refine congrArg _ (funext fun a => Fin.ext ?_)
    match a with
    | ⟨0, _⟩ => show win8_2.index t (0 : Fin 2) * 128 + 1 * k.val = k.val; omega
    | ⟨1, _⟩ => show win8_2.index t (1 : Fin 2) * 128 + 1 * q.val = q.val; omega
  · show V c main_v142 (((cfg8.win 3).blk t).view.emb (ix2 (0 : Fin 1) q : S1x128.Idx)) = V c main_v142 (ix2 (0 : Fin 1) q : S1x128.Idx)
    refine congrArg _ (funext fun a => Fin.ext ?_)
    match a with
    | ⟨0, _⟩ => show win8_3.index t (0 : Fin 2) * 1 + 1 * (0 : Fin 1).val = (0 : Fin 1).val; omega
    | ⟨1, _⟩ => show win8_3.index t (1 : Fin 2) * 128 + 1 * q.val = q.val; omega

/-- An index of the result array is in point t's block iff each coordinate is in the block's range on its axis. -/
theorem mem_blk8 (t : Fin cfg8.N) (i : S500x128.Idx) :
    i ∈ ((cfg8.win 4).blk t).view.set ↔ ∀ a : Fin 2, win8_4.index t a * S500x128.size a ≤ (i a).val
      ∧ (i a).val < win8_4.index t a * S500x128.size a + S500x128.size a := by
  show i ∈ ((View.whole main_v143).slice (win8_4.rect t)).set ↔ _
  rw [View.set_slice_whole, Rect.mem_set_unit]
  exact Iff.rfl

/-- Row r of the result lies in the block of point r / 500. -/
theorem cover8 (i : S500x128.Idx) :
    ∃ t : Fin cfg8.N, (cfg8.win 4).flush t = true ∧ i ∈ ((cfg8.win 4).blk t).view.set := by
  have hi0 : (i 0).val < 500 := (i 0).isLt
  have hi1 : (i 1).val < 128 := (i 1).isLt
  have hN : cfg8.N = 1 := N_8
  obtain ⟨t, htv⟩ : ∃ t : Fin cfg8.N, t.val = (i 0).val / 500 := ⟨⟨(i 0).val / 500, by omega⟩, rfl⟩
  obtain ⟨-, -, -, -, -, -, -, -, e8, e9⟩ := idx8 t
  refine ⟨t, flush8_4 t, ?_⟩
  rw [mem_blk8]
  intro a
  match a with
  | ⟨0, _⟩ =>
    show win8_4.index t (0 : Fin 2) * 500 ≤ (i 0).val ∧ (i 0).val < win8_4.index t (0 : Fin 2) * 500 + 500
    omega
  | ⟨1, _⟩ =>
    show win8_4.index t (1 : Fin 2) * 128 ≤ (i 1).val ∧ (i 1).val < win8_4.index t (1 : Fin 2) * 128 + 128
    omega

/-- The result array after the region: the one-relation layer of the summed messages, the scale column, the weights and the bias row. -/
theorem out8 (c : Dev nD) :
    (dat8 (F := Ideal) V c).arrAt 4 cfg8.N
      = comb1 (V c main_v136 : S500x128.Idx → EReal) (V c main_v41 : S500x1.Idx → EReal) (V c main_arg29 : S128x128.Idx → EReal) (V c main_v142 : S1x128.Idx → EReal) :=
  (dat8 (F := Ideal) V c).arrAt_eq_of_cover 4 _ (fun t _ => flushed8 V c t) cover8

end Cert.KernelIdeal.Region

end
-- ==== Proof.FoldLayer2.lean ====
/-
  The second convolution layer at the boundaries of the fold: the same aggregation and combine steps as the first,
  applied to the first layer's features, with the second layer's weights.  The reciprocal in-degree columns are the
  first layer's: they depend on the destination index vectors only, and nothing in between writes their buffers.
-/
import proofs.«118985_j35038343201327_2_alg».proof.Proof.Gen.KernelIdeal.Frame
import proofs.«118985_j35038343201327_2_alg».proof.Proof.KSpec
import proofs.«118985_j35038343201327_2_alg».proof.Proof.FoldArgsB
import proofs.«118985_j35038343201327_2_alg».proof.Proof.FoldArgsC
import proofs.«118985_j35038343201327_2_alg».proof.Proof.FoldArgsD
import proofs.«118985_j35038343201327_2_alg».proof.Proof.FoldLayer1
import proofs.«118985_j35038343201327_2_alg».proof.Proof.Region6
import proofs.«118985_j35038343201327_2_alg».proof.Proof.Region7
import proofs.«118985_j35038343201327_2_alg».proof.Proof.Region8

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Hetero

variable (m : (ℓ : Loc nD τ sig) → Buf (Elt Ideal) ℓ) (ρ : Dev nD → PrngReg)

theorem v90_keep12_10 (c : Dev nD) : W12 m ρ c (Proc.devRef .tc main_v90) = W10 m ρ c (Proc.devRef .tc main_v90) :=
  calc W12 m ρ c (Proc.devRef .tc main_v90)
    _ = W11 m ρ c (Proc.devRef .tc main_v90) := W12_of_ne m ρ c main_v90 (by decide)
    _ = W10 m ρ c (Proc.devRef .tc main_v90) := (StableHlo.after_of_forall_not_mem (b := Proc.devRef .tc main_v90) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v88_keep12_8 (c : Dev nD) : W12 m ρ c (Proc.devRef .tc main_v88) = W8 m ρ c (Proc.devRef .tc main_v88) :=
  calc W12 m ρ c (Proc.devRef .tc main_v88)
    _ = W11 m ρ c (Proc.devRef .tc main_v88) := W12_of_ne m ρ c main_v88 (by decide)
    _ = W10 m ρ c (Proc.devRef .tc main_v88) := (StableHlo.after_of_forall_not_mem (b := Proc.devRef .tc main_v88) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v88) := W10_of_ne m ρ c main_v88 (by decide)
    _ = W8 m ρ c (Proc.devRef .tc main_v88) := (StableHlo.after_of_forall_not_mem (b := Proc.devRef .tc main_v88) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem u1_at12 (c : Dev nD) : W12 m ρ c (Proc.devRef .tc main_v90) = K.u1 (m ((c : Thread nD τ).loc main_arg1)) (m ((c : Thread nD τ).loc main_arg5)) (m ((c : Thread nD τ).loc main_arg6)) (m ((c : Thread nD τ).loc main_arg13)) (m ((c : Thread nD τ).loc main_arg14)) (m ((c : Thread nD τ).loc main_arg19)) (m ((c : Thread nD τ).loc main_arg20)) :=
  (v90_keep12_10 m ρ c).trans (u1_at10 m ρ c)

theorem p1_at12 (c : Dev nD) : W12 m ρ c (Proc.devRef .tc main_v88) = K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) :=
  (v88_keep12_8 m ρ c).trans (p1_at8 m ρ c)

set_option maxHeartbeats 4000000 in
theorem v103_at13 (c : Dev nD) : W13 m ρ c (Proc.devRef .tc main_v103) = K.agg_up (K.u1 (m ((c : Thread nD τ).loc main_arg1)) (m ((c : Thread nD τ).loc main_arg5)) (m ((c : Thread nD τ).loc main_arg6)) (m ((c : Thread nD τ).loc main_arg13)) (m ((c : Thread nD τ).loc main_arg14)) (m ((c : Thread nD τ).loc main_arg19)) (m ((c : Thread nD τ).loc main_arg20))) ((m ((c : Thread nD τ).loc main_arg3))) ((m ((c : Thread nD τ).loc main_arg4))) := by
  have h : W13 m ρ c (Proc.devRef .tc main_v103) = K.agg_up (W12 m ρ c (Proc.devRef .tc main_v90)) (W12 m ρ c (Proc.devRef .tc main_arg3)) (W12 m ρ c (Proc.devRef .tc main_arg4)) := by
    show StableHlo.after hostOps6 (W12 m ρ c) (Proc.devRef .tc main_v103) = _
    after_results_simp; rfl
  rw [h, u1_at12 m ρ c, arg3_at12 m ρ c, arg4_at12 m ρ c]

set_option maxHeartbeats 4000000 in
theorem v114_at13 (c : Dev nD) : W13 m ρ c (Proc.devRef .tc main_v114) = K.agg_rb (K.s1 (m ((c : Thread nD τ).loc main_arg1)) (m ((c : Thread nD τ).loc main_arg7)) (m ((c : Thread nD τ).loc main_arg8)) (m ((c : Thread nD τ).loc main_arg13)) (m ((c : Thread nD τ).loc main_arg14)) (m ((c : Thread nD τ).loc main_arg21)) (m ((c : Thread nD τ).loc main_arg22))) ((m ((c : Thread nD τ).loc main_arg9))) ((m ((c : Thread nD τ).loc main_arg10))) := by
  have h : W13 m ρ c (Proc.devRef .tc main_v114) = K.agg_rb (W12 m ρ c (Proc.devRef .tc main_v92)) (W12 m ρ c (Proc.devRef .tc main_arg9)) (W12 m ρ c (Proc.devRef .tc main_arg10)) := by
    show StableHlo.after hostOps6 (W12 m ρ c) (Proc.devRef .tc main_v114) = _
    after_results_simp; rfl
  rw [h, s1_at12 m ρ c, arg9_at12 m ρ c, arg10_at12 m ρ c]

set_option maxHeartbeats 4000000 in
theorem v125_at13 (c : Dev nD) : W13 m ρ c (Proc.devRef .tc main_v125) = K.agg_ru (K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24))) ((m ((c : Thread nD τ).loc main_arg5))) ((m ((c : Thread nD τ).loc main_arg6))) := by
  have h : W13 m ρ c (Proc.devRef .tc main_v125) = K.agg_ru (W12 m ρ c (Proc.devRef .tc main_v88)) (W12 m ρ c (Proc.devRef .tc main_arg5)) (W12 m ρ c (Proc.devRef .tc main_arg6)) := by
    show StableHlo.after hostOps6 (W12 m ρ c) (Proc.devRef .tc main_v125) = _
    after_results_simp; rfl
  rw [h, p1_at12 m ρ c, arg5_at12 m ρ c, arg6_at12 m ρ c]

set_option maxHeartbeats 4000000 in
theorem v136_at13 (c : Dev nD) : W13 m ρ c (Proc.devRef .tc main_v136) = K.agg_bt (K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24))) ((m ((c : Thread nD τ).loc main_arg7))) ((m ((c : Thread nD τ).loc main_arg8))) := by
  have h : W13 m ρ c (Proc.devRef .tc main_v136) = K.agg_bt (W12 m ρ c (Proc.devRef .tc main_v88)) (W12 m ρ c (Proc.devRef .tc main_arg7)) (W12 m ρ c (Proc.devRef .tc main_arg8)) := by
    show StableHlo.after hostOps6 (W12 m ρ c) (Proc.devRef .tc main_v136) = _
    after_results_simp; rfl
  rw [h, p1_at12 m ρ c, arg7_at12 m ρ c, arg8_at12 m ρ c]

set_option maxHeartbeats 4000000 in
theorem v137_at13 (c : Dev nD) : W13 m ρ c (Proc.devRef .tc main_v137) = K.row ((m ((c : Thread nD τ).loc main_arg26))) := by
  have h : W13 m ρ c (Proc.devRef .tc main_v137) = K.row (W12 m ρ c (Proc.devRef .tc main_arg26)) := by
    show StableHlo.after hostOps6 (W12 m ρ c) (Proc.devRef .tc main_v137) = _
    after_results_simp; rfl
  rw [h, arg26_at12 m ρ c]

set_option maxHeartbeats 4000000 in
theorem v138_at13 (c : Dev nD) : W13 m ρ c (Proc.devRef .tc main_v138) = K.row ((m ((c : Thread nD τ).loc main_arg32))) := by
  have h : W13 m ρ c (Proc.devRef .tc main_v138) = K.row (W12 m ρ c (Proc.devRef .tc main_arg32)) := by
    show StableHlo.after hostOps6 (W12 m ρ c) (Proc.devRef .tc main_v138) = _
    after_results_simp; rfl
  rw [h, arg32_at12 m ρ c]

theorem v14_keep13_7 (c : Dev nD) : W13 m ρ c (Proc.devRef .tc main_v14) = W7 m ρ c (Proc.devRef .tc main_v14) :=
  calc W13 m ρ c (Proc.devRef .tc main_v14)
    _ = W12 m ρ c (Proc.devRef .tc main_v14) := (StableHlo.after_of_forall_not_mem (b := Proc.devRef .tc main_v14) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_v14) := W12_of_ne m ρ c main_v14 (by decide)
    _ = W10 m ρ c (Proc.devRef .tc main_v14) := (StableHlo.after_of_forall_not_mem (b := Proc.devRef .tc main_v14) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v14) := W10_of_ne m ρ c main_v14 (by decide)
    _ = W8 m ρ c (Proc.devRef .tc main_v14) := (StableHlo.after_of_forall_not_mem (b := Proc.devRef .tc main_v14) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v14) := ((W8_arr m ρ c 1).trans (((dat3 (V7 m ρ) c).arrAt_in 1 rfl _).trans (A_eq3 (V7 m ρ) c 1)))

theorem v23_keep13_7 (c : Dev nD) : W13 m ρ c (Proc.devRef .tc main_v23) = W7 m ρ c (Proc.devRef .tc main_v23) :=
  calc W13 m ρ c (Proc.devRef .tc main_v23)
    _ = W12 m ρ c (Proc.devRef .tc main_v23) := (StableHlo.after_of_forall_not_mem (b := Proc.devRef .tc main_v23) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_v23) := W12_of_ne m ρ c main_v23 (by decide)
    _ = W10 m ρ c (Proc.devRef .tc main_v23) := (StableHlo.after_of_forall_not_mem (b := Proc.devRef .tc main_v23) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v23) := W10_of_ne m ρ c main_v23 (by decide)
    _ = W8 m ρ c (Proc.devRef .tc main_v23) := (StableHlo.after_of_forall_not_mem (b := Proc.devRef .tc main_v23) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v23) := ((W8_arr m ρ c 5).trans (((dat3 (V7 m ρ) c).arrAt_in 5 rfl _).trans (A_eq3 (V7 m ρ) c 5)))

theorem p2_at14 (c : Dev nD) : W14 m ρ c (Proc.devRef .tc main_v139) = K.p2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) (m ((c : Thread nD τ).loc main_arg31)) (m ((c : Thread nD τ).loc main_arg32)) := by
  refine (W14_arr m ρ c 8).trans ?_
  rw [Cert.KernelIdeal.Region.out6 (V13 m ρ) c]
  rw [show V13 m ρ c main_v103 = K.agg_up (K.u1 (m ((c : Thread nD τ).loc main_arg1)) (m ((c : Thread nD τ).loc main_arg5)) (m ((c : Thread nD τ).loc main_arg6)) (m ((c : Thread nD τ).loc main_arg13)) (m ((c : Thread nD τ).loc main_arg14)) (m ((c : Thread nD τ).loc main_arg19)) (m ((c : Thread nD τ).loc main_arg20))) (m ((c : Thread nD τ).loc main_arg3)) (m ((c : Thread nD τ).loc main_arg4)) from v103_at13 m ρ c,
    show V13 m ρ c main_v14 = K.inv_up (m ((c : Thread nD τ).loc main_arg4)) from (v14_keep13_7 m ρ c).trans (v14_at7 m ρ c),
    show V13 m ρ c main_arg25 = (m ((c : Thread nD τ).loc main_arg25)) from arg25_at13 m ρ c,
    show V13 m ρ c main_v137 = K.row (m ((c : Thread nD τ).loc main_arg26)) from v137_at13 m ρ c,
    show V13 m ρ c main_v114 = K.agg_rb (K.s1 (m ((c : Thread nD τ).loc main_arg1)) (m ((c : Thread nD τ).loc main_arg7)) (m ((c : Thread nD τ).loc main_arg8)) (m ((c : Thread nD τ).loc main_arg13)) (m ((c : Thread nD τ).loc main_arg14)) (m ((c : Thread nD τ).loc main_arg21)) (m ((c : Thread nD τ).loc main_arg22))) (m ((c : Thread nD τ).loc main_arg9)) (m ((c : Thread nD τ).loc main_arg10)) from v114_at13 m ρ c,
    show V13 m ρ c main_v23 = K.inv_rb (m ((c : Thread nD τ).loc main_arg10)) from (v23_keep13_7 m ρ c).trans (v23_at7 m ρ c),
    show V13 m ρ c main_arg31 = (m ((c : Thread nD τ).loc main_arg31)) from arg31_at13 m ρ c,
    show V13 m ρ c main_v138 = K.row (m ((c : Thread nD τ).loc main_arg32)) from v138_at13 m ρ c]
  rfl

theorem v125_keep15_13 (c : Dev nD) : W15 m ρ c (Proc.devRef .tc main_v125) = W13 m ρ c (Proc.devRef .tc main_v125) :=
  calc W15 m ρ c (Proc.devRef .tc main_v125)
    _ = W14 m ρ c (Proc.devRef .tc main_v125) := (StableHlo.after_of_forall_not_mem (b := Proc.devRef .tc main_v125) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_v125) := W14_of_ne m ρ c main_v125 (by decide)

theorem v32_keep15_7 (c : Dev nD) : W15 m ρ c (Proc.devRef .tc main_v32) = W7 m ρ c (Proc.devRef .tc main_v32) :=
  calc W15 m ρ c (Proc.devRef .tc main_v32)
    _ = W14 m ρ c (Proc.devRef .tc main_v32) := (StableHlo.after_of_forall_not_mem (b := Proc.devRef .tc main_v32) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_v32) := W14_of_ne m ρ c main_v32 (by decide)
    _ = W12 m ρ c (Proc.devRef .tc main_v32) := (StableHlo.after_of_forall_not_mem (b := Proc.devRef .tc main_v32) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_v32) := W12_of_ne m ρ c main_v32 (by decide)
    _ = W10 m ρ c (Proc.devRef .tc main_v32) := (StableHlo.after_of_forall_not_mem (b := Proc.devRef .tc main_v32) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v32) := ((W10_arr m ρ c 1).trans (((dat4 (V9 m ρ) c).arrAt_in 1 rfl _).trans (A_eq4 (V9 m ρ) c 1)))
    _ = W8 m ρ c (Proc.devRef .tc main_v32) := (StableHlo.after_of_forall_not_mem (b := Proc.devRef .tc main_v32) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v32) := W8_of_ne m ρ c main_v32 (by decide)

theorem v140_at15 (c : Dev nD) : W15 m ρ c (Proc.devRef .tc main_v140) = K.row (m ((c : Thread nD τ).loc main_arg28)) := by
  have h : W15 m ρ c (Proc.devRef .tc main_v140) = K.row (W14 m ρ c (Proc.devRef .tc main_arg28)) := by
    show StableHlo.after hostOps7 (W14 m ρ c) (Proc.devRef .tc main_v140) = _
    after_results; rfl
  rw [h, arg28_at14 m ρ c]

theorem u2_at16 (c : Dev nD) : W16 m ρ c (Proc.devRef .tc main_v141) = K.u2 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg27)) (m ((c : Thread nD τ).loc main_arg28)) := by
  refine (W16_arr m ρ c 4).trans ?_
  rw [Cert.KernelIdeal.Region.out7 (V15 m ρ) c]
  rw [show V15 m ρ c main_v125 = K.agg_ru (K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24))) (m ((c : Thread nD τ).loc main_arg5)) (m ((c : Thread nD τ).loc main_arg6)) from (v125_keep15_13 m ρ c).trans (v125_at13 m ρ c),
    show V15 m ρ c main_v32 = K.inv_ru (m ((c : Thread nD τ).loc main_arg6)) from (v32_keep15_7 m ρ c).trans (v32_at7 m ρ c),
    show V15 m ρ c main_arg27 = (m ((c : Thread nD τ).loc main_arg27)) from arg27_at15 m ρ c,
    show V15 m ρ c main_v140 = K.row (m ((c : Thread nD τ).loc main_arg28)) from v140_at15 m ρ c]
  rfl

theorem v136_keep17_13 (c : Dev nD) : W17 m ρ c (Proc.devRef .tc main_v136) = W13 m ρ c (Proc.devRef .tc main_v136) :=
  calc W17 m ρ c (Proc.devRef .tc main_v136)
    _ = W16 m ρ c (Proc.devRef .tc main_v136) := (StableHlo.after_of_forall_not_mem (b := Proc.devRef .tc main_v136) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_v136) := W16_of_ne m ρ c main_v136 (by decide)
    _ = W14 m ρ c (Proc.devRef .tc main_v136) := (StableHlo.after_of_forall_not_mem (b := Proc.devRef .tc main_v136) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_v136) := W14_of_ne m ρ c main_v136 (by decide)

theorem v41_keep17_7 (c : Dev nD) : W17 m ρ c (Proc.devRef .tc main_v41) = W7 m ρ c (Proc.devRef .tc main_v41) :=
  calc W17 m ρ c (Proc.devRef .tc main_v41)
    _ = W16 m ρ c (Proc.devRef .tc main_v41) := (StableHlo.after_of_forall_not_mem (b := Proc.devRef .tc main_v41) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_v41) := W16_of_ne m ρ c main_v41 (by decide)
    _ = W14 m ρ c (Proc.devRef .tc main_v41) := (StableHlo.after_of_forall_not_mem (b := Proc.devRef .tc main_v41) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W13 m ρ c (Proc.devRef .tc main_v41) := W14_of_ne m ρ c main_v41 (by decide)
    _ = W12 m ρ c (Proc.devRef .tc main_v41) := (StableHlo.after_of_forall_not_mem (b := Proc.devRef .tc main_v41) _ _ (List.forall_iff_forall_mem.mp (by
        simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W11 m ρ c (Proc.devRef .tc main_v41) := ((W12_arr m ρ c 1).trans (((dat5 (V11 m ρ) c).arrAt_in 1 rfl _).trans (A_eq5 (V11 m ρ) c 1)))
    _ = W10 m ρ c (Proc.devRef .tc main_v41) := (StableHlo.after_of_forall_not_mem (b := Proc.devRef .tc main_v41) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W9 m ρ c (Proc.devRef .tc main_v41) := W10_of_ne m ρ c main_v41 (by decide)
    _ = W8 m ρ c (Proc.devRef .tc main_v41) := (StableHlo.after_of_forall_not_mem (b := Proc.devRef .tc main_v41) _ _ (List.forall_iff_forall_mem.mp (by
        simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W7 m ρ c (Proc.devRef .tc main_v41) := W8_of_ne m ρ c main_v41 (by decide)

theorem v142_at17 (c : Dev nD) : W17 m ρ c (Proc.devRef .tc main_v142) = K.row (m ((c : Thread nD τ).loc main_arg30)) := by
  have h : W17 m ρ c (Proc.devRef .tc main_v142) = K.row (W16 m ρ c (Proc.devRef .tc main_arg30)) := by
    show StableHlo.after hostOps8 (W16 m ρ c) (Proc.devRef .tc main_v142) = _
    after_results; rfl
  rw [h, arg30_at16 m ρ c]

theorem s2_at18 (c : Dev nD) : W18 m ρ c (Proc.devRef .tc main_v143) = K.s2 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) := by
  refine (W18_arr m ρ c 4).trans ?_
  rw [Cert.KernelIdeal.Region.out8 (V17 m ρ) c]
  rw [show V17 m ρ c main_v136 = K.agg_bt (K.p1 (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24))) (m ((c : Thread nD τ).loc main_arg7)) (m ((c : Thread nD τ).loc main_arg8)) from (v136_keep17_13 m ρ c).trans (v136_at13 m ρ c),
    show V17 m ρ c main_v41 = K.inv_bt (m ((c : Thread nD τ).loc main_arg8)) from (v41_keep17_7 m ρ c).trans (v41_at7 m ρ c),
    show V17 m ρ c main_arg29 = (m ((c : Thread nD τ).loc main_arg29)) from arg29_at17 m ρ c,
    show V17 m ρ c main_v142 = K.row (m ((c : Thread nD τ).loc main_arg30)) from v142_at17 m ρ c]
  rfl

end Cert.KernelIdeal.Fold

end
-- ==== Proof.Region9.lean ====
/-
  The first final layer (50000 rows in 10 blocks of 5000) as one function of whole arrays.

  Grid point t stages rows 5000·t … 5000·t + 4999 of the input array together with the whole weight matrix and the
  whole bias row, and writes back the same rows of the result.  Entry (p, q) of what it writes is row p of the block
  against column q of the weights plus the bias entry q, that is entry (5000·t + p, q) of the dense layer of the whole
  arrays.  The blocks tile the result (row r lies in block r / 5000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay9_at (v0 : FVec Ideal S5000x128 .bf16) (v2 : FVec Ideal S128x128 .f32) (v5 : FVec Ideal S1x128 .f32)
    (p : Fin 5000) (q : Fin 128) :
    k9_pay1 (F := Ideal) v0 v2 v5 (ix2 p q) = dense id v0 v2 v5 (ix2 p q) :=
  (linear_at dot_S5000x128_S128x128_S5000x128_1_0_0_1_n_n rfl rfl rfl rfl rfl rfl
    (shapeCast S5000x128 v0 shapeCasts_S5000x128_S5000x128) (truncf (φ := .f32) .bf16 v2 bitsLt_bf16_f32) v5
    shapeCasts_S1x128_S1x128 broadcasts_S1x128_S5000x128 p q).trans
    (congrArg (fun x : S5000x128.Idx → EReal => dense id x v2 v5 (ix2 p q)) (shapeCast_self v0 shapeCasts_S5000x128_S5000x128))

/-- The block indices over the grid: the row-wise windows and the result window move down one block of rows per
    point, the shared windows stay on their whole arrays. -/
theorem idx9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

set_option maxHeartbeats 1000000 in
/-- What point t writes back is block t of the layer of the arrays as the region finds them. -/
theorem flushed9 (c : Dev nD) (t : Fin cfg9.N) :
    (dat9 (F := Ideal) V c).flushed 3 t = ((cfg9.win 3).blk t).view.read (Elt Ideal)
      (dense id (V c main_v141 : S50000x128.Idx → EReal) (V c main_arg33 : S128x128.Idx → EReal) (V c main_v144 : S1x128.Idx → EReal)) := by
  show (cfg9.win 3).cut (grid9.coords t) ((dat9 (F := Ideal) V c).after 3 t) = _
  rw [after9_3]
  unfold out9_3
  rw [View.canon_unit_zero zero2]
  simp only [View.ld_unit_zero (S := S5000x128) zero2, View.ld_unit_zero (S := S128x128) zero2, View.ld_unit_zero (S := S1x128) zero2]
  obtain ⟨e0, e1, e2, e3, e4, e5, e6, e7⟩ := idx9 t
  have hN : cfg9.N = 10 := N_9
  have ht : t.val < 10 := by have := t.isLt; omega
  funext j
  have hp : (j 0).val < 5000 := (j 0).isLt
  have hq : (j 1).val < 128 := (j 1).isLt
  obtain ⟨p, hpv⟩ : ∃ p : Fin 5000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 50000, r.val = t.val * 5000 + (j 0).val := ⟨⟨_, by omega⟩, rfl⟩
  have hL : (cfg9.win 3).xinj (grid9.coords t) j = (ix2 p q : S5000x128.Idx) :=
    funext fun a => Fin.ext (by
      match a with
      | ⟨0, _⟩ => exact hpv.symm
      | ⟨1, _⟩ => exact hqv.symm)
  have hR : ((cfg9.win 3).blk t).view.emb j = (ix2 r q : S50000x128.Idx) :=
    funext fun a => Fin.ext (by
      match a with
      | ⟨0, _⟩ => show win9_3.index t (0 : Fin 2) * 5000 + 1 * (j 0).val = r.val; omega
      | ⟨1, _⟩ => show win9_3.index t (1 : Fin 2) * 128 + 1 * (j 1).val = q.val; omega)
  show k9_pay1 (F := Ideal) (iblk9 V c 0 t) (iblk9 V c 1 t) (iblk9 V c 2 t) ((cfg9.win 3).xinj (grid9.coords t) j)
    = (dense id (V c main_v141 : S50000x128.Idx → EReal) (V c main_arg33 : S128x128.Idx → EReal) (V c main_v144 : S1x128.Idx → EReal))
        (((cfg9.win 3).blk t).view.emb j)
  rw [hL, hR]
  refine (pay9_at (iblk9 V c 0 t) (iblk9 V c 1 t) (iblk9 V c 2 t) p q).trans ?_
  refine dense_rows id _ _ _ _ _ _ p r q (fun k => ?_) (fun k => ?_) ?_
  · show V c main_v141 (((cfg9.win 0).blk t).view.emb (ix2 p k : S5000x128.Idx)) = V c main_v141 (ix2 r k : S50000x128.Idx)
    refine congrArg _ (funext fun a => Fin.ext ?_)
    match a with
    | ⟨0, _⟩ => show win9_0.index t (0 : Fin 2) * 5000 + 1 * p.val = r.val; omega
    | ⟨1, _⟩ => show win9_0.index t (1 : Fin 2) * 128 + 1 * k.val = k.val; omega
  · show V c main_arg33 (((cfg9.win 1).blk t).view.emb (ix2 k q : S128x128.Idx)) = V c main_arg33 (ix2 k q : S128x128.Idx)
    refine congrArg _ (funext fun a => Fin.ext ?_)
    match a with
    | ⟨0, _⟩ => show win9_1.index t (0 : Fin 2) * 128 + 1 * k.val = k.val; omega
    | ⟨1, _⟩ => show win9_1.index t (1 : Fin 2) * 128 + 1 * q.val = q.val; omega
  · show V c main_v144 (((cfg9.win 2).blk t).view.emb (ix2 (0 : Fin 1) q : S1x128.Idx)) = V c main_v144 (ix2 (0 : Fin 1) q : S1x128.Idx)
    refine congrArg _ (funext fun a => Fin.ext ?_)
    match a with
    | ⟨0, _⟩ => show win9_2.index t (0 : Fin 2) * 1 + 1 * (0 : Fin 1).val = (0 : Fin 1).val; omega
    | ⟨1, _⟩ => show win9_2.index t (1 : Fin 2) * 128 + 1 * q.val = q.val; omega

/-- An index of the result array is in point t's block iff each coordinate is in the block's range on its axis. -/
theorem mem_blk9 (t : Fin cfg9.N) (i : S50000x128.Idx) :
    i ∈ ((cfg9.win 3).blk t).view.set ↔ ∀ a : Fin 2, win9_3.index t a * S5000x128.size a ≤ (i a).val
      ∧ (i a).val < win9_3.index t a * S5000x128.size a + S5000x128.size a := by
  show i ∈ ((View.whole main_v145).slice (win9_3.rect t)).set ↔ _
  rw [View.set_slice_whole, Rect.mem_set_unit]
  exact Iff.rfl

/-- Row r of the result lies in the block of point r / 5000. -/
theorem cover9 (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  have hN : cfg9.N = 10 := N_9
  obtain ⟨t, htv⟩ : ∃ t : Fin cfg9.N, t.val = (i 0).val / 5000 := ⟨⟨(i 0).val / 5000, by omega⟩, rfl⟩
  obtain ⟨-, -, -, -, -, -, e6, e7⟩ := idx9 t
  refine ⟨t, flush9_3 t, ?_⟩
  rw [mem_blk9]
  intro a
  match a with
  | ⟨0, _⟩ =>
    show win9_3.index t (0 : Fin 2) * 5000 ≤ (i 0).val ∧ (i 0).val < win9_3.index t (0 : Fin 2) * 5000 + 5000
    omega
  | ⟨1, _⟩ =>
    show win9_3.index t (1 : Fin 2) * 128 ≤ (i 1).val ∧ (i 1).val < win9_3.index t (1 : Fin 2) * 128 + 128
    omega

/-- The result array after the region: the dense layer of the input array, the weights and the bias row. -/
theorem out9 (c : Dev nD) :
    (dat9 (F := Ideal) V c).arrAt 3 cfg9.N
      = dense id (V c main_v141 : S50000x128.Idx → EReal) (V c main_arg33 : S128x128.Idx → EReal) (V c main_v144 : S1x128.Idx → EReal) :=
  (dat9 (F := Ideal) V c).arrAt_eq_of_cover 3 _ (fun t _ => flushed9 V c t) cover9

end Cert.KernelIdeal.Region

end
-- ==== Proof.Region10.lean ====
/-
  The second final layer (100000 rows in 20 blocks of 5000) as one function of whole arrays.

  Grid point t stages rows 5000·t … 5000·t + 4999 of the input array together with the whole weight matrix and the
  whole bias row, and writes back the same rows of the result.  Entry (p, q) of what it writes is row p of the block
  against column q of the weights plus the bias entry q, that is entry (5000·t + p, q) of the dense layer of the whole
  arrays.  The blocks tile the result (row r lies in block r / 5000), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay10_at (v0 : FVec Ideal S5000x128 .bf16) (v2 : FVec Ideal S128x128 .f32) (v5 : FVec Ideal S1x128 .f32)
    (p : Fin 5000) (q : Fin 128) :
    k10_pay1 (F := Ideal) v0 v2 v5 (ix2 p q) = dense id v0 v2 v5 (ix2 p q) :=
  (linear_at dot_S5000x128_S128x128_S5000x128_1_0_0_1_n_n rfl rfl rfl rfl rfl rfl
    (shapeCast S5000x128 v0 shapeCasts_S5000x128_S5000x128) (truncf (φ := .f32) .bf16 v2 bitsLt_bf16_f32) v5
    shapeCasts_S1x128_S1x128 broadcasts_S1x128_S5000x128 p q).trans
    (congrArg (fun x : S5000x128.Idx → EReal => dense id x v2 v5 (ix2 p q)) (shapeCast_self v0 shapeCasts_S5000x128_S5000x128))

/-- The block indices over the grid: the row-wise windows and the result window move down one block of rows per
    point, the shared windows stay on their whole arrays. -/
theorem idx10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

set_option maxHeartbeats 1000000 in
/-- What point t writes back is block t of the layer of the arrays as the region finds them. -/
theorem flushed10 (c : Dev nD) (t : Fin cfg10.N) :
    (dat10 (F := Ideal) V c).flushed 3 t = ((cfg10.win 3).blk t).view.read (Elt Ideal)
      (dense id (V c main_v139 : S100000x128.Idx → EReal) (V c main_arg35 : S128x128.Idx → EReal) (V c main_v146 : S1x128.Idx → EReal)) := by
  show (cfg10.win 3).cut (grid10.coords t) ((dat10 (F := Ideal) V c).after 3 t) = _
  rw [after10_3]
  unfold out10_3
  rw [View.canon_unit_zero zero2]
  simp only [View.ld_unit_zero (S := S5000x128) zero2, View.ld_unit_zero (S := S128x128) zero2, View.ld_unit_zero (S := S1x128) zero2]
  obtain ⟨e0, e1, e2, e3, e4, e5, e6, e7⟩ := idx10 t
  have hN : cfg10.N = 20 := N_10
  have ht : t.val < 20 := by have := t.isLt; omega
  funext j
  have hp : (j 0).val < 5000 := (j 0).isLt
  have hq : (j 1).val < 128 := (j 1).isLt
  obtain ⟨p, hpv⟩ : ∃ p : Fin 5000, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 100000, r.val = t.val * 5000 + (j 0).val := ⟨⟨_, by omega⟩, rfl⟩
  have hL : (cfg10.win 3).xinj (grid10.coords t) j = (ix2 p q : S5000x128.Idx) :=
    funext fun a => Fin.ext (by
      match a with
      | ⟨0, _⟩ => exact hpv.symm
      | ⟨1, _⟩ => exact hqv.symm)
  have hR : ((cfg10.win 3).blk t).view.emb j = (ix2 r q : S100000x128.Idx) :=
    funext fun a => Fin.ext (by
      match a with
      | ⟨0, _⟩ => show win10_3.index t (0 : Fin 2) * 5000 + 1 * (j 0).val = r.val; omega
      | ⟨1, _⟩ => show win10_3.index t (1 : Fin 2) * 128 + 1 * (j 1).val = q.val; omega)
  show k10_pay1 (F := Ideal) (iblk10 V c 0 t) (iblk10 V c 1 t) (iblk10 V c 2 t) ((cfg10.win 3).xinj (grid10.coords t) j)
    = (dense id (V c main_v139 : S100000x128.Idx → EReal) (V c main_arg35 : S128x128.Idx → EReal) (V c main_v146 : S1x128.Idx → EReal))
        (((cfg10.win 3).blk t).view.emb j)
  rw [hL, hR]
  refine (pay10_at (iblk10 V c 0 t) (iblk10 V c 1 t) (iblk10 V c 2 t) p q).trans ?_
  refine dense_rows id _ _ _ _ _ _ p r q (fun k => ?_) (fun k => ?_) ?_
  · show V c main_v139 (((cfg10.win 0).blk t).view.emb (ix2 p k : S5000x128.Idx)) = V c main_v139 (ix2 r k : S100000x128.Idx)
    refine congrArg _ (funext fun a => Fin.ext ?_)
    match a with
    | ⟨0, _⟩ => show win10_0.index t (0 : Fin 2) * 5000 + 1 * p.val = r.val; omega
    | ⟨1, _⟩ => show win10_0.index t (1 : Fin 2) * 128 + 1 * k.val = k.val; omega
  · show V c main_arg35 (((cfg10.win 1).blk t).view.emb (ix2 k q : S128x128.Idx)) = V c main_arg35 (ix2 k q : S128x128.Idx)
    refine congrArg _ (funext fun a => Fin.ext ?_)
    match a with
    | ⟨0, _⟩ => show win10_1.index t (0 : Fin 2) * 128 + 1 * k.val = k.val; omega
    | ⟨1, _⟩ => show win10_1.index t (1 : Fin 2) * 128 + 1 * q.val = q.val; omega
  · show V c main_v146 (((cfg10.win 2).blk t).view.emb (ix2 (0 : Fin 1) q : S1x128.Idx)) = V c main_v146 (ix2 (0 : Fin 1) q : S1x128.Idx)
    refine congrArg _ (funext fun a => Fin.ext ?_)
    match a with
    | ⟨0, _⟩ => show win10_2.index t (0 : Fin 2) * 1 + 1 * (0 : Fin 1).val = (0 : Fin 1).val; omega
    | ⟨1, _⟩ => show win10_2.index t (1 : Fin 2) * 128 + 1 * q.val = q.val; omega

/-- An index of the result array is in point t's block iff each coordinate is in the block's range on its axis. -/
theorem mem_blk10 (t : Fin cfg10.N) (i : S100000x128.Idx) :
    i ∈ ((cfg10.win 3).blk t).view.set ↔ ∀ a : Fin 2, win10_3.index t a * S5000x128.size a ≤ (i a).val
      ∧ (i a).val < win10_3.index t a * S5000x128.size a + S5000x128.size a := by
  show i ∈ ((View.whole main_v147).slice (win10_3.rect t)).set ↔ _
  rw [View.set_slice_whole, Rect.mem_set_unit]
  exact Iff.rfl

/-- Row r of the result lies in the block of point r / 5000. -/
theorem cover10 (i : S100000x128.Idx) :
    ∃ t : Fin cfg10.N, (cfg10.win 3).flush t = true ∧ i ∈ ((cfg10.win 3).blk t).view.set := by
  have hi0 : (i 0).val < 100000 := (i 0).isLt
  have hi1 : (i 1).val < 128 := (i 1).isLt
  have hN : cfg10.N = 20 := N_10
  obtain ⟨t, htv⟩ : ∃ t : Fin cfg10.N, t.val = (i 0).val / 5000 := ⟨⟨(i 0).val / 5000, by omega⟩, rfl⟩
  obtain ⟨-, -, -, -, -, -, e6, e7⟩ := idx10 t
  refine ⟨t, flush10_3 t, ?_⟩
  rw [mem_blk10]
  intro a
  match a with
  | ⟨0, _⟩ =>
    show win10_3.index t (0 : Fin 2) * 5000 ≤ (i 0).val ∧ (i 0).val < win10_3.index t (0 : Fin 2) * 5000 + 5000
    omega
  | ⟨1, _⟩ =>
    show win10_3.index t (1 : Fin 2) * 128 ≤ (i 1).val ∧ (i 1).val < win10_3.index t (1 : Fin 2) * 128 + 128
    omega

/-- The result array after the region: the dense layer of the input array, the weights and the bias row. -/
theorem out10 (c : Dev nD) :
    (dat10 (F := Ideal) V c).arrAt 3 cfg10.N
      = dense id (V c main_v139 : S100000x128.Idx → EReal) (V c main_arg35 : S128x128.Idx → EReal) (V c main_v146 : S1x128.Idx → EReal) :=
  (dat10 (F := Ideal) V c).arrAt_eq_of_cover 3 _ (fun t _ => flushed10 V c t) cover10

end Cert.KernelIdeal.Region

end
-- ==== Proof.Region11.lean ====
/-
  The third final layer (500 rows in 1 block of 500) as one function of whole arrays.

  Grid point t stages rows 500·t … 500·t + 499 of the input array together with the whole weight matrix and the
  whole bias row, and writes back the same rows of the result.  Entry (p, q) of what it writes is row p of the block
  against column q of the weights plus the bias entry q, that is entry (500·t + p, q) of the dense layer of the whole
  arrays.  The blocks tile the result (row r lies in block r / 500), so the result array ends as that layer.
-/
import proofs.«118985_j35038343201327_2_alg».proof.Proof.Gen.KernelIdeal.Frame
import proofs.«118985_j35038343201327_2_alg».proof.Proof.Bodies
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Lib.Dense Cert.Hetero Cert.Hetero.Bodies
open Idealize.ShloMosaic.Pipeline (Dat)

variable (V : (c : Dev nD) → (b : Ref sig .tc) → Buf (Elt Ideal) ((c : Thread nD τ).loc b))

/-- The body's stored block at an entry: the linear body of the three loaded blocks. -/
theorem pay11_at (v0 : FVec Ideal S500x128 .bf16) (v2 : FVec Ideal S128x128 .f32) (v5 : FVec Ideal S1x128 .f32)
    (p : Fin 500) (q : Fin 128) :
    k11_pay1 (F := Ideal) v0 v2 v5 (ix2 p q) = dense id v0 v2 v5 (ix2 p q) :=
  (linear_at dot_S500x128_S128x128_S500x128_1_0_0_1_n_n rfl rfl rfl rfl rfl rfl
    (shapeCast S500x128 v0 shapeCasts_S500x128_S500x128) (truncf (φ := .f32) .bf16 v2 bitsLt_bf16_f32) v5
    shapeCasts_S1x128_S1x128 broadcasts_S1x128_S500x128 p q).trans
    (congrArg (fun x : S500x128.Idx → EReal => dense id x v2 v5 (ix2 p q)) (shapeCast_self v0 shapeCasts_S500x128_S500x128))

/-- The block indices over the grid: the row-wise windows and the result window move down one block of rows per
    point, the shared windows stay on their whole arrays. -/
theorem idx11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = t.val
    ∧ win11_3.index t (1 : Fin 2) = 0 :=
  (by decide +kernel : ∀ t : Fin grid11.N, _)

set_option maxHeartbeats 1000000 in
/-- What point t writes back is block t of the layer of the arrays as the region finds them. -/
theorem flushed11 (c : Dev nD) (t : Fin cfg11.N) :
    (dat11 (F := Ideal) V c).flushed 3 t = ((cfg11.win 3).blk t).view.read (Elt Ideal)
      (dense id (V c main_v143 : S500x128.Idx → EReal) (V c main_arg37 : S128x128.Idx → EReal) (V c main_v148 : S1x128.Idx → EReal)) := by
  show (cfg11.win 3).cut (grid11.coords t) ((dat11 (F := Ideal) V c).after 3 t) = _
  rw [after11_3]
  unfold out11_3
  rw [View.canon_unit_zero zero2]
  simp only [View.ld_unit_zero (S := S500x128) zero2, View.ld_unit_zero (S := S128x128) zero2, View.ld_unit_zero (S := S1x128) zero2]
  obtain ⟨e0, e1, e2, e3, e4, e5, e6, e7⟩ := idx11 t
  have hN : cfg11.N = 1 := N_11
  have ht : t.val < 1 := by have := t.isLt; omega
  funext j
  have hp : (j 0).val < 500 := (j 0).isLt
  have hq : (j 1).val < 128 := (j 1).isLt
  obtain ⟨p, hpv⟩ : ∃ p : Fin 500, p.val = (j 0).val := ⟨⟨_, hp⟩, rfl⟩
  obtain ⟨q, hqv⟩ : ∃ q : Fin 128, q.val = (j 1).val := ⟨⟨_, hq⟩, rfl⟩
  obtain ⟨r, hrv⟩ : ∃ r : Fin 500, r.val = t.val * 500 + (j 0).val := ⟨⟨_, by omega⟩, rfl⟩
  have hL : (cfg11.win 3).xinj (grid11.coords t) j = (ix2 p q : S500x128.Idx) :=
    funext fun a => Fin.ext (by
      match a with
      | ⟨0, _⟩ => exact hpv.symm
      | ⟨1, _⟩ => exact hqv.symm)
  have hR : ((cfg11.win 3).blk t).view.emb j = (ix2 r q : S500x128.Idx) :=
    funext fun a => Fin.ext (by
      match a with
      | ⟨0, _⟩ => show win11_3.index t (0 : Fin 2) * 500 + 1 * (j 0).val = r.val; omega
      | ⟨1, _⟩ => show win11_3.index t (1 : Fin 2) * 128 + 1 * (j 1).val = q.val; omega)
  show k11_pay1 (F := Ideal) (iblk11 V c 0 t) (iblk11 V c 1 t) (iblk11 V c 2 t) ((cfg11.win 3).xinj (grid11.coords t) j)
    = (dense id (V c main_v143 : S500x128.Idx → EReal) (V c main_arg37 : S128x128.Idx → EReal) (V c main_v148 : S1x128.Idx → EReal))
        (((cfg11.win 3).blk t).view.emb j)
  rw [hL, hR]
  refine (pay11_at (iblk11 V c 0 t) (iblk11 V c 1 t) (iblk11 V c 2 t) p q).trans ?_
  refine dense_rows id _ _ _ _ _ _ p r q (fun k => ?_) (fun k => ?_) ?_
  · show V c main_v143 (((cfg11.win 0).blk t).view.emb (ix2 p k : S500x128.Idx)) = V c main_v143 (ix2 r k : S500x128.Idx)
    refine congrArg _ (funext fun a => Fin.ext ?_)
    match a with
    | ⟨0, _⟩ => show win11_0.index t (0 : Fin 2) * 500 + 1 * p.val = r.val; omega
    | ⟨1, _⟩ => show win11_0.index t (1 : Fin 2) * 128 + 1 * k.val = k.val; omega
  · show V c main_arg37 (((cfg11.win 1).blk t).view.emb (ix2 k q : S128x128.Idx)) = V c main_arg37 (ix2 k q : S128x128.Idx)
    refine congrArg _ (funext fun a => Fin.ext ?_)
    match a with
    | ⟨0, _⟩ => show win11_1.index t (0 : Fin 2) * 128 + 1 * k.val = k.val; omega
    | ⟨1, _⟩ => show win11_1.index t (1 : Fin 2) * 128 + 1 * q.val = q.val; omega
  · show V c main_v148 (((cfg11.win 2).blk t).view.emb (ix2 (0 : Fin 1) q : S1x128.Idx)) = V c main_v148 (ix2 (0 : Fin 1) q : S1x128.Idx)
    refine congrArg _ (funext fun a => Fin.ext ?_)
    match a with
    | ⟨0, _⟩ => show win11_2.index t (0 : Fin 2) * 1 + 1 * (0 : Fin 1).val = (0 : Fin 1).val; omega
    | ⟨1, _⟩ => show win11_2.index t (1 : Fin 2) * 128 + 1 * q.val = q.val; omega

/-- An index of the result array is in point t's block iff each coordinate is in the block's range on its axis. -/
theorem mem_blk11 (t : Fin cfg11.N) (i : S500x128.Idx) :
    i ∈ ((cfg11.win 3).blk t).view.set ↔ ∀ a : Fin 2, win11_3.index t a * S500x128.size a ≤ (i a).val
      ∧ (i a).val < win11_3.index t a * S500x128.size a + S500x128.size a := by
  show i ∈ ((View.whole main_v149).slice (win11_3.rect t)).set ↔ _
  rw [View.set_slice_whole, Rect.mem_set_unit]
  exact Iff.rfl

/-- Row r of the result lies in the block of point r / 500. -/
theorem cover11 (i : S500x128.Idx) :
    ∃ t : Fin cfg11.N, (cfg11.win 3).flush t = true ∧ i ∈ ((cfg11.win 3).blk t).view.set := by
  have hi0 : (i 0).val < 500 := (i 0).isLt
  have hi1 : (i 1).val < 128 := (i 1).isLt
  have hN : cfg11.N = 1 := N_11
  obtain ⟨t, htv⟩ : ∃ t : Fin cfg11.N, t.val = (i 0).val / 500 := ⟨⟨(i 0).val / 500, by omega⟩, rfl⟩
  obtain ⟨-, -, -, -, -, -, e6, e7⟩ := idx11 t
  refine ⟨t, flush11_3 t, ?_⟩
  rw [mem_blk11]
  intro a
  match a with
  | ⟨0, _⟩ =>
    show win11_3.index t (0 : Fin 2) * 500 ≤ (i 0).val ∧ (i 0).val < win11_3.index t (0 : Fin 2) * 500 + 500
    omega
  | ⟨1, _⟩ =>
    show win11_3.index t (1 : Fin 2) * 128 ≤ (i 1).val ∧ (i 1).val < win11_3.index t (1 : Fin 2) * 128 + 128
    omega

/-- The result array after the region: the dense layer of the input array, the weights and the bias row. -/
theorem out11 (c : Dev nD) :
    (dat11 (F := Ideal) V c).arrAt 3 cfg11.N
      = dense id (V c main_v143 : S500x128.Idx → EReal) (V c main_arg37 : S128x128.Idx → EReal) (V c main_v148 : S1x128.Idx → EReal) :=
  (dat11 (F := Ideal) V c).arrAt_eq_of_cover 3 _ (fun t _ => flushed11 V c t) cover11

end Cert.KernelIdeal.Region

end
-- ==== Proof.FoldHeads.lean ====
/-
  The three heads at the boundaries of the fold, and the three results at the program's return: each result buffer
  holds the linear layer of its node type's second-layer features, and no later region or host operation writes it.
-/
import proofs.«118985_j35038343201327_2_alg».proof.Proof.Gen.KernelIdeal.Frame
import proofs.«118985_j35038343201327_2_alg».proof.Proof.KSpec
import proofs.«118985_j35038343201327_2_alg».proof.Proof.FoldArgsC
import proofs.«118985_j35038343201327_2_alg».proof.Proof.FoldLayer2
import proofs.«118985_j35038343201327_2_alg».proof.Proof.Region9
import proofs.«118985_j35038343201327_2_alg».proof.Proof.Region10
import proofs.«118985_j35038343201327_2_alg».proof.Proof.Region11

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Hetero

variable (m : (ℓ : Loc nD τ sig) → Buf (Elt Ideal) ℓ) (ρ : Dev nD → PrngReg)

theorem v141_keep19_16 (c : Dev nD) : W19 m ρ c (Proc.devRef .tc main_v141) = W16 m ρ c (Proc.devRef .tc main_v141) :=
  calc W19 m ρ c (Proc.devRef .tc main_v141)
    _ = W18 m ρ c (Proc.devRef .tc main_v141) := (StableHlo.after_of_forall_not_mem (b := Proc.devRef .tc main_v141) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_v141) := W18_of_ne m ρ c main_v141 (by decide)
    _ = W16 m ρ c (Proc.devRef .tc main_v141) := (StableHlo.after_of_forall_not_mem (b := Proc.devRef .tc main_v141) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v144_at19 (c : Dev nD) : W19 m ρ c (Proc.devRef .tc main_v144) = K.row (m ((c : Thread nD τ).loc main_arg34)) := by
  have h : W19 m ρ c (Proc.devRef .tc main_v144) = K.row (W18 m ρ c (Proc.devRef .tc main_arg34)) := by
    show StableHlo.after hostOps9 (W18 m ρ c) (Proc.devRef .tc main_v144) = _
    after_results; rfl
  rw [h, arg34_at18 m ρ c]

theorem user_at20 (c : Dev nD) : W20 m ρ c (Proc.devRef .tc main_v145) = K.outUser (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg27)) (m ((c : Thread nD τ).loc main_arg28)) (m ((c : Thread nD τ).loc main_arg33)) (m ((c : Thread nD τ).loc main_arg34)) := by
  refine (W20_arr m ρ c 3).trans ?_
  rw [Cert.KernelIdeal.Region.out9 (V19 m ρ) c]
  rw [show V19 m ρ c main_v141 = K.u2 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg27)) (m ((c : Thread nD τ).loc main_arg28)) from (v141_keep19_16 m ρ c).trans (u2_at16 m ρ c),
    show V19 m ρ c main_arg33 = (m ((c : Thread nD τ).loc main_arg33)) from arg33_at19 m ρ c,
    show V19 m ρ c main_v144 = K.row (m ((c : Thread nD τ).loc main_arg34)) from v144_at19 m ρ c]
  rfl

theorem v139_keep21_14 (c : Dev nD) : W21 m ρ c (Proc.devRef .tc main_v139) = W14 m ρ c (Proc.devRef .tc main_v139) :=
  calc W21 m ρ c (Proc.devRef .tc main_v139)
    _ = W20 m ρ c (Proc.devRef .tc main_v139) := (StableHlo.after_of_forall_not_mem (b := Proc.devRef .tc main_v139) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W19 m ρ c (Proc.devRef .tc main_v139) := W20_of_ne m ρ c main_v139 (by decide)
    _ = W18 m ρ c (Proc.devRef .tc main_v139) := (StableHlo.after_of_forall_not_mem (b := Proc.devRef .tc main_v139) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W17 m ρ c (Proc.devRef .tc main_v139) := W18_of_ne m ρ c main_v139 (by decide)
    _ = W16 m ρ c (Proc.devRef .tc main_v139) := (StableHlo.after_of_forall_not_mem (b := Proc.devRef .tc main_v139) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W15 m ρ c (Proc.devRef .tc main_v139) := W16_of_ne m ρ c main_v139 (by decide)
    _ = W14 m ρ c (Proc.devRef .tc main_v139) := (StableHlo.after_of_forall_not_mem (b := Proc.devRef .tc main_v139) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v146_at21 (c : Dev nD) : W21 m ρ c (Proc.devRef .tc main_v146) = K.row (m ((c : Thread nD τ).loc main_arg36)) := by
  have h : W21 m ρ c (Proc.devRef .tc main_v146) = K.row (W20 m ρ c (Proc.devRef .tc main_arg36)) := by
    show StableHlo.after hostOps10 (W20 m ρ c) (Proc.devRef .tc main_v146) = _
    after_results; rfl
  rw [h, arg36_at20 m ρ c]

theorem post_at22 (c : Dev nD) : W22 m ρ c (Proc.devRef .tc main_v147) = K.outPost (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) (m ((c : Thread nD τ).loc main_arg31)) (m ((c : Thread nD τ).loc main_arg32)) (m ((c : Thread nD τ).loc main_arg35)) (m ((c : Thread nD τ).loc main_arg36)) := by
  refine (W22_arr m ρ c 3).trans ?_
  rw [Cert.KernelIdeal.Region.out10 (V21 m ρ) c]
  rw [show V21 m ρ c main_v139 = K.p2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) (m ((c : Thread nD τ).loc main_arg31)) (m ((c : Thread nD τ).loc main_arg32)) from (v139_keep21_14 m ρ c).trans (p2_at14 m ρ c),
    show V21 m ρ c main_arg35 = (m ((c : Thread nD τ).loc main_arg35)) from arg35_at21 m ρ c,
    show V21 m ρ c main_v146 = K.row (m ((c : Thread nD τ).loc main_arg36)) from v146_at21 m ρ c]
  rfl

theorem v143_keep23_18 (c : Dev nD) : W23 m ρ c (Proc.devRef .tc main_v143) = W18 m ρ c (Proc.devRef .tc main_v143) :=
  calc W23 m ρ c (Proc.devRef .tc main_v143)
    _ = W22 m ρ c (Proc.devRef .tc main_v143) := (StableHlo.after_of_forall_not_mem (b := Proc.devRef .tc main_v143) _ _ (List.forall_iff_forall_mem.mp (by
        simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W21 m ρ c (Proc.devRef .tc main_v143) := W22_of_ne m ρ c main_v143 (by decide)
    _ = W20 m ρ c (Proc.devRef .tc main_v143) := (StableHlo.after_of_forall_not_mem (b := Proc.devRef .tc main_v143) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W19 m ρ c (Proc.devRef .tc main_v143) := W20_of_ne m ρ c main_v143 (by decide)
    _ = W18 m ρ c (Proc.devRef .tc main_v143) := (StableHlo.after_of_forall_not_mem (b := Proc.devRef .tc main_v143) _ _ (List.forall_iff_forall_mem.mp (by
        simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v148_at23 (c : Dev nD) : W23 m ρ c (Proc.devRef .tc main_v148) = K.row (m ((c : Thread nD τ).loc main_arg38)) := by
  have h : W23 m ρ c (Proc.devRef .tc main_v148) = K.row (W22 m ρ c (Proc.devRef .tc main_arg38)) := by
    show StableHlo.after hostOps11 (W22 m ρ c) (Proc.devRef .tc main_v148) = _
    after_results; rfl
  rw [h, arg38_at22 m ρ c]

theorem sub_at24 (c : Dev nD) : W24 m ρ c (Proc.devRef .tc main_v149) = K.outSub (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg37)) (m ((c : Thread nD τ).loc main_arg38)) := by
  refine (W24_arr m ρ c 3).trans ?_
  rw [Cert.KernelIdeal.Region.out11 (V23 m ρ) c]
  rw [show V23 m ρ c main_v143 = K.s2 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) from (v143_keep23_18 m ρ c).trans (s2_at18 m ρ c),
    show V23 m ρ c main_arg37 = (m ((c : Thread nD τ).loc main_arg37)) from arg37_at23 m ρ c,
    show V23 m ρ c main_v148 = K.row (m ((c : Thread nD τ).loc main_arg38)) from v148_at23 m ρ c]
  rfl

theorem v145_keep24_20 (c : Dev nD) : W24 m ρ c (Proc.devRef .tc main_v145) = W20 m ρ c (Proc.devRef .tc main_v145) :=
  calc W24 m ρ c (Proc.devRef .tc main_v145)
    _ = W23 m ρ c (Proc.devRef .tc main_v145) := W24_of_ne m ρ c main_v145 (by decide)
    _ = W22 m ρ c (Proc.devRef .tc main_v145) := (StableHlo.after_of_forall_not_mem (b := Proc.devRef .tc main_v145) _ _ (List.forall_iff_forall_mem.mp (by
        simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W21 m ρ c (Proc.devRef .tc main_v145) := W22_of_ne m ρ c main_v145 (by decide)
    _ = W20 m ρ c (Proc.devRef .tc main_v145) := (StableHlo.after_of_forall_not_mem (b := Proc.devRef .tc main_v145) _ _ (List.forall_iff_forall_mem.mp (by
        simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem v147_keep24_22 (c : Dev nD) : W24 m ρ c (Proc.devRef .tc main_v147) = W22 m ρ c (Proc.devRef .tc main_v147) :=
  calc W24 m ρ c (Proc.devRef .tc main_v147)
    _ = W23 m ρ c (Proc.devRef .tc main_v147) := W24_of_ne m ρ c main_v147 (by decide)
    _ = W22 m ρ c (Proc.devRef .tc main_v147) := (StableHlo.after_of_forall_not_mem (b := Proc.devRef .tc main_v147) _ _ (List.forall_iff_forall_mem.mp (by
        simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

theorem user_at24 (c : Dev nD) : W24 m ρ c (Proc.devRef .tc main_v145) = K.outUser (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg27)) (m ((c : Thread nD τ).loc main_arg28)) (m ((c : Thread nD τ).loc main_arg33)) (m ((c : Thread nD τ).loc main_arg34)) :=
  (v145_keep24_20 m ρ c).trans (user_at20 m ρ c)

theorem post_at24 (c : Dev nD) : W24 m ρ c (Proc.devRef .tc main_v147) = K.outPost (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg19)) (m ((c : Thread nD τ).loc main_arg20)) (m ((c : Thread nD τ).loc main_arg21)) (m ((c : Thread nD τ).loc main_arg22)) (m ((c : Thread nD τ).loc main_arg25)) (m ((c : Thread nD τ).loc main_arg26)) (m ((c : Thread nD τ).loc main_arg31)) (m ((c : Thread nD τ).loc main_arg32)) (m ((c : Thread nD τ).loc main_arg35)) (m ((c : Thread nD τ).loc main_arg36)) :=
  (v147_keep24_22 m ρ c).trans (post_at22 m ρ c)

end Cert.KernelIdeal.Fold

end
-- ==== Proof.KernelValue.lean ====
/-
  The idealized kernel program's run with its three results as functions of the arguments: every weakly fair execution
  terminates without a fault, the users', posts' and subs' result buffers end at the network's three output functions
  (KSpec) of the launch contents of the argument arrays, and the argument arrays end as launched.  It is the run with
  the results read at the last boundary of the fold, composed with the fold's last three stage equations.
-/
import proofs.«118985_j35038343201327_2_alg».proof.Proof.Gen.KernelIdeal.Frame
import proofs.«118985_j35038343201327_2_alg».proof.Proof.KSpec
import proofs.«118985_j35038343201327_2_alg».proof.Proof.KernelRun
import proofs.«118985_j35038343201327_2_alg».proof.Proof.FoldHeads

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Hetero

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v145) = K.outUser (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg23)) (m ((c.tc : Thread nD τ).loc main_arg24)) (m ((c.tc : Thread nD τ).loc main_arg27)) (m ((c.tc : Thread nD τ).loc main_arg28)) (m ((c.tc : Thread nD τ).loc main_arg33)) (m ((c.tc : Thread nD τ).loc main_arg34))
      ∧ r.2.mem ((c.tc : Thread nD τ).loc main_v147) = K.outPost (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg25)) (m ((c.tc : Thread nD τ).loc main_arg26)) (m ((c.tc : Thread nD τ).loc main_arg31)) (m ((c.tc : Thread nD τ).loc main_arg32)) (m ((c.tc : Thread nD τ).loc main_arg35)) (m ((c.tc : Thread nD τ).loc main_arg36))
      ∧ r.2.mem ((c.tc : Thread nD τ).loc main_v149) = K.outSub (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg23)) (m ((c.tc : Thread nD τ).loc main_arg24)) (m ((c.tc : Thread nD τ).loc main_arg29)) (m ((c.tc : Thread nD τ).loc main_arg30)) (m ((c.tc : Thread nD τ).loc main_arg37)) (m ((c.tc : Thread nD τ).loc main_arg38))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  (θ_run defs _ _).mono (fun r h c =>
    ⟨(h c).1.trans (user_at24 m ρ c), (h c).2.1.trans (post_at24 m ρ c), (h c).2.2.1.trans (sub_at24 m ρ c), (h c).2.2.2⟩)
    (Cert.KernelIdeal.Results.run (F := Ideal) m ρ)

end Cert.KernelIdeal.Fold

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibDenseHost.lean ====
/-
  Dense layers and the combine step, spelt with the host's operations.
-/
import proofs.«118985_j35038343201327_2_alg».proof.Proof.LibDense
import proofs.«118985_j35038343201327_2_alg».proof.Proof.LibIndexNorm
import proofs.«118985_j35038343201327_2_alg».proof.Proof.LibKeepdims

noncomputable section

namespace Cert.Lib.Dense

open Idealize.ShloMosaic Idealize.ShloMosaic.ValueIdx
open scoped BigOperators

/-! ## The same layers spelt with the host's operations

  On the host a dense layer is `act (dot(x, w) + rows(row(b)))`: the bias vector made a row, the row spread over all
  rows.  In the kernel the bias vector is cast to a row and the layer is `dense`.  Entry by entry both are
  `act ((∑ k, x(p, k) · w(k, q)) + b(q))`.  Likewise the combine step: the kernel casts the squared scale vector to a
  column, the host spreads it over the columns. -/

section HostForms

open Cert.Lib.IndexNorm Cert.Lib.Keepdims

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

theorem exists_ix2 {a b : ℕ} (i : (⟨2, ![a, b]⟩ : Shape).Idx) : ∃ (p : Fin a) (q : Fin b), i = ix2 p q :=
  ⟨i 0, i 1, eq_ix2 i⟩

include hlc hrc hln hrn hlb hrb in
/-- A dense layer whose bias row is a vector cast to a row is the host's `act (dot + spread bias)`. -/
theorem dense_eq_host (act : EReal → EReal) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense act x w (shapeCast ⟨2, ![1, N]⟩ b hc)
      = fun i => act (addf (F := Ideal) (Host.dotGeneral D none x w)
          (broadcastInDim ⟨2, ![M, N]⟩ ![0, 1] h₂ (broadcastInDim ⟨2, ![1, N]⟩ ![1] h₁ b)) i) := by
  funext i
  obtain ⟨p, q, rfl⟩ := exists_ix2 i
  rw [dense_ix2]
  refine congrArg act (congrArg₂ (fun a b : EReal => a + b) ?_ ?_)
  · exact (dotGeneral_at D hlc hrc hln hrn hlb hrb x w p q).symm
  · exact (shapeCast_a_1a_apply b hc 0 q).trans (bcast_row_rows_apply b h₁ h₂ p q).symm

include hlc hrc hln hrn hlb hrb in
/-- With tanh: the host's `tanh (dot + spread bias)`. -/
theorem dense_tanh_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense Ideal.tanh x w (shapeCast ⟨2, ![1, N]⟩ b hc)
      = Host.tanh (F := Ideal) (addf (F := Ideal) (Host.dotGeneral D none x w)
          (broadcastInDim ⟨2, ![M, N]⟩ ![0, 1] h₂ (broadcastInDim ⟨2, ![1, N]⟩ ![1] h₁ b))) :=
  (dense_eq_host D hlc hrc hln hrn hlb hrb Ideal.tanh x w b hc h₁ h₂).trans
    (funext fun i => (Ideal.hostUnary_tanh_def _).symm)

include hlc hrc hln hrn hlb hrb in
/-- Without an activation: the host's `dot + spread bias`. -/
theorem dense_id_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense id x w (shapeCast ⟨2, ![1, N]⟩ b hc)
      = addf (F := Ideal) (Host.dotGeneral D none x w)
          (broadcastInDim ⟨2, ![M, N]⟩ ![0, 1] h₂ (broadcastInDim ⟨2, ![1, N]⟩ ![1] h₁ b)) :=
  (dense_eq_host D hlc hrc hln hrn hlb hrb id x w b hc h₁ h₂).trans rfl

include hlc hrc hln hrn hlb hrb in
/-- A dense layer whose bias row is the zero vector cast to a row is the host's plain dot product. -/
theorem dense_zero_eq_dot (x : FVec Ideal ⟨2, ![M, K]⟩ .f32) (w : FVec Ideal ⟨2, ![K, N]⟩ .f32)
    (h₀ : (⟨0, ![]⟩ : Shape).BroadcastsInDim ⟨1, ![N]⟩ ![]) (hc : (⟨1, ![N]⟩ : Shape).ShapeCasts ⟨2, ![1, N]⟩) :
    dense id x w (shapeCast ⟨2, ![1, N]⟩
        (broadcastInDim ⟨1, ![N]⟩ ![] h₀ (constant (F := Ideal) ⟨0, ![]⟩ .f32 0x00000000#32)) hc)
      = Host.dotGeneral D none x w := by
  funext i
  obtain ⟨p, q, rfl⟩ := exists_ix2 i
  rw [dense_ix2]
  have hz : shapeCast ⟨2, ![1, N]⟩ (broadcastInDim ⟨1, ![N]⟩ ![] h₀ (constant (F := Ideal) ⟨0, ![]⟩ .f32 0x00000000#32)) hc
      (ix2 (0 : Fin 1) q) = (0 : EReal) :=
    (shapeCast_a_1a_apply _ hc 0 q).trans
      ((broadcastInDim_apply ![] h₀ _ (ix1 q) ix0 (fun a => a.elim0)).trans Ideal.ofBits_zero_f32)
  show rowDot x w p q + _ = _
  rw [hz, add_zero]
  exact (dotGeneral_at D hlc hrc hln hrn hlb hrb x w p q).symm

/-- The combine step with the squared scale vector cast to a column and the bias vector cast to a row is the host's
    `tanh((a + h · cols(col(d · d))) + rows(row(b)))`. -/
theorem combine_eq_host (a h : FVec Ideal ⟨2, ![M, N]⟩ .f32) (d : FVec Ideal ⟨1, ![M]⟩ .f32) (b : FVec Ideal ⟨1, ![N]⟩ .f32)
    (hc₁ : (⟨1, ![M]⟩ : Shape).ShapeCasts ⟨2, ![M, 1]⟩) (hc₂ : (⟨1, ![N]⟩ : Shape).ShapeCasts ⟨2, ![1, N]⟩)
    (hd₁ : (⟨1, ![M]⟩ : Shape).BroadcastsInDim ⟨2, ![M, 1]⟩ ![0])
    (hd₂ : (⟨2, ![M, 1]⟩ : Shape).BroadcastsInDim ⟨2, ![M, N]⟩ ![0, 1])
    (hb₁ : (⟨1, ![N]⟩ : Shape).BroadcastsInDim ⟨2, ![1, N]⟩ ![1])
    (hb₂ : (⟨2, ![1, N]⟩ : Shape).BroadcastsInDim ⟨2, ![M, N]⟩ ![0, 1]) :
    combine a h (shapeCast ⟨2, ![M, 1]⟩ (mulf (F := Ideal) d d) hc₁) (shapeCast ⟨2, ![1, N]⟩ b hc₂)
      = Host.tanh (F := Ideal) (addf (addf a (mulf h
          (broadcastInDim ⟨2, ![M, N]⟩ ![0, 1] hd₂ (broadcastInDim ⟨2, ![M, 1]⟩ ![0] hd₁ (mulf (F := Ideal) d d)))))
          (broadcastInDim ⟨2, ![M, N]⟩ ![0, 1] hb₂ (broadcastInDim ⟨2, ![1, N]⟩ ![1] hb₁ b))) := by
  funext i
  obtain ⟨p, q, rfl⟩ := exists_ix2 i
  rw [combine_ix2]
  refine congrArg Ideal.tanh (congrArg₂ (fun a b : EReal => a + b) (congrArg₂ (fun a b : EReal => a + b) rfl
    (congrArg₂ (fun a b : EReal => a * b) rfl ?_)) ?_)
  · exact (shapeCast_a_a1_apply _ hc₁ p 0).trans (bcast_col_cols_apply _ hd₁ hd₂ p q).symm
  · exact (shapeCast_a_1a_apply b hc₂ 0 q).trans (bcast_row_rows_apply b hb₁ hb₂ p q).symm

end HostForms

end Cert.Lib.Dense

end
-- ==== Proof.LayerHost.lean ====
/-
  The convolution layers of the relational graph network, spelt with the host's operations.

  The host program divides each aggregate by the clamped in-degree BEFORE the matrix product:
      max( dot(s / cols(col(max(cnt, 1))), w) + rows(row(b)), 0 ),
  while the layer shapes comb1 and comb2 scale the product by the reciprocal in-degree column AFTER it:
      max( dot(s, w)(p, q) · (1 / max(cnt, 1))(p) + b(q), 0 ).
  Entry by entry both are the same extended real: the divisor is at least one, so its reciprocal is a nonnegative
  real, and a nonnegative real factor moves inside a finite sum of products (rowDot_scale).  No finiteness of the
  aggregates, the weights or the counts is used.
-/
import proofs.«118985_j35038343201327_2_alg».proof.Proof.LibDenseHost
import proofs.«118985_j35038343201327_2_alg».proof.Proof.Spec
import Idealize.ShloMosaic.Lib.IdealHost

noncomputable section

namespace Cert.Hetero.Layer

open Idealize.ShloMosaic Idealize.ShloMosaic.ValueIdx Cert.Lib.Dense Cert.Lib.IndexNorm Cert.Lib.Keepdims Cert.Hetero
open scoped BigOperators

/-- Widening a float format changes nothing on the extended reals. -/
theorem extf_self {s : Shape} {φ ψ : FTy} (x : FVec Ideal s φ) (h : φ.bits < ψ.bits) :
    extf (F := Ideal) ψ x h = x := rfl

/-- The splat of the pattern of one reads one everywhere. -/
theorem splat_one_apply {T : Shape} (h : (⟨0, ![]⟩ : Shape).BroadcastsInDim T ![]) (j : T.Idx) :
    broadcastInDim T ![] h (constant (F := Ideal) ⟨0, ![]⟩ .f32 0x3F800000#32) j = (1 : EReal) :=
  (broadcastInDim_scalar_apply h _ j).trans Ideal.ofBits_one_f32

/-- The splat of the pattern of zero reads zero everywhere. -/
theorem splat_zero_apply {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply h _ j).trans Ideal.ofBits_zero_f32

section Scaled

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- Entry (p, q): the product scaled by the reciprocal of the clamped count is the product of the rows divided by
    the clamped count.  The clamped count is at least one, which is all the scaling law asks. -/
theorem scaled_dot_at (s : FVec Ideal ⟨2, ![M, K]⟩ .f32) (w : FVec Ideal ⟨2, ![K, N]⟩ .f32)
    (cnt o m m' : FVec Ideal ⟨1, ![M]⟩ .f32)
    (ho : ∀ i, o i = (1 : EReal)) (hm : ∀ i, m i = (1 : EReal)) (hm' : ∀ i, m' i = (1 : EReal))
    (hcol : (⟨1, ![M]⟩ : Shape).BroadcastsInDim ⟨2, ![M, 1]⟩ ![0])
    (hcols : (⟨2, ![M, 1]⟩ : Shape).BroadcastsInDim ⟨2, ![M, K]⟩ ![0, 1]) (p : Fin M) (q : Fin N) :
    rowDot s w p q
        * broadcastInDim ⟨2, ![M, 1]⟩ ![0] hcol (Host.divf (F := Ideal) o (maximumf (F := Ideal) cnt m)) (ix2 p (0 : Fin 1))
      = Host.dotGeneral D none (Host.divf (F := Ideal) s
          (broadcastInDim ⟨2, ![M, K]⟩ ![0, 1] hcols
            (broadcastInDim ⟨2, ![M, 1]⟩ ![0] hcol (maximumf (F := Ideal) cnt m')))) w (ix2 p q) := by
  have hc : (1 : EReal) ≤ max (cnt (ix1 p)) 1 := le_max_right _ _
  have hL : broadcastInDim ⟨2, ![M, 1]⟩ ![0] hcol (Host.divf (F := Ideal) o (maximumf (F := Ideal) cnt m)) (ix2 p (0 : Fin 1))
      = Ideal.div 1 (max (cnt (ix1 p)) 1) := by
    refine (bcast_col_apply _ hcol p).trans ?_
    show Ideal.div (o (ix1 p)) (max (cnt (ix1 p)) (m (ix1 p))) = _
    rw [ho, hm]
  have hR : ∀ k : Fin K, Host.divf (F := Ideal) s
        (broadcastInDim ⟨2, ![M, K]⟩ ![0, 1] hcols
          (broadcastInDim ⟨2, ![M, 1]⟩ ![0] hcol (maximumf (F := Ideal) cnt m'))) (ix2 p k)
      = Ideal.div (s (ix2 p k)) (max (cnt (ix1 p)) 1) := fun k => by
    show Ideal.div (s (ix2 p k)) (broadcastInDim ⟨2, ![M, K]⟩ ![0, 1] hcols
          (broadcastInDim ⟨2, ![M, 1]⟩ ![0] hcol (maximumf (F := Ideal) cnt m')) (ix2 p k)) = _
    rw [bcast_col_cols_apply _ hcol hcols p k]
    show Ideal.div (s (ix2 p k)) (max (cnt (ix1 p)) (m' (ix1 p))) = _
    rw [hm']
  rw [hL, rowDot_scale s w _ hc p q, dotGeneral_at D hlc hrc hln hrn hlb hrb _ w p q]
  exact Finset.sum_congr rfl fun k _ => by rw [hR k]

include hlc hrc hln hrn hlb hrb in
/-- One relation: scaling after the product (the layer shape) is dividing before it (the host's spelling). -/
theorem comb1_eq_host (s : FVec Ideal ⟨2, ![M, K]⟩ .f32) (w : FVec Ideal ⟨2, ![K, N]⟩ .f32)
    (cnt o m m' : FVec Ideal ⟨1, ![M]⟩ .f32) (b : FVec Ideal ⟨1, ![N]⟩ .f32) (z : FVec Ideal ⟨2, ![M, N]⟩ .f32)
    (ho : ∀ i, o i = (1 : EReal)) (hm : ∀ i, m i = (1 : EReal)) (hm' : ∀ i, m' i = (1 : EReal))
    (hz : ∀ i, z i = (0 : EReal))
    (hcol : (⟨1, ![M]⟩ : Shape).BroadcastsInDim ⟨2, ![M, 1]⟩ ![0])
    (hcols : (⟨2, ![M, 1]⟩ : Shape).BroadcastsInDim ⟨2, ![M, K]⟩ ![0, 1])
    (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    comb1 s (broadcastInDim ⟨2, ![M, 1]⟩ ![0] hcol (Host.divf (F := Ideal) o (maximumf (F := Ideal) cnt m))) w
        (shapeCast ⟨2, ![1, N]⟩ b hc)
      = maximumf (F := Ideal) (addf (F := Ideal)
          (Host.dotGeneral D none (Host.divf (F := Ideal) s
            (broadcastInDim ⟨2, ![M, K]⟩ ![0, 1] hcols
              (broadcastInDim ⟨2, ![M, 1]⟩ ![0] hcol (maximumf (F := Ideal) cnt m')))) w)
          (broadcastInDim ⟨2, ![M, N]⟩ ![0, 1] h₂ (broadcastInDim ⟨2, ![1, N]⟩ ![1] h₁ b))) z := by
  funext i
  obtain ⟨p, q, rfl⟩ := exists_ix2 i
  rw [comb1_ix2]
  refine congrArg₂ (fun a b : EReal => max a b) (congrArg₂ (fun a b : EReal => a + b) ?_ ?_) (hz _).symm
  · exact scaled_dot_at D hlc hrc hln hrn hlb hrb s w cnt o m m' ho hm hm' hcol hcols p q
  · exact (shapeCast_a_1a_apply b hc 0 q).trans (bcast_row_rows_apply b h₁ h₂ p q).symm

include hlc hrc hln hrn hlb hrb in
/-- Two relations on one destination type, in the host's order ((d₁ + b₁) + d₂) + b₂. -/
theorem comb2_eq_host (s₁ s₂ : FVec Ideal ⟨2, ![M, K]⟩ .f32) (w₁ w₂ : FVec Ideal ⟨2, ![K, N]⟩ .f32)
    (cnt₁ o₁ m₁ m₁' cnt₂ o₂ m₂ m₂' : FVec Ideal ⟨1, ![M]⟩ .f32) (b₁ b₂ : FVec Ideal ⟨1, ![N]⟩ .f32)
    (z : FVec Ideal ⟨2, ![M, N]⟩ .f32)
    (ho₁ : ∀ i, o₁ i = (1 : EReal)) (hm₁ : ∀ i, m₁ i = (1 : EReal)) (hm₁' : ∀ i, m₁' i = (1 : EReal))
    (ho₂ : ∀ i, o₂ i = (1 : EReal)) (hm₂ : ∀ i, m₂ i = (1 : EReal)) (hm₂' : ∀ i, m₂' i = (1 : EReal))
    (hz : ∀ i, z i = (0 : EReal))
    (hcol : (⟨1, ![M]⟩ : Shape).BroadcastsInDim ⟨2, ![M, 1]⟩ ![0])
    (hcols : (⟨2, ![M, 1]⟩ : Shape).BroadcastsInDim ⟨2, ![M, K]⟩ ![0, 1])
    (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    comb2 s₁ (broadcastInDim ⟨2, ![M, 1]⟩ ![0] hcol (Host.divf (F := Ideal) o₁ (maximumf (F := Ideal) cnt₁ m₁))) w₁
        (shapeCast ⟨2, ![1, N]⟩ b₁ hc)
        s₂ (broadcastInDim ⟨2, ![M, 1]⟩ ![0] hcol (Host.divf (F := Ideal) o₂ (maximumf (F := Ideal) cnt₂ m₂))) w₂
        (shapeCast ⟨2, ![1, N]⟩ b₂ hc)
      = maximumf (F := Ideal) (addf (F := Ideal) (addf (F := Ideal) (addf (F := Ideal)
          (Host.dotGeneral D none (Host.divf (F := Ideal) s₁
            (broadcastInDim ⟨2, ![M, K]⟩ ![0, 1] hcols
              (broadcastInDim ⟨2, ![M, 1]⟩ ![0] hcol (maximumf (F := Ideal) cnt₁ m₁')))) w₁)
          (broadcastInDim ⟨2, ![M, N]⟩ ![0, 1] h₂ (broadcastInDim ⟨2, ![1, N]⟩ ![1] h₁ b₁)))
          (Host.dotGeneral D none (Host.divf (F := Ideal) s₂
            (broadcastInDim ⟨2, ![M, K]⟩ ![0, 1] hcols
              (broadcastInDim ⟨2, ![M, 1]⟩ ![0] hcol (maximumf (F := Ideal) cnt₂ m₂')))) w₂))
          (broadcastInDim ⟨2, ![M, N]⟩ ![0, 1] h₂ (broadcastInDim ⟨2, ![1, N]⟩ ![1] h₁ b₂))) z := by
  funext i
  obtain ⟨p, q, rfl⟩ := exists_ix2 i
  rw [comb2_ix2]
  refine congrArg₂ (fun a b : EReal => max a b) (congrArg₂ (fun a b : EReal => a + b)
    (congrArg₂ (fun a b : EReal => a + b) (congrArg₂ (fun a b : EReal => a + b) ?_ ?_) ?_) ?_) (hz _).symm
  · exact scaled_dot_at D hlc hrc hln hrn hlb hrb s₁ w₁ cnt₁ o₁ m₁ m₁' ho₁ hm₁ hm₁' hcol hcols p q
  · exact (shapeCast_a_1a_apply b₁ hc 0 q).trans (bcast_row_rows_apply b₁ h₁ h₂ p q).symm
  · exact scaled_dot_at D hlc hrc hln hrn hlb hrb s₂ w₂ cnt₂ o₂ m₂ m₂' ho₂ hm₂ hm₂' hcol hcols p q
  · exact (shapeCast_a_1a_apply b₂ hc 0 q).trans (bcast_row_rows_apply b₂ h₁ h₂ p q).symm

end Scaled

end Cert.Hetero.Layer

end
-- ==== Proof.RefBridge.lean ====
/-
  The kernel-side aggregates and reciprocal in-degree columns, in the reference program's spelling.

  Both programs gather rows by the same wrapped source indices, scatter-add them by the same destination indices
  into the same zero array, and count in-degrees by scatter-adding the same ones.  The two printed programs name the
  operations' dimension records and shape side conditions separately, but the records are equal field by field, and
  on the extended reals widening a float format is the identity.  So each equation below holds by unfolding the
  names; no gather or scatter-add is opened.
-/
import proofs.«118985_j35038343201327_2_alg».proof.Proof.Gen.ReferenceIdeal
import proofs.«118985_j35038343201327_2_alg».proof.Proof.KSpec

noncomputable section

namespace Cert.ReferenceIdeal.RefValue

open Idealize.ShloMosaic Cert.ReferenceIdeal Cert.ReferenceIdeal.Gen Cert.Hetero

/-- The "up" aggregate of any source array, in the reference program's spelling, is the kernel-side aggregate:
    the same gather and scatter-add of the same arguments, and widening the format changes nothing. -/
theorem agg_up_bridge (h : (⟨S50000x128, .f32⟩ : BufTy).Contents (Elt Ideal)) (x3 x4 : (⟨S500000, .i32⟩ : BufTy).Contents (Elt Ideal)) :
    Host.scatterAdd (F := Ideal) scatter_S100000x128_S500000x1_S500000x128_1_0_0_1 (broadcastInDim S100000x128 ![] bcast_S_S100000x128 (constant (F := Ideal) S_ .f32 0x00000000#32)) (broadcastInDim S500000x1 ![0] bcast_S500000_S500000x1_0 (x4)) (Host.gather gather_S50000x128_S500000x1_S500000x128_1_0_n_n_0_1_1128 h (broadcastInDim S500000x1 ![0] bcast_S500000_S500000x1_0 (select (cmpi .slt (x3) (broadcastInDim S500000 ![] bcast_S_S500000 (constantI S_ 32 0#32))) (addi (x3) (broadcastInDim S500000 ![] bcast_S_S500000 (constantI S_ 32 50000#32))) (x3))))
      = K.agg_up h x3 x4 := rfl

/-- The reciprocal in-degree column of "up", with the count in the reference program's spelling. -/
theorem inv_up_bridge (x4 : (⟨S500000, .i32⟩ : BufTy).Contents (Elt Ideal)) :
    K.inv_up x4
      = broadcastInDim S100000x1 ![0] bcast_S100000_S100000x1_0 (Host.divf (F := Ideal) (broadcastInDim S100000 ![] bcast_S_S100000 (constant (F := Ideal) S_ .f32 0x3F800000#32))
          (maximumf (F := Ideal) (Host.scatterAdd (F := Ideal) scatter_S100000_S500000x1_S500000_n_0_0_1 (broadcastInDim S100000 ![] bcast_S_S100000 (constant (F := Ideal) S_ .f32 0x00000000#32)) (broadcastInDim S500000x1 ![0] bcast_S500000_S500000x1_0 (x4)) (broadcastInDim S500000 ![] bcast_S_S500000 (constant (F := Ideal) S_ .f32 0x3F800000#32))) (broadcastInDim S100000 ![] bcast_S_S100000 (constant (F := Ideal) S_ .f32 0x3F800000#32)))) := rfl

/-- The "rb" aggregate of any source array, in the reference program's spelling, is the kernel-side aggregate:
    the same gather and scatter-add of the same arguments, and widening the format changes nothing. -/
theorem agg_rb_bridge (h : (⟨S500x128, .f32⟩ : BufTy).Contents (Elt Ideal)) (x9 x10 : (⟨S100000, .i32⟩ : BufTy).Contents (Elt Ideal)) :
    Host.scatterAdd (F := Ideal) scatter_S100000x128_S100000x1_S100000x128_1_0_0_1 (broadcastInDim S100000x128 ![] bcast_S_S100000x128 (constant (F := Ideal) S_ .f32 0x00000000#32)) (broadcastInDim S100000x1 ![0] bcast_S100000_S100000x1_0 (x10)) (Host.gather gather_S500x128_S100000x1_S100000x128_1_0_n_n_0_1_1128 h (broadcastInDim S100000x1 ![0] bcast_S100000_S100000x1_0 (select (cmpi .slt (x9) (broadcastInDim S100000 ![] bcast_S_S100000 (constantI S_ 32 0#32))) (addi (x9) (broadcastInDim S100000 ![] bcast_S_S100000 (constantI S_ 32 500#32))) (x9))))
      = K.agg_rb h x9 x10 := rfl

/-- The reciprocal in-degree column of "rb", with the count in the reference program's spelling. -/
theorem inv_rb_bridge (x10 : (⟨S100000, .i32⟩ : BufTy).Contents (Elt Ideal)) :
    K.inv_rb x10
      = broadcastInDim S100000x1 ![0] bcast_S100000_S100000x1_0 (Host.divf (F := Ideal) (broadcastInDim S100000 ![] bcast_S_S100000 (constant (F := Ideal) S_ .f32 0x3F800000#32))
          (maximumf (F := Ideal) (Host.scatterAdd (F := Ideal) scatter_S100000_S100000x1_S100000_n_0_0_1 (broadcastInDim S100000 ![] bcast_S_S100000 (constant (F := Ideal) S_ .f32 0x00000000#32)) (broadcastInDim S100000x1 ![0] bcast_S100000_S100000x1_0 (x10)) (broadcastInDim S100000 ![] bcast_S_S100000 (constant (F := Ideal) S_ .f32 0x3F800000#32))) (broadcastInDim S100000 ![] bcast_S_S100000 (constant (F := Ideal) S_ .f32 0x3F800000#32)))) := rfl

/-- The "ru" aggregate of any source array, in the reference program's spelling, is the kernel-side aggregate:
    the same gather and scatter-add of the same arguments, and widening the format changes nothing. -/
theorem agg_ru_bridge (h : (⟨S100000x128, .f32⟩ : BufTy).Contents (Elt Ideal)) (x5 x6 : (⟨S500000, .i32⟩ : BufTy).Contents (Elt Ideal)) :
    Host.scatterAdd (F := Ideal) scatter_S50000x128_S500000x1_S500000x128_1_0_0_1 (broadcastInDim S50000x128 ![] bcast_S_S50000x128 (constant (F := Ideal) S_ .f32 0x00000000#32)) (broadcastInDim S500000x1 ![0] bcast_S500000_S500000x1_0 (x6)) (Host.gather gather_S100000x128_S500000x1_S500000x128_1_0_n_n_0_1_1128 h (broadcastInDim S500000x1 ![0] bcast_S500000_S500000x1_0 (select (cmpi .slt (x5) (broadcastInDim S500000 ![] bcast_S_S500000 (constantI S_ 32 0#32))) (addi (x5) (broadcastInDim S500000 ![] bcast_S_S500000 (constantI S_ 32 100000#32))) (x5))))
      = K.agg_ru h x5 x6 := rfl

/-- The reciprocal in-degree column of "ru", with the count in the reference program's spelling. -/
theorem inv_ru_bridge (x6 : (⟨S500000, .i32⟩ : BufTy).Contents (Elt Ideal)) :
    K.inv_ru x6
      = broadcastInDim S50000x1 ![0] bcast_S50000_S50000x1_0 (Host.divf (F := Ideal) (broadcastInDim S50000 ![] bcast_S_S50000 (constant (F := Ideal) S_ .f32 0x3F800000#32))
          (maximumf (F := Ideal) (Host.scatterAdd (F := Ideal) scatter_S50000_S500000x1_S500000_n_0_0_1 (broadcastInDim S50000 ![] bcast_S_S50000 (constant (F := Ideal) S_ .f32 0x00000000#32)) (broadcastInDim S500000x1 ![0] bcast_S500000_S500000x1_0 (x6)) (broadcastInDim S500000 ![] bcast_S_S500000 (constant (F := Ideal) S_ .f32 0x3F800000#32))) (broadcastInDim S50000 ![] bcast_S_S50000 (constant (F := Ideal) S_ .f32 0x3F800000#32)))) := rfl

/-- The "bt" aggregate of any source array, in the reference program's spelling, is the kernel-side aggregate:
    the same gather and scatter-add of the same arguments, and widening the format changes nothing. -/
theorem agg_bt_bridge (h : (⟨S100000x128, .f32⟩ : BufTy).Contents (Elt Ideal)) (x7 x8 : (⟨S100000, .i32⟩ : BufTy).Contents (Elt Ideal)) :
    Host.scatterAdd (F := Ideal) scatter_S500x128_S100000x1_S100000x128_1_0_0_1 (broadcastInDim S500x128 ![] bcast_S_S500x128 (constant (F := Ideal) S_ .f32 0x00000000#32)) (broadcastInDim S100000x1 ![0] bcast_S100000_S100000x1_0 (x8)) (Host.gather gather_S100000x128_S100000x1_S100000x128_1_0_n_n_0_1_1128 h (broadcastInDim S100000x1 ![0] bcast_S100000_S100000x1_0 (select (cmpi .slt (x7) (broadcastInDim S100000 ![] bcast_S_S100000 (constantI S_ 32 0#32))) (addi (x7) (broadcastInDim S100000 ![] bcast_S_S100000 (constantI S_ 32 100000#32))) (x7))))
      = K.agg_bt h x7 x8 := rfl

/-- The reciprocal in-degree column of "bt", with the count in the reference program's spelling. -/
theorem inv_bt_bridge (x8 : (⟨S100000, .i32⟩ : BufTy).Contents (Elt Ideal)) :
    K.inv_bt x8
      = broadcastInDim S500x1 ![0] bcast_S500_S500x1_0 (Host.divf (F := Ideal) (broadcastInDim S500 ![] bcast_S_S500 (constant (F := Ideal) S_ .f32 0x3F800000#32))
          (maximumf (F := Ideal) (Host.scatterAdd (F := Ideal) scatter_S500_S100000x1_S100000_n_0_0_1 (broadcastInDim S500 ![] bcast_S_S500 (constant (F := Ideal) S_ .f32 0x00000000#32)) (broadcastInDim S100000x1 ![0] bcast_S100000_S100000x1_0 (x8)) (broadcastInDim S100000 ![] bcast_S_S100000 (constant (F := Ideal) S_ .f32 0x3F800000#32))) (broadcastInDim S500 ![] bcast_S_S500 (constant (F := Ideal) S_ .f32 0x3F800000#32)))) := rfl

end Cert.ReferenceIdeal.RefValue

end
-- ==== Proof.RefValue.lean ====
/-
  The reference program's three results are the network of KSpec, stage by stage.

  Inside out: the three root layers and the three final layers are dense layers (a product plus a spread bias row);
  each aggregate is the same gather and scatter-add on both sides, applied to stages already identified; each
  convolution layer divides the aggregate by the clamped in-degree before the product where the layer shapes scale
  the product by the reciprocal afterwards, which is the same extended real entry by entry (LayerHost).  Every proof
  unfolds one layer of names on each side, rewrites the inner stages by the earlier equations, and applies one
  generic equation; no gather or scatter-add is ever opened.
-/
import proofs.«118985_j35038343201327_2_alg».proof.Proof.Gen.ReferenceIdeal.Read
import proofs.«118985_j35038343201327_2_alg».proof.Proof.KSpec
import proofs.«118985_j35038343201327_2_alg».proof.Proof.LibDenseHost
import proofs.«118985_j35038343201327_2_alg».proof.Proof.LayerHost
import proofs.«118985_j35038343201327_2_alg».proof.Proof.RefBridge

noncomputable section

namespace Cert.ReferenceIdeal.RefValue

open Idealize.ShloMosaic Idealize.ShloMosaic.ValueIdx Cert.ReferenceIdeal Cert.ReferenceIdeal.Gen Cert.Hetero Cert.Hetero.Layer Cert.Lib.Dense

variable (x0 : (⟨S50000x3, .f32⟩ : BufTy).Contents (Elt Ideal)) (x1 : (⟨S100000x770, .f32⟩ : BufTy).Contents (Elt Ideal)) (x2 : (⟨S500x9, .f32⟩ : BufTy).Contents (Elt Ideal))
  (x3 x4 x5 x6 : (⟨S500000, .i32⟩ : BufTy).Contents (Elt Ideal)) (x7 x8 x9 x10 : (⟨S100000, .i32⟩ : BufTy).Contents (Elt Ideal))
  (x11 : (⟨S3x128, .f32⟩ : BufTy).Contents (Elt Ideal)) (x12 : (⟨S128, .f32⟩ : BufTy).Contents (Elt Ideal)) (x13 : (⟨S770x128, .f32⟩ : BufTy).Contents (Elt Ideal)) (x14 : (⟨S128, .f32⟩ : BufTy).Contents (Elt Ideal))
  (x15 : (⟨S9x128, .f32⟩ : BufTy).Contents (Elt Ideal)) (x16 : (⟨S128, .f32⟩ : BufTy).Contents (Elt Ideal))
  (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal))
  (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
  (x25 : (⟨S128x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
  (x29 : (⟨S128x128, .f32⟩ : BufTy).Contents (Elt Ideal)) (x30 : (⟨S128, .f32⟩ : BufTy).Contents (Elt Ideal)) (x31 : (⟨S128x128, .f32⟩ : BufTy).Contents (Elt Ideal)) (x32 : (⟨S128, .f32⟩ : BufTy).Contents (Elt Ideal))
  (x33 : (⟨S128x128, .f32⟩ : BufTy).Contents (Elt Ideal)) (x34 : (⟨S128, .f32⟩ : BufTy).Contents (Elt Ideal)) (x35 : (⟨S128x128, .f32⟩ : BufTy).Contents (Elt Ideal)) (x36 : (⟨S128, .f32⟩ : BufTy).Contents (Elt Ideal))
  (x37 : (⟨S128x128, .f32⟩ : BufTy).Contents (Elt Ideal)) (x38 : (⟨S128, .f32⟩ : BufTy).Contents (Elt Ideal))

/-- Users' root layer. -/
theorem hu_eq : Read.val_main_v3 (F := Ideal) x0 x11 x12 = K.hu x0 x11 x12 := by
  unfold Read.val_main_v3 Read.val_main_v2 Read.val_main_v1 Read.val_main_v0
  unfold K.hu K.row
  exact (dense_id_eq_host dot_S50000x3_S3x128_S50000x128_1_0_0_1_n_n rfl rfl rfl rfl rfl rfl _ _ _ _ _ _).symm

/-- Posts' root layer. -/
theorem hp_eq : Read.val_main_v7 (F := Ideal) x1 x13 x14 = K.hp x1 x13 x14 := by
  unfold Read.val_main_v7 Read.val_main_v6 Read.val_main_v5 Read.val_main_v4
  unfold K.hp K.row
  exact (dense_id_eq_host dot_S100000x770_S770x128_S100000x128_1_0_0_1_n_n rfl rfl rfl rfl rfl rfl _ _ _ _ _ _).symm

/-- Subs' root layer. -/
theorem hs_eq : Read.val_main_v11 (F := Ideal) x2 x15 x16 = K.hs x2 x15 x16 := by
  unfold Read.val_main_v11 Read.val_main_v10 Read.val_main_v9 Read.val_main_v8
  unfold K.hs K.row
  exact (dense_id_eq_host dot_S500x9_S9x128_S500x128_1_0_0_1_n_n rfl rfl rfl rfl rfl rfl _ _ _ _ _ _).symm

/-- Layer one, users to posts: the aggregate of the users' root features. -/
theorem agg_up1_eq : Read.val_main_v21 (F := Ideal) x0 x3 x4 x11 x12 = K.agg_up (K.hu x0 x11 x12) x3 x4 := by
  unfold Read.val_main_v21 Read.val_main_v20 Read.val_main_v19 Read.val_main_v18 Read.val_main_v17 Read.val_main_v16 Read.val_main_v15 Read.val_main_v14 Read.val_main_v13 Read.val_main_v12 Read.val_main_c Read.val_main_cst Read.val_main_c_0
  rw [hu_eq]
  exact agg_up_bridge _ x3 x4

/-- Layer one, subs to posts. -/
theorem agg_rb1_eq : Read.val_main_v44 (F := Ideal) x2 x9 x10 x15 x16 = K.agg_rb (K.hs x2 x15 x16) x9 x10 := by
  unfold Read.val_main_v44 Read.val_main_v43 Read.val_main_v42 Read.val_main_v41 Read.val_main_v40 Read.val_main_v39 Read.val_main_v38 Read.val_main_v37 Read.val_main_v36 Read.val_main_v35 Read.val_main_c_4 Read.val_main_c_5 Read.val_main_cst_6
  rw [hs_eq]
  exact agg_rb_bridge _ x9 x10

/-- Layer one, posts to users. -/
theorem agg_ru1_eq : Read.val_main_v68 (F := Ideal) x1 x5 x6 x13 x14 = K.agg_ru (K.hp x1 x13 x14) x5 x6 := by
  unfold Read.val_main_v68 Read.val_main_v67 Read.val_main_v66 Read.val_main_v65 Read.val_main_v64 Read.val_main_v63 Read.val_main_v62 Read.val_main_v61 Read.val_main_v60 Read.val_main_v59 Read.val_main_c_10 Read.val_main_c_11 Read.val_main_cst_12
  rw [hp_eq]
  exact agg_ru_bridge _ x5 x6

/-- Layer one, posts to subs. -/
theorem agg_bt1_eq : Read.val_main_v91 (F := Ideal) x1 x7 x8 x13 x14 = K.agg_bt (K.hp x1 x13 x14) x7 x8 := by
  unfold Read.val_main_v91 Read.val_main_v90 Read.val_main_v89 Read.val_main_v88 Read.val_main_v87 Read.val_main_v86 Read.val_main_v85 Read.val_main_v84 Read.val_main_v83 Read.val_main_v82 Read.val_main_c_16 Read.val_main_c_17 Read.val_main_cst_18
  rw [hp_eq]
  exact agg_bt_bridge _ x7 x8

/-- Posts after the first convolution layer. -/
theorem p1_eq : Read.val_main_v106 (F := Ideal) x0 x2 x3 x4 x9 x10 x11 x12 x15 x16 x17 x18 x23 x24 = K.p1 x0 x2 x3 x4 x9 x10 x11 x12 x15 x16 x17 x18 x23 x24 := by
  unfold Read.val_main_v106 Read.val_main_v58 Read.val_main_v57 Read.val_main_v56 Read.val_main_v55 Read.val_main_v54 Read.val_main_v53 Read.val_main_v52 Read.val_main_v51 Read.val_main_v50 Read.val_main_v49 Read.val_main_v48 Read.val_main_v47 Read.val_main_v46 Read.val_main_v45 Read.val_main_v34 Read.val_main_v33 Read.val_main_v32 Read.val_main_v31 Read.val_main_v30 Read.val_main_v29 Read.val_main_v28 Read.val_main_v27 Read.val_main_v26 Read.val_main_v25 Read.val_main_v24 Read.val_main_v23 Read.val_main_v22 Read.val_main_call1_v0 Read.val_main_call1_cst Read.val_main_cst_1 Read.val_main_cst_2 Read.val_main_cst_3 Read.val_main_cst_7 Read.val_main_cst_8 Read.val_main_cst_9
  rw [agg_up1_eq, agg_rb1_eq]
  unfold K.p1 K.convP K.row
  rw [inv_up_bridge, inv_rb_bridge]
  refine (comb2_eq_host dot_S100000x128_S128x128_S100000x128_1_0_0_1_n_n rfl rfl rfl rfl rfl rfl _ _ _ _ _ _ _ _ _ _ _ _ _ _ _ ?_ ?_ ?_ ?_ ?_ ?_ ?_ _ _ _ _ _).symm
  · exact fun i => splat_one_apply _ i
  · exact fun i => splat_one_apply _ i
  · exact fun i => splat_one_apply _ i
  · exact fun i => splat_one_apply _ i
  · exact fun i => splat_one_apply _ i
  · exact fun i => splat_one_apply _ i
  · exact fun i => splat_zero_apply _ i

/-- Users after the first convolution layer. -/
theorem u1_eq : Read.val_main_v105 (F := Ideal) x1 x5 x6 x13 x14 x19 x20 = K.u1 x1 x5 x6 x13 x14 x19 x20 := by
  unfold Read.val_main_v105 Read.val_main_v81 Read.val_main_v80 Read.val_main_v79 Read.val_main_v78 Read.val_main_v77 Read.val_main_v76 Read.val_main_v75 Read.val_main_v74 Read.val_main_v73 Read.val_main_v72 Read.val_main_v71 Read.val_main_v70 Read.val_main_v69 Read.val_main_call0_v0 Read.val_main_call0_cst Read.val_main_cst_13 Read.val_main_cst_14 Read.val_main_cst_15
  rw [agg_ru1_eq]
  unfold K.u1 K.convU K.row
  rw [inv_ru_bridge]
  refine (comb1_eq_host dot_S50000x128_S128x128_S50000x128_1_0_0_1_n_n rfl rfl rfl rfl rfl rfl _ _ _ _ _ _ _ _ ?_ ?_ ?_ ?_ _ _ _ _ _).symm
  · exact fun i => splat_one_apply _ i
  · exact fun i => splat_one_apply _ i
  · exact fun i => splat_one_apply _ i
  · exact fun i => splat_zero_apply _ i

/-- Subs after the first convolution layer. -/
theorem s1_eq : Read.val_main_v107 (F := Ideal) x1 x7 x8 x13 x14 x21 x22 = K.s1 x1 x7 x8 x13 x14 x21 x22 := by
  unfold Read.val_main_v107 Read.val_main_v104 Read.val_main_v103 Read.val_main_v102 Read.val_main_v101 Read.val_main_v100 Read.val_main_v99 Read.val_main_v98 Read.val_main_v97 Read.val_main_v96 Read.val_main_v95 Read.val_main_v94 Read.val_main_v93 Read.val_main_v92 Read.val_main_call2_v0 Read.val_main_call2_cst Read.val_main_cst_19 Read.val_main_cst_20 Read.val_main_cst_21
  rw [agg_bt1_eq]
  unfold K.s1 K.convS K.row
  rw [inv_bt_bridge]
  refine (comb1_eq_host dot_S500x128_S128x128_S500x128_1_0_0_1_n_n rfl rfl rfl rfl rfl rfl _ _ _ _ _ _ _ _ ?_ ?_ ?_ ?_ _ _ _ _ _).symm
  · exact fun i => splat_one_apply _ i
  · exact fun i => splat_one_apply _ i
  · exact fun i => splat_one_apply _ i
  · exact fun i => splat_zero_apply _ i

/-- Layer two, users to posts. -/
theorem agg_up2_eq : Read.val_main_v117 (F := Ideal) x1 x3 x4 x5 x6 x13 x14 x19 x20 = K.agg_up (K.u1 x1 x5 x6 x13 x14 x19 x20) x3 x4 := by
  unfold Read.val_main_v117 Read.val_main_v116 Read.val_main_v115 Read.val_main_v114 Read.val_main_v113 Read.val_main_v112 Read.val_main_v111 Read.val_main_v110 Read.val_main_v109 Read.val_main_v108 Read.val_main_c_22 Read.val_main_c_23 Read.val_main_cst_24
  rw [u1_eq]
  exact agg_up_bridge _ x3 x4

/-- Layer two, subs to posts. -/
theorem agg_rb2_eq : Read.val_main_v140 (F := Ideal) x1 x7 x8 x9 x10 x13 x14 x21 x22 = K.agg_rb (K.s1 x1 x7 x8 x13 x14 x21 x22) x9 x10 := by
  unfold Read.val_main_v140 Read.val_main_v139 Read.val_main_v138 Read.val_main_v137 Read.val_main_v136 Read.val_main_v135 Read.val_main_v134 Read.val_main_v133 Read.val_main_v132 Read.val_main_v131 Read.val_main_c_28 Read.val_main_c_29 Read.val_main_cst_30
  rw [s1_eq]
  exact agg_rb_bridge _ x9 x10

/-- Layer two, posts to users. -/
theorem agg_ru2_eq : Read.val_main_v164 (F := Ideal) x0 x2 x3 x4 x5 x6 x9 x10 x11 x12 x15 x16 x17 x18 x23 x24 = K.agg_ru (K.p1 x0 x2 x3 x4 x9 x10 x11 x12 x15 x16 x17 x18 x23 x24) x5 x6 := by
  unfold Read.val_main_v164 Read.val_main_v163 Read.val_main_v162 Read.val_main_v161 Read.val_main_v160 Read.val_main_v159 Read.val_main_v158 Read.val_main_v157 Read.val_main_v156 Read.val_main_v155 Read.val_main_c_34 Read.val_main_c_35 Read.val_main_cst_36
  rw [p1_eq]
  exact agg_ru_bridge _ x5 x6

/-- Layer two, posts to subs. -/
theorem agg_bt2_eq : Read.val_main_v187 (F := Ideal) x0 x2 x3 x4 x7 x8 x9 x10 x11 x12 x15 x16 x17 x18 x23 x24 = K.agg_bt (K.p1 x0 x2 x3 x4 x9 x10 x11 x12 x15 x16 x17 x18 x23 x24) x7 x8 := by
  unfold Read.val_main_v187 Read.val_main_v186 Read.val_main_v185 Read.val_main_v184 Read.val_main_v183 Read.val_main_v182 Read.val_main_v181 Read.val_main_v180 Read.val_main_v179 Read.val_main_v178 Read.val_main_c_40 Read.val_main_c_41 Read.val_main_cst_42
  rw [p1_eq]
  exact agg_bt_bridge _ x7 x8

/-- Posts after the second convolution layer. -/
theorem p2_eq : Read.val_main_v202 (F := Ideal) x1 x3 x4 x5 x6 x7 x8 x9 x10 x13 x14 x19 x20 x21 x22 x25 x26 x31 x32 = K.p2 x1 x3 x4 x5 x6 x7 x8 x9 x10 x13 x14 x19 x20 x21 x22 x25 x26 x31 x32 := by
  unfold Read.val_main_v202 Read.val_main_v154 Read.val_main_v153 Read.val_main_v152 Read.val_main_v151 Read.val_main_v150 Read.val_main_v149 Read.val_main_v148 Read.val_main_v147 Read.val_main_v146 Read.val_main_v145 Read.val_main_v144 Read.val_main_v143 Read.val_main_v142 Read.val_main_v141 Read.val_main_v130 Read.val_main_v129 Read.val_main_v128 Read.val_main_v127 Read.val_main_v126 Read.val_main_v125 Read.val_main_v124 Read.val_main_v123 Read.val_main_v122 Read.val_main_v121 Read.val_main_v120 Read.val_main_v119 Read.val_main_v118 Read.val_main_call4_v0 Read.val_main_call4_cst Read.val_main_cst_25 Read.val_main_cst_26 Read.val_main_cst_27 Read.val_main_cst_31 Read.val_main_cst_32 Read.val_main_cst_33
  rw [agg_up2_eq, agg_rb2_eq]
  unfold K.p2 K.convP K.row
  rw [inv_up_bridge, inv_rb_bridge]
  refine (comb2_eq_host dot_S100000x128_S128x128_S100000x128_1_0_0_1_n_n rfl rfl rfl rfl rfl rfl _ _ _ _ _ _ _ _ _ _ _ _ _ _ _ ?_ ?_ ?_ ?_ ?_ ?_ ?_ _ _ _ _ _).symm
  · exact fun i => splat_one_apply _ i
  · exact fun i => splat_one_apply _ i
  · exact fun i => splat_one_apply _ i
  · exact fun i => splat_one_apply _ i
  · exact fun i => splat_one_apply _ i
  · exact fun i => splat_one_apply _ i
  · exact fun i => splat_zero_apply _ i

/-- Users after the second convolution layer. -/
theorem u2_eq : Read.val_main_v201 (F := Ideal) x0 x2 x3 x4 x5 x6 x9 x10 x11 x12 x15 x16 x17 x18 x23 x24 x27 x28 = K.u2 x0 x2 x3 x4 x5 x6 x9 x10 x11 x12 x15 x16 x17 x18 x23 x24 x27 x28 := by
  unfold Read.val_main_v201 Read.val_main_v177 Read.val_main_v176 Read.val_main_v175 Read.val_main_v174 Read.val_main_v173 Read.val_main_v172 Read.val_main_v171 Read.val_main_v170 Read.val_main_v169 Read.val_main_v168 Read.val_main_v167 Read.val_main_v166 Read.val_main_v165 Read.val_main_call3_v0 Read.val_main_call3_cst Read.val_main_cst_37 Read.val_main_cst_38 Read.val_main_cst_39
  rw [agg_ru2_eq]
  unfold K.u2 K.convU K.row
  rw [inv_ru_bridge]
  refine (comb1_eq_host dot_S50000x128_S128x128_S50000x128_1_0_0_1_n_n rfl rfl rfl rfl rfl rfl _ _ _ _ _ _ _ _ ?_ ?_ ?_ ?_ _ _ _ _ _).symm
  · exact fun i => splat_one_apply _ i
  · exact fun i => splat_one_apply _ i
  · exact fun i => splat_one_apply _ i
  · exact fun i => splat_zero_apply _ i

/-- Subs after the second convolution layer. -/
theorem s2_eq : Read.val_main_v203 (F := Ideal) x0 x2 x3 x4 x7 x8 x9 x10 x11 x12 x15 x16 x17 x18 x23 x24 x29 x30 = K.s2 x0 x2 x3 x4 x7 x8 x9 x10 x11 x12 x15 x16 x17 x18 x23 x24 x29 x30 := by
  unfold Read.val_main_v203 Read.val_main_v200 Read.val_main_v199 Read.val_main_v198 Read.val_main_v197 Read.val_main_v196 Read.val_main_v195 Read.val_main_v194 Read.val_main_v193 Read.val_main_v192 Read.val_main_v191 Read.val_main_v190 Read.val_main_v189 Read.val_main_v188 Read.val_main_call5_v0 Read.val_main_call5_cst Read.val_main_cst_43 Read.val_main_cst_44 Read.val_main_cst_45
  rw [agg_bt2_eq]
  unfold K.s2 K.convS K.row
  rw [inv_bt_bridge]
  refine (comb1_eq_host dot_S500x128_S128x128_S500x128_1_0_0_1_n_n rfl rfl rfl rfl rfl rfl _ _ _ _ _ _ _ _ ?_ ?_ ?_ ?_ _ _ _ _ _).symm
  · exact fun i => splat_one_apply _ i
  · exact fun i => splat_one_apply _ i
  · exact fun i => splat_one_apply _ i
  · exact fun i => splat_zero_apply _ i

/-- The users' result. -/
theorem user_eq : Read.val_main_v207 (F := Ideal) x0 x2 x3 x4 x5 x6 x9 x10 x11 x12 x15 x16 x17 x18 x23 x24 x27 x28 x33 x34 = K.outUser x0 x2 x3 x4 x5 x6 x9 x10 x11 x12 x15 x16 x17 x18 x23 x24 x27 x28 x33 x34 := by
  unfold Read.val_main_v207 Read.val_main_v206 Read.val_main_v205 Read.val_main_v204
  rw [u2_eq]
  unfold K.outUser K.row
  exact (dense_id_eq_host dot_S50000x128_S128x128_S50000x128_1_0_0_1_n_n rfl rfl rfl rfl rfl rfl _ _ _ _ _ _).symm

/-- The posts' result. -/
theorem post_eq : Read.val_main_v211 (F := Ideal) x1 x3 x4 x5 x6 x7 x8 x9 x10 x13 x14 x19 x20 x21 x22 x25 x26 x31 x32 x35 x36 = K.outPost x1 x3 x4 x5 x6 x7 x8 x9 x10 x13 x14 x19 x20 x21 x22 x25 x26 x31 x32 x35 x36 := by
  unfold Read.val_main_v211 Read.val_main_v210 Read.val_main_v209 Read.val_main_v208
  rw [p2_eq]
  unfold K.outPost K.row
  exact (dense_id_eq_host dot_S100000x128_S128x128_S100000x128_1_0_0_1_n_n rfl rfl rfl rfl rfl rfl _ _ _ _ _ _).symm

/-- The subs' result. -/
theorem sub_eq : Read.val_main_v215 (F := Ideal) x0 x2 x3 x4 x7 x8 x9 x10 x11 x12 x15 x16 x17 x18 x23 x24 x29 x30 x37 x38 = K.outSub x0 x2 x3 x4 x7 x8 x9 x10 x11 x12 x15 x16 x17 x18 x23 x24 x29 x30 x37 x38 := by
  unfold Read.val_main_v215 Read.val_main_v214 Read.val_main_v213 Read.val_main_v212
  rw [s2_eq]
  unfold K.outSub K.row
  exact (dense_id_eq_host dot_S500x128_S128x128_S500x128_1_0_0_1_n_n rfl rfl rfl rfl rfl rfl _ _ _ _ _ _).symm

end Cert.ReferenceIdeal.RefValue

end
-- ==== Proof.lean ====
/-
  Equivalence of a Pallas implementation of a two-layer relational graph network with its plain reference, on the
  extended reals.

  Both programs compute, for three node types (users, posts, subs) joined by four edge relations, linear root features,
  two convolution layers and a linear head per type.  In a convolution layer a destination node receives, per
  relation, the MEAN of its in-neighbours' features times a weight matrix, plus a bias, and the result is clamped below
  at zero.  The reference divides the neighbours' sum by the in-degree (at least one) and then multiplies by the
  weights; the kernel multiplies the sum by the weights first and scales each row by the reciprocal in-degree
  afterwards.  The reciprocal of an extended real that is at least one is a nonnegative real, and a nonnegative real
  factor moves through a finite sum of products on all extended reals, so the two orders agree entry by entry with no
  finiteness assumption.  The gathers along edges and the scatter-adds by destination are the same host operations on
  both sides, applied to equal arguments; they are carried unopened.

  The kernel side: each of the twelve pipelined regions leaves, in its output array, one whole-array function of its
  input arrays (the Region modules), and the fold of the buffer contents through the program's segments (the Fold
  modules) composes them into the three results as functions of the arguments (`Cert.Hetero.K`).  The reference side:
  its run's three result terms are the same three functions (`RefValue`).
-/
import proofs.«118985_j35038343201327_2_alg».proof.Defs
import proofs.«118985_j35038343201327_2_alg».proof.Proof.Gen.Kernel
import proofs.«118985_j35038343201327_2_alg».proof.Proof.Gen.Kernel.Frame
import proofs.«118985_j35038343201327_2_alg».proof.Proof.Gen.KernelIdeal
import proofs.«118985_j35038343201327_2_alg».proof.Proof.Gen.KernelIdeal.Frame
import proofs.«118985_j35038343201327_2_alg».proof.Proof.Gen.ReferenceIdeal
import proofs.«118985_j35038343201327_2_alg».proof.Proof.Gen.Pre_finite_inputs
import proofs.«118985_j35038343201327_2_alg».proof.Proof.Gen.ReferenceIdeal.Run
import proofs.«118985_j35038343201327_2_alg».proof.Proof.Gen.ReferenceIdeal.Read
import proofs.«118985_j35038343201327_2_alg».proof.Proof.KSpec
import proofs.«118985_j35038343201327_2_alg».proof.Proof.KernelRun
import proofs.«118985_j35038343201327_2_alg».proof.Proof.FoldHeads
import proofs.«118985_j35038343201327_2_alg».proof.Proof.KernelValue
import proofs.«118985_j35038343201327_2_alg».proof.Proof.RefValue
import Idealize.ShloMosaic.Adequacy
import Idealize.ShloMosaic.Init

noncomputable section

namespace Cert.Proof

open Idealize.ShloMosaic Idealize.SL.Sem Cert.Hetero

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- Both runs end with the network's three functions of the (agreeing) arguments in their result buffers. -/
theorem algebraic : Cert.algebraic_KernelIdeal_ReferenceIdeal := by
  intro m ρ m' ρ' _ hagree
  refine ⟨_, _, _, Cert.KernelIdeal.Fold.run_value m ρ, ?_⟩
  refine (θ_run Cert.ReferenceIdeal.defs _ _).mono (fun r h c => ⟨?_, ?_, ?_, (h c).2.2.2⟩)
    (Cert.ReferenceIdeal.Value.run (F := Ideal) m' ρ')
  · rw [(h c).1, Cert.ReferenceIdeal.Read.val_main_v207_eq, Cert.ReferenceIdeal.RefValue.user_eq,
      (hagree c).1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1]
  · rw [(h c).2.1, Cert.ReferenceIdeal.Read.val_main_v211_eq, Cert.ReferenceIdeal.RefValue.post_eq,
      (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.1]
  · rw [(h c).2.2.1, Cert.ReferenceIdeal.Read.val_main_v215_eq, Cert.ReferenceIdeal.RefValue.sub_eq,
      (hagree c).1, (hagree c).2.2.1, (hagree c).2.2.2.1, (hagree c).2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
